-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S3072x1024 : Shape := ⟨2, ![3072, 1024]⟩
abbrev S1024x1024 : Shape := ⟨2, ![1024, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S1024x1024 .f32) (main_arg8 : FVec F S1024x1024 .f32) (main_arg9 : FVec F S1024x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  main_v48

def fn_part1 {F : FTy → Type} [FloatOps F] (main_arg4 : FVec F S1024x1024 .f32) (main_arg5 : FVec F S1024x1024 .f32) (main_arg6 : FVec F S1024x1024 .f32) (main_arg7 : FVec F S1024x1024 .f32) (main_arg8 : FVec F S1024x1024 .f32) (main_arg9 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S2048x1024 .f32) (main_arg1 : FVec F S3072x1024 .f32) (main_arg2 : FVec F S1024x1024 .f32) (main_arg3 : FVec F S1024x1024 .f32) (main_arg4 : FVec F S1024x1024 .f32) (main_arg5 : FVec F S1024x1024 .f32) (main_arg6 : FVec F S1024x1024 .f32) (main_arg7 : FVec F S1024x1024 .f32) (main_arg8 : FVec F S1024x1024 .f32) (main_arg9 : FVec F S1024x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_v13 main_v16
-- ==== Kernel.lean ====
abbrev S2048x1024 : Shape := ⟨2, ![2048, 1024]⟩
abbrev S3072x1024 : Shape := ⟨2, ![3072, 1024]⟩
abbrev S1024x1024 : Shape := ⟨2, ![1024, 1024]⟩
abbrev S2048x3072 : Shape := ⟨2, ![2048, 3072]⟩
abbrev S512x1024 : Shape := ⟨2, ![512, 1024]⟩
abbrev S512x3072 : Shape := ⟨2, ![512, 3072]⟩
abbrev S3072x3072 : Shape := ⟨2, ![3072, 3072]⟩
abbrev S2048x16x64 : Shape := ⟨3, ![2048, 16, 64]⟩
abbrev S16x2048x64 : Shape := ⟨3, ![16, 2048, 64]⟩
abbrev S3072x16x64 : Shape := ⟨3, ![3072, 16, 64]⟩
abbrev S16x3072x64 : Shape := ⟨3, ![16, 3072, 64]⟩
abbrev S1x512x64 : Shape := ⟨3, ![1, 512, 64]⟩
abbrev S1x2048x64 : Shape := ⟨3, ![1, 2048, 64]⟩
abbrev S512x64 : Shape := ⟨2, ![512, 64]⟩
abbrev S2048x64 : Shape := ⟨2, ![2048, 64]⟩
abbrev S64x2048 : Shape := ⟨2, ![64, 2048]⟩
abbrev S512x2048 : Shape := ⟨2, ![512, 2048]⟩
abbrev S512 : Shape := ⟨1, ![512]⟩
abbrev S512x1 : Shape := ⟨2, ![512, 1]⟩
abbrev S1x3072x64 : Shape := ⟨3, ![1, 3072, 64]⟩
abbrev S3072x64 : Shape := ⟨2, ![3072, 64]⟩
abbrev S64x3072 : Shape := ⟨2, ![64, 3072]⟩
abbrev S16x64x3072 : Shape := ⟨3, ![16, 64, 3072]⟩
abbrev S16x64x2048 : Shape := ⟨3, ![16, 64, 2048]⟩

abbrev nBuf : Space → Nat
  | .hbm => 38
  | .vmem => 36
  | .smem => 0
  | _ => 0

abbrev bufTy : (tb : Table) → Fin (tcTables nBuf tb) → BufTy
  | .hbm, ⟨0, _⟩ => ⟨S2048x1024, .f32⟩
  | .hbm, ⟨1, _⟩ => ⟨S3072x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S2048x3072, .bf16⟩
  | .hbm, ⟨11, _⟩ => ⟨S3072x3072, .bf16⟩
  | .hbm, ⟨12, _⟩ => ⟨S2048x1024, .bf16⟩
  | .hbm, ⟨13, _⟩ => ⟨S2048x1024, .bf16⟩
  | .hbm, ⟨14, _⟩ => ⟨S2048x1024, .bf16⟩
  | .hbm, ⟨15, _⟩ => ⟨S3072x1024, .bf16⟩
  | .hbm, ⟨16, _⟩ => ⟨S3072x1024, .bf16⟩
  | .hbm, ⟨17, _⟩ => ⟨S3072x1024, .bf16⟩
  | .hbm, ⟨18, _⟩ => ⟨S2048x16x64, .bf16⟩
  | .hbm, ⟨19, _⟩ => ⟨S16x2048x64, .bf16⟩
  | .hbm, ⟨20, _⟩ => ⟨S2048x16x64, .bf16⟩
  | .hbm, ⟨21, _⟩ => ⟨S16x2048x64, .bf16⟩
  | .hbm, ⟨22, _⟩ => ⟨S2048x16x64, .bf16⟩
  | .hbm, ⟨23, _⟩ => ⟨S16x2048x64, .bf16⟩
  | .hbm, ⟨24, _⟩ => ⟨S3072x16x64, .bf16⟩
  | .hbm, ⟨25, _⟩ => ⟨S16x3072x64, .bf16⟩
  | .hbm, ⟨26, _⟩ => ⟨S3072x16x64, .bf16⟩
  | .hbm, ⟨27, _⟩ => ⟨S16x3072x64, .bf16⟩
  | .hbm, ⟨28, _⟩ => ⟨S3072x16x64, .bf16⟩
  | .hbm, ⟨29, _⟩ => ⟨S16x3072x64, .bf16⟩
  | .hbm, ⟨30, _⟩ => ⟨S16x3072x64, .bf16⟩
  | .hbm, ⟨31, _⟩ => ⟨S16x2048x64, .bf16⟩
  | .hbm, ⟨32, _⟩ => ⟨S16x64x3072, .bf16⟩
  | .hbm, ⟨33, _⟩ => ⟨S3072x1024, .bf16⟩
  | .hbm, ⟨34, _⟩ => ⟨S16x64x2048, .bf16⟩
  | .hbm, ⟨35, _⟩ => ⟨S2048x1024, .bf16⟩
  | .hbm, ⟨36, _⟩ => ⟨S3072x1024, .f32⟩
  | .hbm, ⟨37, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S512x3072, .bf16⟩
  | .local _ .vmem, ⟨6, _⟩ => ⟨S512x3072, .bf16⟩
  | .local _ .vmem, ⟨7, _⟩ => ⟨S512x1024, .f32⟩
  | .local _ .vmem, ⟨8, _⟩ => ⟨S512x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S512x3072, .bf16⟩
  | .local _ .vmem, ⟨13, _⟩ => ⟨S512x3072, .bf16⟩
  | .local _ .vmem, ⟨14, _⟩ => ⟨S1x512x64, .bf16⟩
  | .local _ .vmem, ⟨15, _⟩ => ⟨S1x512x64, .bf16⟩
  | .local _ .vmem, ⟨16, _⟩ => ⟨S1x2048x64, .bf16⟩
  | .local _ .vmem, ⟨17, _⟩ => ⟨S1x2048x64, .bf16⟩
  | .local _ .vmem, ⟨18, _⟩ => ⟨S1x512x64, .bf16⟩
  | .local _ .vmem, ⟨19, _⟩ => ⟨S1x512x64, .bf16⟩
  | .local _ .vmem, ⟨20, _⟩ => ⟨S1x512x64, .bf16⟩
  | .local _ .vmem, ⟨21, _⟩ => ⟨S1x512x64, .bf16⟩
  | .local _ .vmem, ⟨22, _⟩ => ⟨S1x3072x64, .bf16⟩
  | .local _ .vmem, ⟨23, _⟩ => ⟨S1x3072x64, .bf16⟩
  | .local _ .vmem, ⟨24, _⟩ => ⟨S1x512x64, .bf16⟩
  | .local _ .vmem, ⟨25, _⟩ => ⟨S1x512x64, .bf16⟩
  | .local _ .vmem, ⟨26, _⟩ => ⟨S512x1024, .bf16⟩
  | .local _ .vmem, ⟨27, _⟩ => ⟨S512x1024, .bf16⟩
  | .local _ .vmem, ⟨28, _⟩ => ⟨S1024x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .bf16⟩
  | .local _ .vmem, ⟨32, _⟩ => ⟨S512x1024, .bf16⟩
  | .local _ .vmem, ⟨33, _⟩ => ⟨S1024x1024, .f32⟩
  | .local _ .vmem, ⟨34, _⟩ => ⟨S512x1024, .f32⟩
  | .local _ .vmem, ⟨35, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg2_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem2_1 : DmaSem sig := 35

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![6], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x3072 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![16, 6], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1x2048x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 1 → Memref sig .tc .vmem S1x2048x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, false]

abbrev stage2_3 : Fin 2 → Memref sig .tc .vmem S1x512x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![16, 4], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x512x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S1x3072x64 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false]

abbrev stage3_2 : Fin 1 → Memref sig .tc .vmem S1x3072x64 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, false]

abbrev stage3_3 : Fin 2 → Memref sig .tc .vmem S1x512x64 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨1, ![6], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1024x1024 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S512x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  concatenates_S512x1024_S512x1024_S512x1024_S512x3072_d1 : Shape.Concatenates [S512x1024, S512x1024, S512x1024] S512x3072 1
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  slices_S2048x3072_S2048x1024_0_0 : S2048x3072.Slices ![0, 0] S2048x1024
  slices_S2048x3072_S2048x1024_0_1024 : S2048x3072.Slices ![0, 1024] S2048x1024
  slices_S2048x3072_S2048x1024_0_2048 : S2048x3072.Slices ![0, 2048] S2048x1024
  slices_S3072x3072_S3072x1024_0_0 : S3072x3072.Slices ![0, 0] S3072x1024
  slices_S3072x3072_S3072x1024_0_1024 : S3072x3072.Slices ![0, 1024] S3072x1024
  slices_S3072x3072_S3072x1024_0_2048 : S3072x3072.Slices ![0, 2048] S3072x1024
  shapeCasts_S2048x1024_S2048x16x64 : S2048x1024.ShapeCasts S2048x16x64
  transposes_S2048x16x64_S16x2048x64_1_0_2 : S2048x16x64.Transposes [1, 0, 2] S16x2048x64
  shapeCasts_S3072x1024_S3072x16x64 : S3072x1024.ShapeCasts S3072x16x64
  transposes_S3072x16x64_S16x3072x64_1_0_2 : S3072x16x64.Transposes [1, 0, 2] S16x3072x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  shapeCasts_S512x64_S1x512x64 : S512x64.ShapeCasts S1x512x64
  packedbf16_S1x512x64_S1x512x64_0_0_0 : (Rect.unit (s := S1x512x64) ![0, 0, 0] S1x512x64.size inb_S1x512x64_S1x512x64_0_0_0).PackedRows (EltTy.packing .bf16)
  inb_S1x3072x64_S1x3072x64_0_0_0 : ∀ a, (![0, 0, 0] : Fin 3 → Nat) a + S1x3072x64.size a ≤ S1x3072x64.size a
  h_S1x3072x64 : 0 < S1x3072x64.numel
  shapeCasts_S1x3072x64_S3072x64 : S1x3072x64.ShapeCasts S3072x64
  transposes_S3072x64_p1_0_S64x3072 : S3072x64.Transposes [1, 0] S64x3072
  reduces_S512x3072_S512 : S512x3072.Reduces [1] S512
  broadcasts_S512x1_S512x3072 : S512x1.Broadcasts S512x3072
  transposes_S16x3072x64_S16x64x3072_0_2_1 : S16x3072x64.Transposes [0, 2, 1] S16x64x3072
  shapeCasts_S16x64x3072_S3072x1024 : S16x64x3072.ShapeCasts S3072x1024
  transposes_S16x2048x64_S16x64x2048_0_2_1 : S16x2048x64.Transposes [0, 2, 1] S16x64x2048
  shapeCasts_S16x64x2048_S2048x1024 : S16x64x2048.ShapeCasts S2048x1024
  shapeCasts_S512x1024_S512x1024 : S512x1024.ShapeCasts S512x1024
  dot_S512x1024_S1024x1024_S512x1024_1_0_0_1_n_n_wf : DotDims.WF S512x1024 S1024x1024 S512x1024 [1] [0] [0] [1] [] []
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  dot_S512x64_S64x3072_S512x3072_1_0_0_1_n_n_wf : DotDims.WF S512x64 S64x3072 S512x3072 [1] [0] [0] [1] [] []
  dot_S512x3072_S3072x64_S512x64_1_0_0_1_n_n_wf : DotDims.WF S512x3072 S3072x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x1024.size a
  hwx0_0 : ∀ i : grid0.Coords, EltTy.bits .f32 = 32 ∨ (Rect.block (s := S2048x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x3072.size a ≤ S2048x3072.size a
  hwx0_4 : ∀ i : grid0.Coords, EltTy.bits .bf16 = 32 ∨ (Rect.block (s := S2048x3072) S512x3072.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S3072x1024.size a
  hwx1_0 : ∀ i : grid1.Coords, EltTy.bits .f32 = 32 ∨ (Rect.block (s := S3072x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x1024.size a
  hwx1_2 : ∀ i : grid1.Coords, EltTy.bits .f32 = 32 ∨ (Rect.block (s := S1024x1024) S1024x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .f32 = 32 ∨ (Rect.block (s := S1024x1024) S1024x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x3072.size a ≤ S3072x3072.size a
  hwx1_4 : ∀ i : grid1.Coords, EltTy.bits .bf16 = 32 ∨ (Rect.block (s := S3072x3072) S512x3072.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x64.size a ≤ S16x3072x64.size a
  hwx2_0 : ∀ i : grid2.Coords, EltTy.bits .bf16 = 32 ∨ (Rect.block (s := S16x3072x64) S1x512x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x2048x64.size a ≤ S16x2048x64.size a
  hwx2_1 : ∀ i : grid2.Coords, EltTy.bits .bf16 = 32 ∨ (Rect.block (s := S16x2048x64) S1x2048x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2048x64.size a ≤ S16x2048x64.size a
  hwx2_2 : ∀ i : grid2.Coords, EltTy.bits .bf16 = 32 ∨ (Rect.block (s := S16x2048x64) S1x2048x64.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512x64.size a ≤ S16x3072x64.size a
  hwx2_3 : ∀ i : grid2.Coords, EltTy.bits .bf16 = 32 ∨ (Rect.block (s := S16x3072x64) S1x512x64.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x512x64.size a ≤ S16x2048x64.size a
  hwx3_0 : ∀ i : grid3.Coords, EltTy.bits .bf16 = 32 ∨ (Rect.block (s := S16x2048x64) S1x512x64.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x3072x64.size a ≤ S16x3072x64.size a
  hwx3_1 : ∀ i : grid3.Coords, EltTy.bits .bf16 = 32 ∨ (Rect.block (s := S16x3072x64) S1x3072x64.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x3072x64.size a ≤ S16x3072x64.size a
  hwx3_2 : ∀ i : grid3.Coords, EltTy.bits .bf16 = 32 ∨ (Rect.block (s := S16x3072x64) S1x3072x64.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x512x64.size a ≤ S16x2048x64.size a
  hwx3_3 : ∀ i : grid3.Coords, EltTy.bits .bf16 = 32 ∨ (Rect.block (s := S16x2048x64) S1x512x64.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x1024.size a ≤ S3072x1024.size a
  hwx4_0 : ∀ i : grid4.Coords, EltTy.bits .bf16 = 32 ∨ (Rect.block (s := S3072x1024) S512x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .f32 = 32 ∨ (Rect.block (s := S1024x1024) S1024x1024.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x1024.size a ≤ S3072x1024.size a
  hwx4_2 : ∀ i : grid4.Coords, EltTy.bits .f32 = 32 ∨ (Rect.block (s := S3072x1024) S512x1024.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x1024.size a ≤ S2048x1024.size a
  hwx5_0 : ∀ i : grid5.Coords, EltTy.bits .bf16 = 32 ∨ (Rect.block (s := S2048x1024) S512x1024.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1024x1024.size a ≤ S1024x1024.size a
  hwx5_1 : ∀ i : grid5.Coords, EltTy.bits .f32 = 32 ∨ (Rect.block (s := S1024x1024) S1024x1024.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S512x1024.size a ≤ S2048x1024.size a
  hwx5_2 : ∀ i : grid5.Coords, EltTy.bits .f32 = 32 ∨ (Rect.block (s := S2048x1024) S512x1024.size (cc5_transform_2 i) (hinb5_2 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x64_S64x3072_S512x3072_1_0_0_1_n_n : DotDims S512x64 S64x3072 S512x3072 where
  lhsContracting := [1]
  rhsContracting := [0]
  lhsNonContracting := [0]
  rhsNonContracting := [1]
  lhsBatch := []
  rhsBatch := []
  wf := dot_S512x64_S64x3072_S512x3072_1_0_0_1_n_n_wf
def dot_S512x3072_S3072x64_S512x64_1_0_0_1_n_n : DotDims S512x3072 S3072x64 S512x64 where
  lhsContracting := [1]
  rhsContracting := [0]
  lhsNonContracting := [0]
  rhsNonContracting := [1]
  lhsBatch := []
  rhsBatch := []
  wf := dot_S512x3072_S3072x64_S512x64_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x3072.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S1024x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S512x3072.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v15) S1x512x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S1x2048x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S1x2048x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v20) S1x512x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v9) S1x512x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S1x3072x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v19) S1x3072x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v21) S1x512x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v23) S512x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v26) S512x1024.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v25) S512x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg9) S1024x1024.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v27) S512x1024.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S2048x1024 : Shape := ⟨2, ![2048, 1024]⟩
abbrev S3072x1024 : Shape := ⟨2, ![3072, 1024]⟩
abbrev S1024x1024 : Shape := ⟨2, ![1024, 1024]⟩
abbrev S2048x16x64 : Shape := ⟨3, ![2048, 16, 64]⟩
abbrev S16x2048x64 : Shape := ⟨3, ![16, 2048, 64]⟩
abbrev S3072x16x64 : Shape := ⟨3, ![3072, 16, 64]⟩
abbrev S16x3072x64 : Shape := ⟨3, ![16, 3072, 64]⟩
abbrev S16x3072x2048 : Shape := ⟨3, ![16, 3072, 2048]⟩
abbrev S_ : Shape := ⟨0, ![]⟩
abbrev S16x3072 : Shape := ⟨2, ![16, 3072]⟩
abbrev S16x3072x1 : Shape := ⟨3, ![16, 3072, 1]⟩
abbrev S16x2048x3072 : Shape := ⟨3, ![16, 2048, 3072]⟩
abbrev S16x2048 : Shape := ⟨2, ![16, 2048]⟩
abbrev S16x2048x1 : Shape := ⟨3, ![16, 2048, 1]⟩
abbrev S16x64x3072 : Shape := ⟨3, ![16, 64, 3072]⟩
abbrev S16x64x2048 : Shape := ⟨3, ![16, 64, 2048]⟩

abbrev nBuf : Space → Nat
  | .hbm => 72
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S3072x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S2048x1024, .f32⟩
  | .hbm, ⟨11, _⟩ => ⟨S2048x16x64, .f32⟩
  | .hbm, ⟨12, _⟩ => ⟨S16x2048x64, .f32⟩
  | .hbm, ⟨13, _⟩ => ⟨S2048x1024, .f32⟩
  | .hbm, ⟨14, _⟩ => ⟨S2048x16x64, .f32⟩
  | .hbm, ⟨15, _⟩ => ⟨S16x2048x64, .f32⟩
  | .hbm, ⟨16, _⟩ => ⟨S2048x1024, .f32⟩
  | .hbm, ⟨17, _⟩ => ⟨S2048x16x64, .f32⟩
  | .hbm, ⟨18, _⟩ => ⟨S16x2048x64, .f32⟩
  | .hbm, ⟨19, _⟩ => ⟨S3072x1024, .f32⟩
  | .hbm, ⟨20, _⟩ => ⟨S3072x16x64, .f32⟩
  | .hbm, ⟨21, _⟩ => ⟨S16x3072x64, .f32⟩
  | .hbm, ⟨22, _⟩ => ⟨S3072x1024, .f32⟩
  | .hbm, ⟨23, _⟩ => ⟨S3072x16x64, .f32⟩
  | .hbm, ⟨24, _⟩ => ⟨S16x3072x64, .f32⟩
  | .hbm, ⟨25, _⟩ => ⟨S3072x1024, .f32⟩
  | .hbm, ⟨26, _⟩ => ⟨S3072x16x64, .f32⟩
  | .hbm, ⟨27, _⟩ => ⟨S16x3072x64, .f32⟩
  | .hbm, ⟨28, _⟩ => ⟨S16x3072x2048, .f32⟩
  | .hbm, ⟨29, _⟩ => ⟨S_, .f32⟩
  | .hbm, ⟨30, _⟩ => ⟨S16x3072x2048, .f32⟩
  | .hbm, ⟨31, _⟩ => ⟨S16x3072x2048, .f32⟩
  | .hbm, ⟨32, _⟩ => ⟨S_, .f32⟩
  | .hbm, ⟨33, _⟩ => ⟨S16x3072, .f32⟩
  | .hbm, ⟨34, _⟩ => ⟨S_, .f32⟩
  | .hbm, ⟨35, _⟩ => ⟨S16x3072, .f32⟩
  | .hbm, ⟨36, _⟩ => ⟨S16x3072, .f32⟩
  | .hbm, ⟨37, _⟩ => ⟨S16x3072x1, .f32⟩
  | .hbm, ⟨38, _⟩ => ⟨S16x3072x2048, .f32⟩
  | .hbm, ⟨39, _⟩ => ⟨S16x3072x2048, .f32⟩
  | .hbm, ⟨40, _⟩ => ⟨S16x3072x2048, .f32⟩
  | .hbm, ⟨41, _⟩ => ⟨S_, .f32⟩
  | .hbm, ⟨42, _⟩ => ⟨S16x3072, .f32⟩
  | .hbm, ⟨43, _⟩ => ⟨S16x3072x1, .f32⟩
  | .hbm, ⟨44, _⟩ => ⟨S16x3072x2048, .f32⟩
  | .hbm, ⟨45, _⟩ => ⟨S16x3072x2048, .f32⟩
  | .hbm, ⟨46, _⟩ => ⟨S16x3072x64, .f32⟩
  | .hbm, ⟨47, _⟩ => ⟨S16x2048x3072, .f32⟩
  | .hbm, ⟨48, _⟩ => ⟨S_, .f32⟩
  | .hbm, ⟨49, _⟩ => ⟨S16x2048x3072, .f32⟩
  | .hbm, ⟨50, _⟩ => ⟨S16x2048x3072, .f32⟩
  | .hbm, ⟨51, _⟩ => ⟨S_, .f32⟩
  | .hbm, ⟨52, _⟩ => ⟨S16x2048, .f32⟩
  | .hbm, ⟨53, _⟩ => ⟨S_, .f32⟩
  | .hbm, ⟨54, _⟩ => ⟨S16x2048, .f32⟩
  | .hbm, ⟨55, _⟩ => ⟨S16x2048, .f32⟩
  | .hbm, ⟨56, _⟩ => ⟨S16x2048x1, .f32⟩
  | .hbm, ⟨57, _⟩ => ⟨S16x2048x3072, .f32⟩
  | .hbm, ⟨58, _⟩ => ⟨S16x2048x3072, .f32⟩
  | .hbm, ⟨59, _⟩ => ⟨S16x2048x3072, .f32⟩
  | .hbm, ⟨60, _⟩ => ⟨S_, .f32⟩
  | .hbm, ⟨61, _⟩ => ⟨S16x2048, .f32⟩
  | .hbm, ⟨62, _⟩ => ⟨S16x2048x1, .f32⟩
  | .hbm, ⟨63, _⟩ => ⟨S16x2048x3072, .f32⟩
  | .hbm, ⟨64, _⟩ => ⟨S16x2048x3072, .f32⟩
  | .hbm, ⟨65, _⟩ => ⟨S16x2048x64, .f32⟩
  | .hbm, ⟨66, _⟩ => ⟨S16x64x3072, .f32⟩
  | .hbm, ⟨67, _⟩ => ⟨S3072x1024, .f32⟩
  | .hbm, ⟨68, _⟩ => ⟨S16x64x2048, .f32⟩
  | .hbm, ⟨69, _⟩ => ⟨S2048x1024, .f32⟩
  | .hbm, ⟨70, _⟩ => ⟨S3072x1024, .f32⟩
  | .hbm, ⟨71, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]

class Facts₀ : Prop where
  shapeCasts_S2048x1024_S2048x16x64 : S2048x1024.ShapeCasts S2048x16x64
  transposes_S2048x16x64_S16x2048x64_1_0_2 : S2048x16x64.Transposes [1, 0, 2] S16x2048x64
  shapeCasts_S3072x1024_S3072x16x64 : S3072x1024.ShapeCasts S3072x16x64
  transposes_S3072x16x64_S16x3072x64_1_0_2 : S3072x16x64.Transposes [1, 0, 2] S16x3072x64
  bcast_S_S16x3072x2048 : S_.BroadcastsInDim S16x3072x2048 (![] : Fin 0 → Fin S16x3072x2048.rank)
  reducesTo_S16x3072x2048_S16x3072_d2 : S16x3072x2048.ReducesTo [2] S16x3072
  h_S_ : 0 < S_.numel
  bcast_S_S16x3072 : S_.BroadcastsInDim S16x3072 (![] : Fin 0 → Fin S16x3072.rank)
  bcast_S16x3072_S16x3072x1_0_1 : S16x3072.BroadcastsInDim S16x3072x1 (![0, 1] : Fin 2 → Fin S16x3072x1.rank)
  bcast_S16x3072x1_S16x3072x2048_0_1_2 : S16x3072x1.BroadcastsInDim S16x3072x2048 (![0, 1, 2] : Fin 3 → Fin S16x3072x2048.rank)
  bcast_S_S16x2048x3072 : S_.BroadcastsInDim S16x2048x3072 (![] : Fin 0 → Fin S16x2048x3072.rank)
  reducesTo_S16x2048x3072_S16x2048_d2 : S16x2048x3072.ReducesTo [2] S16x2048
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x3072_0_1_2 : S16x2048x1.BroadcastsInDim S16x2048x3072 (![0, 1, 2] : Fin 3 → Fin S16x2048x3072.rank)
  transposes_S16x3072x64_S16x64x3072_0_2_1 : S16x3072x64.Transposes [0, 2, 1] S16x64x3072
  shapeCasts_S16x64x3072_S3072x1024 : S16x64x3072.ShapeCasts S3072x1024
  transposes_S16x2048x64_S16x64x2048_0_2_1 : S16x2048x64.Transposes [0, 2, 1] S16x64x2048
  shapeCasts_S16x64x2048_S2048x1024 : S16x64x2048.ShapeCasts S2048x1024
  dot_S2048x1024_S1024x1024_S2048x1024_1_0_0_1_n_n_wf : DotDims.WF S2048x1024 S1024x1024 S2048x1024 [1] [0] [0] [1] [] []
  dot_S3072x1024_S1024x1024_S3072x1024_1_0_0_1_n_n_wf : DotDims.WF S3072x1024 S1024x1024 S3072x1024 [1] [0] [0] [1] [] []
  dot_S16x3072x64_S16x2048x64_S16x3072x2048_2_2_1_1_0_0_wf : DotDims.WF S16x3072x64 S16x2048x64 S16x3072x2048 [2] [2] [1] [1] [0] [0]
  dot_S16x3072x2048_S16x2048x64_S16x3072x64_2_1_1_2_0_0_wf : DotDims.WF S16x3072x2048 S16x2048x64 S16x3072x64 [2] [1] [1] [2] [0] [0]
  dot_S16x2048x64_S16x3072x64_S16x2048x3072_2_2_1_1_0_0_wf : DotDims.WF S16x2048x64 S16x3072x64 S16x2048x3072 [2] [2] [1] [1] [0] [0]
  dot_S16x2048x3072_S16x3072x64_S16x2048x64_2_1_1_2_0_0_wf : DotDims.WF S16x2048x3072 S16x3072x64 S16x2048x64 [2] [1] [1] [2] [0] [0]

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S3072x1024_S1024x1024_S3072x1024_1_0_0_1_n_n : DotDims S3072x1024 S1024x1024 S3072x1024 where
  lhsContracting := [1]
  rhsContracting := [0]
  lhsNonContracting := [0]
  rhsNonContracting := [1]
  lhsBatch := []
  rhsBatch := []
  wf := dot_S3072x1024_S1024x1024_S3072x1024_1_0_0_1_n_n_wf
def dot_S16x3072x64_S16x2048x64_S16x3072x2048_2_2_1_1_0_0 : DotDims S16x3072x64 S16x2048x64 S16x3072x2048 where
  lhsContracting := [2]
  rhsContracting := [2]
  lhsNonContracting := [1]
  rhsNonContracting := [1]
  lhsBatch := [0]
  rhsBatch := [0]
  wf := dot_S16x3072x64_S16x2048x64_S16x3072x2048_2_2_1_1_0_0_wf
def dot_S16x3072x2048_S16x2048x64_S16x3072x64_2_1_1_2_0_0 : DotDims S16x3072x2048 S16x2048x64 S16x3072x64 where
  lhsContracting := [2]
  rhsContracting := [1]
  lhsNonContracting := [1]
  rhsNonContracting := [2]
  lhsBatch := [0]
  rhsBatch := [0]
  wf := dot_S16x3072x2048_S16x2048x64_S16x3072x64_2_1_1_2_0_0_wf
def dot_S16x2048x64_S16x3072x64_S16x2048x3072_2_2_1_1_0_0 : DotDims S16x2048x64 S16x3072x64 S16x2048x3072 where
  lhsContracting := [2]
  rhsContracting := [2]
  lhsNonContracting := [1]
  rhsNonContracting := [1]
  lhsBatch := [0]
  rhsBatch := [0]
  wf := dot_S16x2048x64_S16x3072x64_S16x2048x3072_2_2_1_1_0_0_wf
def dot_S16x2048x3072_S16x3072x64_S16x2048x64_2_1_1_2_0_0 : DotDims S16x2048x3072 S16x3072x64 S16x2048x64 where
  lhsContracting := [2]
  rhsContracting := [1]
  lhsNonContracting := [1]
  rhsNonContracting := [2]
  lhsBatch := [0]
  rhsBatch := [0]
  wf := dot_S16x2048x3072_S16x3072x64_S16x2048x64_2_1_1_2_0_0_wf

class Facts : Prop extends Facts₀ where

variable [Facts]
-- ==== Proof.RunValues.lean ====
/-
  The idealized kernel's run with its two results named.

  @main is six kernel regions among two stretches of host operations. The buffer contents at each boundary are a fold
  from the launch memory; the last boundary's contents are what every unscoped buffer holds when @main returns. Here
  the run is stated with the two result arrays at those contents, beside the ten argument arrays as launched.
-/
import proofs.«132884_j27573690040724_2_alg».proof.Proof.Gen.KernelIdeal.Frame

set_option maxRecDepth 16384

noncomputable section

namespace Cert.KernelIdeal.RunValues

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with each result array at the last boundary's
    contents and each argument array as launched. -/
theorem run : θ_run defs (onTc (τ := τ) (main (F := F))) ⟨m, fun _ => 0, ρ⟩ (fun r => ∀ c : Dev nD,
      r.2.mem ((c.tc : Thread nD τ).loc main_v26) = W8 m ρ c (Proc.devRef .tc main_v26)
      ∧ r.2.mem ((c.tc : Thread nD τ).loc main_v27) = W8 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v26 (by decide)),
       h c _ (mem_uc main_v27 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.RunValues

end
-- ==== Proof.LibDotInner.lean ====
/-
  A product of two matrices along the last axis of the first and the first axis of the second, read at an entry.

  `x @ W` — a [M, K] matrix against a [K, N] matrix — has at (p, f) the entry Σ_k x[p, k] · W[k, f]. Over the extended reals
  this holds of the matrix unit started from the zero splat, whatever order it sums in. The dimension numbers enter only through
  four coordinate facts (which operand coordinate is the result's row, the result's column, the contraction's index); a
  caller proves them of its own record and gets the entry as a sum over `Fin K`.
-/
import Idealize.ShloMosaic.PureOps.Ideal.Laws
import Idealize.ShloMosaic.Lib.ValueIdx

noncomputable section

open scoped BigOperators

namespace Idealize.ShloMosaic.DotInner

open Idealize.ShloMosaic Idealize.ShloMosaic.ValueIdx

variable {M N K : ℕ} {φ₁ φ₂ : FTy}

/-- The two operand indices at result entry (p, f) and contraction coordinate k are (p, k) and (k, f). -/
theorem operand_idx (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin M) (f : Fin N) (k : Fin K) :
    D.lhsIdx (ix2 p f) ((contrEquiv1 D K hr hs).symm k) = ix2 p k
      ∧ D.rhsIdx (ix2 p f) ((contrEquiv1 D K hr hs).symm k) = ix2 k f := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact (hr0 _ _).trans hk
    | ⟨1, _⟩ => exact hr1 _ _

/-- THE MATRIX UNIT from the zero splat: entry (p, f) is Σ_k lhs[p, k] · rhs[k, f]. -/
theorem matmul_zero_apply (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotInner

end
-- ==== Proof.LibDotInnerHost.lean ====
/-
  The host's matrix product along the last axis of the first operand and the first axis of the second, read at an entry,
  and the six facts about a record of dimension numbers that both readings (the matrix unit's and the host's) ask for,
  bundled so that a caller proves them once per record.

  For a [M, K] matrix against a [K, N] matrix both products have at (p, f) the entry Σ_k x[p, k] · W[k, f] over the
  extended reals: the host's product carries no accumulator, the matrix unit's starts from the zero splat.
-/
import Idealize.ShloMosaic.PureOps.Ideal.Laws
import Idealize.ShloMosaic.Lib.ValueIdx
import proofs.«132884_j27573690040724_2_alg».proof.Proof.LibDotInner

noncomputable section

open scoped BigOperators

namespace Idealize.ShloMosaic.DotInner

open Idealize.ShloMosaic Idealize.ShloMosaic.ValueIdx

variable {M N K : ℕ} {φ₁ φ₂ : FTy}

/-- What a plain row-by-column product's dimension numbers say: one contracted axis of extent K; the left operand's
    coordinates are (result row, contraction index), the right operand's (contraction index, result column). -/
structure Plain (D : DotDims ⟨2, ![M, K]⟩ ⟨2, ![K, N]⟩ ⟨2, ![M, N]⟩) : Prop where
  rank : D.contr.rank = 1
  size : D.contr.size ⟨0, by omega⟩ = K
  l0 : ∀ j q, (D.lhsIdx j q 0).val = (j 0).val
  l1 : ∀ j q, (D.lhsIdx j q 1).val = (q ⟨0, by omega⟩).val
  r0 : ∀ j q, (D.rhsIdx j q 0).val = (q ⟨0, by omega⟩).val
  r1 : ∀ j q, (D.rhsIdx j q 1).val = (j 1).val

/-- The matrix unit from the zero splat, entry (p, f): Σ_k lhs[p, k] · rhs[k, f]. -/
theorem Plain.matmul_zero {D : DotDims ⟨2, ![M, K]⟩ ⟨2, ![K, N]⟩ ⟨2, ![M, N]⟩} (h : Plain D)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) :=
  matmul_zero_apply D h.rank h.size h.l0 h.l1 h.r0 h.r1 prec lhs rhs p f

/-- The host's product, entry (p, f): the same sum, with no accumulator. -/
theorem Plain.dotGeneral {D : DotDims ⟨2, ![M, K]⟩ ⟨2, ![K, N]⟩ ⟨2, ![M, N]⟩} (h : Plain D)
    (prec : Option ContractPrecision) (lhs : FVec Ideal ⟨2, ![M, K]⟩ φ₁) (rhs : FVec Ideal ⟨2, ![K, N]⟩ φ₂) (p : Fin M) (f : Fin N) :
    Host.dotGeneral (F := Ideal) D prec lhs rhs (ix2 p f) = ∑ k : Fin K, lhs (ix2 p k) * rhs (ix2 k f) := by
  show FloatOps.dotGeneral D prec .single lhs rhs (ix2 p f) = _
  rw [Ideal.dotGeneral_apply, ← Equiv.sum_comp (contrEquiv1 D K h.rank h.size).symm]
  refine Finset.sum_congr rfl fun k _ => ?_
  obtain ⟨el, er⟩ := operand_idx D h.rank h.size h.l0 h.l1 h.r0 h.r1 p f k
  rw [el, er]

/-- The six facts of a record D whose lists say rows-by-columns (left operand of shape sl contracted on its axis 1, right
    operand of shape sr on its axis 0, no batch axes): the contraction's rank and extent compute; the contracted
    coordinates are the library's single-axis lemmas; the kept coordinates are read off the index maps' own case split,
    whose two membership tests are decided on the record's lists. -/
macro "plain_record " D:term ", " sl:term ", " sr:term : term => `(
  { rank := rfl
    size := rfl
    l0 := fun j q => by
      unfold DotDims.lhsIdx
      rw [dif_neg (show ¬(0 : Fin ($sl).rank) ∈ ($D).lhsBatch by decide),
        dif_pos (show (0 : Fin ($sl).rank) ∈ ($D).lhsNonContracting by decide)]
      rfl
    l1 := fun j q => DotDims.lhsIdx_val_of_single $D rfl j q
    r0 := fun j q => DotDims.rhsIdx_val_of_single $D rfl j q
    r1 := fun j q => by
      unfold DotDims.rhsIdx
      rw [dif_neg (show ¬(1 : Fin ($sr).rank) ∈ ($D).rhsBatch by decide),
        dif_pos (show (1 : Fin ($sr).rank) ∈ ($D).rhsNonContracting by decide)]
      rfl })

end Idealize.ShloMosaic.DotInner

end
-- ==== Proof.ProjectionBlocks.lean ====
/-
  The two fused projection regions, read entry by entry.

  Each region multiplies a row-blocked input X ([R, 1024], blocks of 512 rows) with three whole [1024, 1024] weights and
  stores the three products side by side in one [R, 3072] output: row r holds x_r · W1 in columns 0 … 1023, x_r · W2 in
  columns 1024 … 2047, x_r · W3 in columns 2048 … 3071. Over the extended reals the roundings to the narrow format and back
  are the identity and the matrix unit started from the zero splat is the plain sum Σ_k x[r, k] · W[k, j].

  The steps: a concatenation of three equal pieces read in each band; the body's stored value at an entry of each band; the
  whole output as ONE function of the arrays the region finds (fused0, fused1); what a grid point writes back is its block of
  that function; the row blocks tile the output; so the output array is that function, which is then read band by band.
-/
import proofs.«132884_j27573690040724_2_alg».proof.Proof.Gen.KernelIdeal.Frame
import proofs.«132884_j27573690040724_2_alg».proof.Proof.LibDotInnerHost
import Idealize.ShloMosaic.Lib.ValueIdx
import Idealize.ShloMosaic.Lib.Pipeline.Value
import Idealize.ShloMosaic.PureOps.Ideal.Laws

set_option maxRecDepth 16384

noncomputable section

namespace Cert.KernelIdeal.Projection

open Cert.KernelIdeal Cert.KernelIdeal.Gen Idealize.ShloMosaic Idealize.ShloMosaic.ValueIdx Idealize.ShloMosaic.Pipeline
open Idealize.ShloMosaic.TcCoe
open scoped BigOperators

/-! ## Shared pieces -/

/-- The zero offsets of a whole-block access, as the constant function. -/
theorem zero_offsets : (![0, 0] : Fin 2 → Nat) = fun _ => 0 := funext fun a => by fin_cases a <;> rfl

/-- The projections' dimension numbers say rows by columns: one contracted axis of extent 1024, the left operand indexed
    (row, k), the right (k, column). -/
theorem plainD : DotInner.Plain dot_S512x1024_S1024x1024_S512x1024_1_0_0_1_n_n :=
  plain_record dot_S512x1024_S1024x1024_S512x1024_1_0_0_1_n_n, S512x1024, S1024x1024

/-- Three [512,1024] pieces laid side by side along the columns, read at a column of the first. -/
theorem concat3_first {α : Type} (a b c : S512x1024.Idx → α) (p : Fin 512) (q : Fin 1024) :
    concatenate S512x3072 1 [⟨S512x1024, a⟩, ⟨S512x1024, b⟩, ⟨S512x1024, c⟩]
        concatenates_S512x1024_S512x1024_S512x1024_S512x3072_d1 (ix2 p (⟨q.val, by omega⟩ : Fin 3072)) = a (ix2 p q) := by
  refine concatenate_apply_piece (t := S512x3072) 1 _ _ _ 0 (by simp) S512x1024 a rfl rfl 0 rfl (ix2 p q) ?_ ?_
  · intro b hb
    match b with
    | ⟨0, _⟩ => rfl
    | ⟨1, _⟩ => exact absurd rfl hb
  · show 0 + q.val = q.val
    omega

/-- The same, at a column of the second piece. -/
theorem concat3_second {α : Type} (a b c : S512x1024.Idx → α) (p : Fin 512) (q : Fin 1024) :
    concatenate S512x3072 1 [⟨S512x1024, a⟩, ⟨S512x1024, b⟩, ⟨S512x1024, c⟩]
        concatenates_S512x1024_S512x1024_S512x1024_S512x3072_d1 (ix2 p (⟨1024 + q.val, by omega⟩ : Fin 3072)) = b (ix2 p q) := by
  refine concatenate_apply_piece (t := S512x3072) 1 _ _ _ 1 (by simp) S512x1024 b rfl rfl 1024 rfl (ix2 p q) ?_ ?_
  · intro b hb
    match b with
    | ⟨0, _⟩ => rfl
    | ⟨1, _⟩ => exact absurd rfl hb
  · rfl

/-- The same, at a column of the third piece. -/
theorem concat3_third {α : Type} (a b c : S512x1024.Idx → α) (p : Fin 512) (q : Fin 1024) :
    concatenate S512x3072 1 [⟨S512x1024, a⟩, ⟨S512x1024, b⟩, ⟨S512x1024, c⟩]
        concatenates_S512x1024_S512x1024_S512x1024_S512x3072_d1 (ix2 p (⟨2048 + q.val, by omega⟩ : Fin 3072)) = c (ix2 p q) := by
  refine concatenate_apply_piece (t := S512x3072) 1 _ _ _ 2 (by simp) S512x1024 c rfl rfl 2048 rfl (ix2 p q) ?_ ?_
  · intro b hb
    match b with
    | ⟨0, _⟩ => rfl
    | ⟨1, _⟩ => exact absurd rfl hb
  · rfl

/-- A column of one band as a column of the three bands laid side by side. -/
theorem band_first (q : Fin 1024) : q.val < 3072 := by omega
theorem band_second (q : Fin 1024) : 1024 + q.val < 3072 := by omega
theorem band_third (q : Fin 1024) : 2048 + q.val < 3072 := by omega

/-! ## Region 0: the [2048, 1024] input against its three weights -/

/-- The body's stored value at row p: in the first band of columns the product with the first weight. -/
theorem pay0_first (x0 : Vec Ideal S512x1024 .f32) (x1 x2 x3 : Vec Ideal S1024x1024 .f32) (p : Fin 512) (q : Fin 1024) :
    k0_pay1 (F := Ideal) x0 x1 x2 x3 (ix2 p (⟨q.val, by omega⟩ : Fin 3072)) = ∑ k : Fin 1024, x0 (ix2 p k) * x1 (ix2 k q) := by
  unfold k0_pay1
  refine (concat3_first _ _ _ p q).trans ?_
  exact plainD.matmul_zero none _ _ p q

/-- In the second band the product with the second weight. -/
theorem pay0_second (x0 : Vec Ideal S512x1024 .f32) (x1 x2 x3 : Vec Ideal S1024x1024 .f32) (p : Fin 512) (q : Fin 1024) :
    k0_pay1 (F := Ideal) x0 x1 x2 x3 (ix2 p (⟨1024 + q.val, by omega⟩ : Fin 3072)) = ∑ k : Fin 1024, x0 (ix2 p k) * x2 (ix2 k q) := by
  unfold k0_pay1
  refine (concat3_second _ _ _ p q).trans ?_
  exact plainD.matmul_zero none _ _ p q

/-- In the third band the product with the third weight. -/
theorem pay0_third (x0 : Vec Ideal S512x1024 .f32) (x1 x2 x3 : Vec Ideal S1024x1024 .f32) (p : Fin 512) (q : Fin 1024) :
    k0_pay1 (F := Ideal) x0 x1 x2 x3 (ix2 p (⟨2048 + q.val, by omega⟩ : Fin 3072)) = ∑ k : Fin 1024, x0 (ix2 p k) * x3 (ix2 k q) := by
  unfold k0_pay1
  refine (concat3_third _ _ _ p q).trans ?_
  exact plainD.matmul_zero none _ _ p q

/-- The fused projection as ONE array: row r, column c holds Σ_k X[r, k] · W[k, c mod 1024], W the weight that the band
    c / 1024 of the column names (first, second, third). -/
def fused0 (X : S2048x1024.Idx → EReal) (W1 W2 W3 : S1024x1024.Idx → EReal) : S2048x3072.Idx → EReal := fun i =>
  if h1 : (i 1).val < 1024 then ∑ k : Fin 1024, X (ix2 (⟨(i 0).val, (i 0).isLt⟩ : Fin 2048) k) * W1 (ix2 k (⟨(i 1).val, h1⟩ : Fin 1024))
  else if h2 : (i 1).val < 2048 then
    ∑ k : Fin 1024, X (ix2 (⟨(i 0).val, (i 0).isLt⟩ : Fin 2048) k) * W2 (ix2 k (⟨(i 1).val - 1024, by omega⟩ : Fin 1024))
  else ∑ k : Fin 1024, X (ix2 (⟨(i 0).val, (i 0).isLt⟩ : Fin 2048) k)
      * W3 (ix2 k (⟨(i 1).val - 2048, by have h : (i 1).val < 3072 := (i 1).isLt; omega⟩ : Fin 1024))

/-- The array read in its first band of columns. -/
theorem fused0_first (X : S2048x1024.Idx → EReal) (W1 W2 W3 : S1024x1024.Idx → EReal) (i : S2048x3072.Idx)
    (r : Fin 2048) (j : Fin 1024) (hr : (i 0).val = r.val) (hj : (i 1).val = j.val) :
    fused0 X W1 W2 W3 i = ∑ k : Fin 1024, X (ix2 r k) * W1 (ix2 k j) := by
  have hjl := j.isLt
  unfold fused0
  rw [dif_pos (show (i 1).val < 1024 by omega)]
  refine Finset.sum_congr rfl fun k _ => ?_
  rw [show (⟨(i 0).val, (i 0).isLt⟩ : Fin 2048) = r from Fin.ext hr]
  refine congrArg (fun y => X (ix2 r k) * W1 (ix2 k y)) (Fin.ext ?_)
  exact hj

/-- In its second band. -/
theorem fused0_second (X : S2048x1024.Idx → EReal) (W1 W2 W3 : S1024x1024.Idx → EReal) (i : S2048x3072.Idx)
    (r : Fin 2048) (j : Fin 1024) (hr : (i 0).val = r.val) (hj : (i 1).val = 1024 + j.val) :
    fused0 X W1 W2 W3 i = ∑ k : Fin 1024, X (ix2 r k) * W2 (ix2 k j) := by
  have hjl := j.isLt
  unfold fused0
  rw [dif_neg (show ¬(i 1).val < 1024 by omega), dif_pos (show (i 1).val < 2048 by omega)]
  refine Finset.sum_congr rfl fun k _ => ?_
  rw [show (⟨(i 0).val, (i 0).isLt⟩ : Fin 2048) = r from Fin.ext hr]
  refine congrArg (fun y => X (ix2 r k) * W2 (ix2 k y)) (Fin.ext ?_)
  show (i 1).val - 1024 = j.val
  omega

/-- In its third band. -/
theorem fused0_third (X : S2048x1024.Idx → EReal) (W1 W2 W3 : S1024x1024.Idx → EReal) (i : S2048x3072.Idx)
    (r : Fin 2048) (j : Fin 1024) (hr : (i 0).val = r.val) (hj : (i 1).val = 2048 + j.val) :
    fused0 X W1 W2 W3 i = ∑ k : Fin 1024, X (ix2 r k) * W3 (ix2 k j) := by
  have hjl := j.isLt
  unfold fused0
  rw [dif_neg (show ¬(i 1).val < 1024 by omega), dif_neg (show ¬(i 1).val < 2048 by omega)]
  refine Finset.sum_congr rfl fun k _ => ?_
  rw [show (⟨(i 0).val, (i 0).isLt⟩ : Fin 2048) = r from Fin.ext hr]
  refine congrArg (fun y => X (ix2 r k) * W3 (ix2 k y)) (Fin.ext ?_)
  show (i 1).val - 2048 = j.val
  omega

/-- THE BODY'S STORED BLOCK IS A BLOCK OF THE ARRAY: when the loaded row block is rows 512·b … 512·b + 511 of X and the
    three loaded weights are whole, the stored value at (p, q) is the array at (512·b + p, q). -/
theorem pay0_eq_fused (X : S2048x1024.Idx → EReal) (W1 W2 W3 : S1024x1024.Idx → EReal)
    (x0 : Vec Ideal S512x1024 .f32) (x1 x2 x3 : Vec Ideal S1024x1024 .f32) (b : ℕ)
    (h0 : ∀ (p : Fin 512) (k : Fin 1024) (hlt : b * 512 + p.val < 2048), x0 (ix2 p k) = X (ix2 (⟨b * 512 + p.val, hlt⟩ : Fin 2048) k))
    (h1 : x1 = W1) (h2 : x2 = W2) (h3 : x3 = W3)
    (j : S512x3072.Idx) (i : S2048x3072.Idx) (hi0 : (i 0).val = b * 512 + (j 0).val) (hi1 : (i 1).val = (j 1).val) :
    k0_pay1 (F := Ideal) x0 x1 x2 x3 j = fused0 X W1 W2 W3 i := by
  subst h1 h2 h3
  obtain ⟨p, q, rfl⟩ : ∃ (p : Fin 512) (q : Fin 3072), j = ix2 p q := ⟨j 0, j 1, eq_ix2 j⟩
  have hi0' : (i 0).val = b * 512 + p.val := hi0
  have hi1' : (i 1).val = q.val := hi1
  have hp := p.isLt
  have hq := q.isLt
  have hrow : b * 512 + p.val < 2048 := by have h : (i 0).val < 2048 := (i 0).isLt; omega
  by_cases c1 : q.val < 1024
  · obtain ⟨q', rfl⟩ : ∃ q' : Fin 1024, q = ⟨q'.val, band_first q'⟩ := ⟨⟨q.val, c1⟩, rfl⟩
    rw [pay0_first, fused0_first X x1 x2 x3 i ⟨b * 512 + p.val, hrow⟩ q' hi0' hi1']
    exact Finset.sum_congr rfl fun k _ => by rw [h0 p k hrow]
  · by_cases c2 : q.val < 2048
    · obtain ⟨q', rfl⟩ : ∃ q' : Fin 1024, q = ⟨1024 + q'.val, band_second q'⟩ :=
        ⟨⟨q.val - 1024, by omega⟩, Fin.ext (by show q.val = 1024 + (q.val - 1024); omega)⟩
      rw [pay0_second, fused0_second X x1 x2 x3 i ⟨b * 512 + p.val, hrow⟩ q' hi0' hi1']
      exact Finset.sum_congr rfl fun k _ => by rw [h0 p k hrow]
    · obtain ⟨q', rfl⟩ : ∃ q' : Fin 1024, q = ⟨2048 + q'.val, band_third q'⟩ :=
        ⟨⟨q.val - 2048, by omega⟩, Fin.ext (by show q.val = 2048 + (q.val - 2048); omega)⟩
      rw [pay0_third, fused0_third X x1 x2 x3 i ⟨b * 512 + p.val, hrow⟩ q' hi0' hi1']
      exact Finset.sum_congr rfl fun k _ => by rw [h0 p k hrow]

/-- The printed index maps of region 0, decided over its 4 grid points: the row-block windows (the input rows and the
    output) sit at block (t, 0), the three weights at block (0, 0). -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- WHAT POINT t WRITES BACK is block t of the fused projection of the arrays as the region finds them. -/
theorem flushed0_eq (V : (c : Dev nD) → (b : Ref sig .tc) → Buf (Elt Ideal) ((c : Thread nD τ).loc b)) (c : Dev nD) (t : Fin cfg0.N) :
    (dat0 (F := Ideal) V c).flushed 4 t
      = ((cfg0.win 4).blk t).view.read (Elt Ideal) (fused0 (V c main_arg0) (V c main_arg2) (V c main_arg3) (V c main_arg4)) := by
  show (cfg0.win 4).cut (grid0.coords t) ((dat0 (F := Ideal) V c).after 4 t) = _
  rw [after0_4]
  unfold out0_4
  rw [View.canon_unit_zero zero_offsets]
  simp only [View.ld_unit_zero (S := S512x1024) zero_offsets, View.ld_unit_zero (S := S1024x1024) zero_offsets]
  obtain ⟨e00, e01, e10, e11, e20, e21, e30, e31, e40, e41⟩ := index_facts0 t
  have ht : t.val < 4 := t.isLt
  funext j
  refine pay0_eq_fused (V c main_arg0) (V c main_arg2) (V c main_arg3) (V c main_arg4) _ _ _ _ t.val ?_ ?_ ?_ ?_ j
    (((cfg0.win 4).blk t).view.emb j) ?_ ?_
  · intro p k hlt
    show V c main_arg0 (((cfg0.win 0).blk t).view.emb (ix2 p k)) = V c main_arg0 _
    refine congrArg (V c main_arg0) (funext fun a => Fin.ext ?_)
    match a with
    | ⟨0, _⟩ => show win0_0.index t (0 : Fin 2) * 512 + 1 * p.val = t.val * 512 + p.val; omega
    | ⟨1, _⟩ => show win0_0.index t (1 : Fin 2) * 1024 + 1 * k.val = k.val; omega
  · funext y
    show V c main_arg2 (((cfg0.win 1).blk t).view.emb y) = V c main_arg2 y
    refine congrArg (V c main_arg2) (funext fun a => Fin.ext ?_)
    match a with
    | ⟨0, _⟩ => show win0_1.index t (0 : Fin 2) * 1024 + 1 * (y 0).val = (y 0).val; omega
    | ⟨1, _⟩ => show win0_1.index t (1 : Fin 2) * 1024 + 1 * (y 1).val = (y 1).val; omega
  · funext y
    show V c main_arg3 (((cfg0.win 2).blk t).view.emb y) = V c main_arg3 y
    refine congrArg (V c main_arg3) (funext fun a => Fin.ext ?_)
    match a with
    | ⟨0, _⟩ => show win0_2.index t (0 : Fin 2) * 1024 + 1 * (y 0).val = (y 0).val; omega
    | ⟨1, _⟩ => show win0_2.index t (1 : Fin 2) * 1024 + 1 * (y 1).val = (y 1).val; omega
  · funext y
    show V c main_arg4 (((cfg0.win 3).blk t).view.emb y) = V c main_arg4 y
    refine congrArg (V c main_arg4) (funext fun a => Fin.ext ?_)
    match a with
    | ⟨0, _⟩ => show win0_3.index t (0 : Fin 2) * 1024 + 1 * (y 0).val = (y 0).val; omega
    | ⟨1, _⟩ => show win0_3.index t (1 : Fin 2) * 1024 + 1 * (y 1).val = (y 1).val; omega
  · show win0_4.index t (0 : Fin 2) * 512 + 1 * (j 0).val = t.val * 512 + (j 0).val; omega
  · show win0_4.index t (1 : Fin 2) * 3072 + 1 * (j 1).val = (j 1).val; omega

/-- An index of the output array is in point t's block iff each coordinate is in the block's range on its axis. -/
theorem mem_block0 (t : Fin cfg0.N) (i : S2048x3072.Idx) :
    i ∈ ((cfg0.win 4).blk t).view.set ↔ ∀ a : Fin 2, win0_4.index t a * S512x3072.size a ≤ (i a).val
      ∧ (i a).val < win0_4.index t a * S512x3072.size a + S512x3072.size a := by
  show i ∈ ((View.whole main_v0).slice (win0_4.rect t)).set ↔ _
  rw [View.set_slice_whole, Rect.mem_set_unit]
  exact Iff.rfl

/-- The row block that holds a row is one of the grid's 4 points. -/
theorem row_block_lt0 (i : S2048x3072.Idx) : (i 0).val / 512 < cfg0.N := by
  have hi0 : (i 0).val < 2048 := (i 0).isLt
  show (i 0).val / 512 < 4
  omega

/-- Row r of the output lies in the block of point r / 512: the 4 row blocks tile the array. -/
theorem covered0 (i : S2048x3072.Idx) :
    ∃ t : Fin cfg0.N, (cfg0.win 4).flush t = true ∧ i ∈ ((cfg0.win 4).blk t).view.set := by
  have hi0 : (i 0).val < 2048 := (i 0).isLt
  have hi1 : (i 1).val < 3072 := (i 1).isLt
  refine ⟨⟨(i 0).val / 512, row_block_lt0 i⟩, flush0_4 _, ?_⟩
  rw [mem_block0]
  obtain ⟨-, -, -, -, -, -, -, -, e40, e41⟩ := index_facts0 ⟨(i 0).val / 512, row_block_lt0 i⟩
  have e40' : win0_4.index ⟨(i 0).val / 512, row_block_lt0 i⟩ (0 : Fin 2) = (i 0).val / 512 := e40
  intro a
  match a with
  | ⟨0, _⟩ =>
    show win0_4.index _ (0 : Fin 2) * 512 ≤ (i 0).val ∧ (i 0).val < win0_4.index _ (0 : Fin 2) * 512 + 512
    rw [e40']; omega
  | ⟨1, _⟩ =>
    show win0_4.index _ (1 : Fin 2) * 3072 ≤ (i 1).val ∧ (i 1).val < win0_4.index _ (1 : Fin 2) * 3072 + 3072
    rw [e41]; omega

/-- THE OUTPUT ARRAY after region 0 is the fused projection of the arrays as the region finds them. -/
theorem final0 (V : (c : Dev nD) → (b : Ref sig .tc) → Buf (Elt Ideal) ((c : Thread nD τ).loc b)) (c : Dev nD) :
    (dat0 (F := Ideal) V c).arrAt 4 cfg0.N = fused0 (V c main_arg0) (V c main_arg2) (V c main_arg3) (V c main_arg4) :=
  (dat0 (F := Ideal) V c).arrAt_eq_of_cover 4 (fused0 (V c main_arg0) (V c main_arg2) (V c main_arg3) (V c main_arg4))
    (fun t _ => flushed0_eq V c t) covered0

/-- REGION 0, READ: row r of its output holds, in the three bands of 1024 columns, the products of row r of the input
    with the three weights. -/
theorem proj0_at (V : (c : Dev nD) → (b : Ref sig .tc) → Buf (Elt Ideal) ((c : Thread nD τ).loc b)) (c : Dev nD)
    (r : Fin 2048) (j : Fin 1024) :
    (dat0 (F := Ideal) V c).arrAt 4 cfg0.N (ix2 r (⟨j.val, band_first j⟩ : Fin 3072))
        = ∑ k : Fin 1024, @HMul.hMul EReal EReal EReal _ (V c main_arg0 (ix2 r k)) (V c main_arg2 (ix2 k j))
    ∧ (dat0 (F := Ideal) V c).arrAt 4 cfg0.N (ix2 r (⟨1024 + j.val, band_second j⟩ : Fin 3072))
        = ∑ k : Fin 1024, @HMul.hMul EReal EReal EReal _ (V c main_arg0 (ix2 r k)) (V c main_arg3 (ix2 k j))
    ∧ (dat0 (F := Ideal) V c).arrAt 4 cfg0.N (ix2 r (⟨2048 + j.val, band_third j⟩ : Fin 3072))
        = ∑ k : Fin 1024, @HMul.hMul EReal EReal EReal _ (V c main_arg0 (ix2 r k)) (V c main_arg4 (ix2 k j)) := by
  rw [final0 V c]
  exact ⟨fused0_first _ _ _ _ _ r j rfl rfl, fused0_second _ _ _ _ _ r j rfl rfl, fused0_third _ _ _ _ _ r j rfl rfl⟩

/-! ## Region 1: the [3072, 1024] input against its three weights -/

/-- The body's stored value at row p: in the first band of columns the product with the first weight. -/
theorem pay1_first (x0 : Vec Ideal S512x1024 .f32) (x1 x2 x3 : Vec Ideal S1024x1024 .f32) (p : Fin 512) (q : Fin 1024) :
    k1_pay1 (F := Ideal) x0 x1 x2 x3 (ix2 p (⟨q.val, by omega⟩ : Fin 3072)) = ∑ k : Fin 1024, x0 (ix2 p k) * x1 (ix2 k q) := by
  unfold k1_pay1
  refine (concat3_first _ _ _ p q).trans ?_
  exact plainD.matmul_zero none _ _ p q

/-- In the second band the product with the second weight. -/
theorem pay1_second (x0 : Vec Ideal S512x1024 .f32) (x1 x2 x3 : Vec Ideal S1024x1024 .f32) (p : Fin 512) (q : Fin 1024) :
    k1_pay1 (F := Ideal) x0 x1 x2 x3 (ix2 p (⟨1024 + q.val, by omega⟩ : Fin 3072)) = ∑ k : Fin 1024, x0 (ix2 p k) * x2 (ix2 k q) := by
  unfold k1_pay1
  refine (concat3_second _ _ _ p q).trans ?_
  exact plainD.matmul_zero none _ _ p q

/-- In the third band the product with the third weight. -/
theorem pay1_third (x0 : Vec Ideal S512x1024 .f32) (x1 x2 x3 : Vec Ideal S1024x1024 .f32) (p : Fin 512) (q : Fin 1024) :
    k1_pay1 (F := Ideal) x0 x1 x2 x3 (ix2 p (⟨2048 + q.val, by omega⟩ : Fin 3072)) = ∑ k : Fin 1024, x0 (ix2 p k) * x3 (ix2 k q) := by
  unfold k1_pay1
  refine (concat3_third _ _ _ p q).trans ?_
  exact plainD.matmul_zero none _ _ p q

/-- The fused projection as ONE array: row r, column c holds Σ_k X[r, k] · W[k, c mod 1024], W the weight that the band
    c / 1024 of the column names (first, second, third). -/
def fused1 (X : S3072x1024.Idx → EReal) (W1 W2 W3 : S1024x1024.Idx → EReal) : S3072x3072.Idx → EReal := fun i =>
  if h1 : (i 1).val < 1024 then ∑ k : Fin 1024, X (ix2 (⟨(i 0).val, (i 0).isLt⟩ : Fin 3072) k) * W1 (ix2 k (⟨(i 1).val, h1⟩ : Fin 1024))
  else if h2 : (i 1).val < 2048 then
    ∑ k : Fin 1024, X (ix2 (⟨(i 0).val, (i 0).isLt⟩ : Fin 3072) k) * W2 (ix2 k (⟨(i 1).val - 1024, by omega⟩ : Fin 1024))
  else ∑ k : Fin 1024, X (ix2 (⟨(i 0).val, (i 0).isLt⟩ : Fin 3072) k)
      * W3 (ix2 k (⟨(i 1).val - 2048, by have h : (i 1).val < 3072 := (i 1).isLt; omega⟩ : Fin 1024))

/-- The array read in its first band of columns. -/
theorem fused1_first (X : S3072x1024.Idx → EReal) (W1 W2 W3 : S1024x1024.Idx → EReal) (i : S3072x3072.Idx)
    (r : Fin 3072) (j : Fin 1024) (hr : (i 0).val = r.val) (hj : (i 1).val = j.val) :
    fused1 X W1 W2 W3 i = ∑ k : Fin 1024, X (ix2 r k) * W1 (ix2 k j) := by
  have hjl := j.isLt
  unfold fused1
  rw [dif_pos (show (i 1).val < 1024 by omega)]
  refine Finset.sum_congr rfl fun k _ => ?_
  rw [show (⟨(i 0).val, (i 0).isLt⟩ : Fin 3072) = r from Fin.ext hr]
  refine congrArg (fun y => X (ix2 r k) * W1 (ix2 k y)) (Fin.ext ?_)
  exact hj

/-- In its second band. -/
theorem fused1_second (X : S3072x1024.Idx → EReal) (W1 W2 W3 : S1024x1024.Idx → EReal) (i : S3072x3072.Idx)
    (r : Fin 3072) (j : Fin 1024) (hr : (i 0).val = r.val) (hj : (i 1).val = 1024 + j.val) :
    fused1 X W1 W2 W3 i = ∑ k : Fin 1024, X (ix2 r k) * W2 (ix2 k j) := by
  have hjl := j.isLt
  unfold fused1
  rw [dif_neg (show ¬(i 1).val < 1024 by omega), dif_pos (show (i 1).val < 2048 by omega)]
  refine Finset.sum_congr rfl fun k _ => ?_
  rw [show (⟨(i 0).val, (i 0).isLt⟩ : Fin 3072) = r from Fin.ext hr]
  refine congrArg (fun y => X (ix2 r k) * W2 (ix2 k y)) (Fin.ext ?_)
  show (i 1).val - 1024 = j.val
  omega

/-- In its third band. -/
theorem fused1_third (X : S3072x1024.Idx → EReal) (W1 W2 W3 : S1024x1024.Idx → EReal) (i : S3072x3072.Idx)
    (r : Fin 3072) (j : Fin 1024) (hr : (i 0).val = r.val) (hj : (i 1).val = 2048 + j.val) :
    fused1 X W1 W2 W3 i = ∑ k : Fin 1024, X (ix2 r k) * W3 (ix2 k j) := by
  have hjl := j.isLt
  unfold fused1
  rw [dif_neg (show ¬(i 1).val < 1024 by omega), dif_neg (show ¬(i 1).val < 2048 by omega)]
  refine Finset.sum_congr rfl fun k _ => ?_
  rw [show (⟨(i 0).val, (i 0).isLt⟩ : Fin 3072) = r from Fin.ext hr]
  refine congrArg (fun y => X (ix2 r k) * W3 (ix2 k y)) (Fin.ext ?_)
  show (i 1).val - 2048 = j.val
  omega

/-- THE BODY'S STORED BLOCK IS A BLOCK OF THE ARRAY: when the loaded row block is rows 512·b … 512·b + 511 of X and the
    three loaded weights are whole, the stored value at (p, q) is the array at (512·b + p, q). -/
theorem pay1_eq_fused (X : S3072x1024.Idx → EReal) (W1 W2 W3 : S1024x1024.Idx → EReal)
    (x0 : Vec Ideal S512x1024 .f32) (x1 x2 x3 : Vec Ideal S1024x1024 .f32) (b : ℕ)
    (h0 : ∀ (p : Fin 512) (k : Fin 1024) (hlt : b * 512 + p.val < 3072), x0 (ix2 p k) = X (ix2 (⟨b * 512 + p.val, hlt⟩ : Fin 3072) k))
    (h1 : x1 = W1) (h2 : x2 = W2) (h3 : x3 = W3)
    (j : S512x3072.Idx) (i : S3072x3072.Idx) (hi0 : (i 0).val = b * 512 + (j 0).val) (hi1 : (i 1).val = (j 1).val) :
    k1_pay1 (F := Ideal) x0 x1 x2 x3 j = fused1 X W1 W2 W3 i := by
  subst h1 h2 h3
  obtain ⟨p, q, rfl⟩ : ∃ (p : Fin 512) (q : Fin 3072), j = ix2 p q := ⟨j 0, j 1, eq_ix2 j⟩
  have hi0' : (i 0).val = b * 512 + p.val := hi0
  have hi1' : (i 1).val = q.val := hi1
  have hp := p.isLt
  have hq := q.isLt
  have hrow : b * 512 + p.val < 3072 := by have h : (i 0).val < 3072 := (i 0).isLt; omega
  by_cases c1 : q.val < 1024
  · obtain ⟨q', rfl⟩ : ∃ q' : Fin 1024, q = ⟨q'.val, band_first q'⟩ := ⟨⟨q.val, c1⟩, rfl⟩
    rw [pay1_first, fused1_first X x1 x2 x3 i ⟨b * 512 + p.val, hrow⟩ q' hi0' hi1']
    exact Finset.sum_congr rfl fun k _ => by rw [h0 p k hrow]
  · by_cases c2 : q.val < 2048
    · obtain ⟨q', rfl⟩ : ∃ q' : Fin 1024, q = ⟨1024 + q'.val, band_second q'⟩ :=
        ⟨⟨q.val - 1024, by omega⟩, Fin.ext (by show q.val = 1024 + (q.val - 1024); omega)⟩
      rw [pay1_second, fused1_second X x1 x2 x3 i ⟨b * 512 + p.val, hrow⟩ q' hi0' hi1']
      exact Finset.sum_congr rfl fun k _ => by rw [h0 p k hrow]
    · obtain ⟨q', rfl⟩ : ∃ q' : Fin 1024, q = ⟨2048 + q'.val, band_third q'⟩ :=
        ⟨⟨q.val - 2048, by omega⟩, Fin.ext (by show q.val = 2048 + (q.val - 2048); omega)⟩
      rw [pay1_third, fused1_third X x1 x2 x3 i ⟨b * 512 + p.val, hrow⟩ q' hi0' hi1']
      exact Finset.sum_congr rfl fun k _ => by rw [h0 p k hrow]

/-- The printed index maps of region 1, decided over its 6 grid points: the row-block windows (the input rows and the
    output) sit at block (t, 0), the three weights at block (0, 0). -/
theorem index_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- WHAT POINT t WRITES BACK is block t of the fused projection of the arrays as the region finds them. -/
theorem flushed1_eq (V : (c : Dev nD) → (b : Ref sig .tc) → Buf (Elt Ideal) ((c : Thread nD τ).loc b)) (c : Dev nD) (t : Fin cfg1.N) :
    (dat1 (F := Ideal) V c).flushed 4 t
      = ((cfg1.win 4).blk t).view.read (Elt Ideal) (fused1 (V c main_arg1) (V c main_arg5) (V c main_arg6) (V c main_arg7)) := by
  show (cfg1.win 4).cut (grid1.coords t) ((dat1 (F := Ideal) V c).after 4 t) = _
  rw [after1_4]
  unfold out1_4
  rw [View.canon_unit_zero zero_offsets]
  simp only [View.ld_unit_zero (S := S512x1024) zero_offsets, View.ld_unit_zero (S := S1024x1024) zero_offsets]
  obtain ⟨e00, e01, e10, e11, e20, e21, e30, e31, e40, e41⟩ := index_facts1 t
  have ht : t.val < 6 := t.isLt
  funext j
  refine pay1_eq_fused (V c main_arg1) (V c main_arg5) (V c main_arg6) (V c main_arg7) _ _ _ _ t.val ?_ ?_ ?_ ?_ j
    (((cfg1.win 4).blk t).view.emb j) ?_ ?_
  · intro p k hlt
    show V c main_arg1 (((cfg1.win 0).blk t).view.emb (ix2 p k)) = V c main_arg1 _
    refine congrArg (V c main_arg1) (funext fun a => Fin.ext ?_)
    match a with
    | ⟨0, _⟩ => show win1_0.index t (0 : Fin 2) * 512 + 1 * p.val = t.val * 512 + p.val; omega
    | ⟨1, _⟩ => show win1_0.index t (1 : Fin 2) * 1024 + 1 * k.val = k.val; omega
  · funext y
    show V c main_arg5 (((cfg1.win 1).blk t).view.emb y) = V c main_arg5 y
    refine congrArg (V c main_arg5) (funext fun a => Fin.ext ?_)
    match a with
    | ⟨0, _⟩ => show win1_1.index t (0 : Fin 2) * 1024 + 1 * (y 0).val = (y 0).val; omega
    | ⟨1, _⟩ => show win1_1.index t (1 : Fin 2) * 1024 + 1 * (y 1).val = (y 1).val; omega
  · funext y
    show V c main_arg6 (((cfg1.win 2).blk t).view.emb y) = V c main_arg6 y
    refine congrArg (V c main_arg6) (funext fun a => Fin.ext ?_)
    match a with
    | ⟨0, _⟩ => show win1_2.index t (0 : Fin 2) * 1024 + 1 * (y 0).val = (y 0).val; omega
    | ⟨1, _⟩ => show win1_2.index t (1 : Fin 2) * 1024 + 1 * (y 1).val = (y 1).val; omega
  · funext y
    show V c main_arg7 (((cfg1.win 3).blk t).view.emb y) = V c main_arg7 y
    refine congrArg (V c main_arg7) (funext fun a => Fin.ext ?_)
    match a with
    | ⟨0, _⟩ => show win1_3.index t (0 : Fin 2) * 1024 + 1 * (y 0).val = (y 0).val; omega
    | ⟨1, _⟩ => show win1_3.index t (1 : Fin 2) * 1024 + 1 * (y 1).val = (y 1).val; omega
  · show win1_4.index t (0 : Fin 2) * 512 + 1 * (j 0).val = t.val * 512 + (j 0).val; omega
  · show win1_4.index t (1 : Fin 2) * 3072 + 1 * (j 1).val = (j 1).val; omega

/-- An index of the output array is in point t's block iff each coordinate is in the block's range on its axis. -/
theorem mem_block1 (t : Fin cfg1.N) (i : S3072x3072.Idx) :
    i ∈ ((cfg1.win 4).blk t).view.set ↔ ∀ a : Fin 2, win1_4.index t a * S512x3072.size a ≤ (i a).val
      ∧ (i a).val < win1_4.index t a * S512x3072.size a + S512x3072.size a := by
  show i ∈ ((View.whole main_v1).slice (win1_4.rect t)).set ↔ _
  rw [View.set_slice_whole, Rect.mem_set_unit]
  exact Iff.rfl

/-- The row block that holds a row is one of the grid's 6 points. -/
theorem row_block_lt1 (i : S3072x3072.Idx) : (i 0).val / 512 < cfg1.N := by
  have hi0 : (i 0).val < 3072 := (i 0).isLt
  show (i 0).val / 512 < 6
  omega

/-- Row r of the output lies in the block of point r / 512: the 6 row blocks tile the array. -/
theorem covered1 (i : S3072x3072.Idx) :
    ∃ t : Fin cfg1.N, (cfg1.win 4).flush t = true ∧ i ∈ ((cfg1.win 4).blk t).view.set := by
  have hi0 : (i 0).val < 3072 := (i 0).isLt
  have hi1 : (i 1).val < 3072 := (i 1).isLt
  refine ⟨⟨(i 0).val / 512, row_block_lt1 i⟩, flush1_4 _, ?_⟩
  rw [mem_block1]
  obtain ⟨-, -, -, -, -, -, -, -, e40, e41⟩ := index_facts1 ⟨(i 0).val / 512, row_block_lt1 i⟩
  have e40' : win1_4.index ⟨(i 0).val / 512, row_block_lt1 i⟩ (0 : Fin 2) = (i 0).val / 512 := e40
  intro a
  match a with
  | ⟨0, _⟩ =>
    show win1_4.index _ (0 : Fin 2) * 512 ≤ (i 0).val ∧ (i 0).val < win1_4.index _ (0 : Fin 2) * 512 + 512
    rw [e40']; omega
  | ⟨1, _⟩ =>
    show win1_4.index _ (1 : Fin 2) * 3072 ≤ (i 1).val ∧ (i 1).val < win1_4.index _ (1 : Fin 2) * 3072 + 3072
    rw [e41]; omega

/-- THE OUTPUT ARRAY after region 1 is the fused projection of the arrays as the region finds them. -/
theorem final1 (V : (c : Dev nD) → (b : Ref sig .tc) → Buf (Elt Ideal) ((c : Thread nD τ).loc b)) (c : Dev nD) :
    (dat1 (F := Ideal) V c).arrAt 4 cfg1.N = fused1 (V c main_arg1) (V c main_arg5) (V c main_arg6) (V c main_arg7) :=
  (dat1 (F := Ideal) V c).arrAt_eq_of_cover 4 (fused1 (V c main_arg1) (V c main_arg5) (V c main_arg6) (V c main_arg7))
    (fun t _ => flushed1_eq V c t) covered1

/-- REGION 1, READ: row r of its output holds, in the three bands of 1024 columns, the products of row r of the input
    with the three weights. -/
theorem proj1_at (V : (c : Dev nD) → (b : Ref sig .tc) → Buf (Elt Ideal) ((c : Thread nD τ).loc b)) (c : Dev nD)
    (r : Fin 3072) (j : Fin 1024) :
    (dat1 (F := Ideal) V c).arrAt 4 cfg1.N (ix2 r (⟨j.val, band_first j⟩ : Fin 3072))
        = ∑ k : Fin 1024, @HMul.hMul EReal EReal EReal _ (V c main_arg1 (ix2 r k)) (V c main_arg5 (ix2 k j))
    ∧ (dat1 (F := Ideal) V c).arrAt 4 cfg1.N (ix2 r (⟨1024 + j.val, band_second j⟩ : Fin 3072))
        = ∑ k : Fin 1024, @HMul.hMul EReal EReal EReal _ (V c main_arg1 (ix2 r k)) (V c main_arg6 (ix2 k j))
    ∧ (dat1 (F := Ideal) V c).arrAt 4 cfg1.N (ix2 r (⟨2048 + j.val, band_third j⟩ : Fin 3072))
        = ∑ k : Fin 1024, @HMul.hMul EReal EReal EReal _ (V c main_arg1 (ix2 r k)) (V c main_arg7 (ix2 k j)) := by
  rw [final1 V c]
  exact ⟨fused1_first _ _ _ _ _ r j rfl rfl, fused1_second _ _ _ _ _ r j rfl rfl, fused1_third _ _ _ _ _ r j rfl rfl⟩

end Cert.KernelIdeal.Projection

end
-- ==== Proof.AttentionSpec.lean ====
/-
  The mathematics both programs compute, stated once over plain index functions into the extended reals.

  For one attention head: a query row q and a key row k of width 64 give the logit (Σ_e q_e · k_e) · 1/8; over the
  keys the logits are turned into weights exp(s_k − max s) / Σ_k' exp(s_k' − max s), the maximum taken from the bottom
  element; the context entry is the weighted sum of one column of the values.
-/
import Idealize.ShloMosaic.PureOps.Ideal
import Idealize.ShloMosaic.Lib.ValueIdx
import Mathlib.Data.Finset.Fold

noncomputable section

open scoped BigOperators

namespace Cert.AttentionSpec

open Idealize.ShloMosaic Idealize.ShloMosaic.ValueIdx

/-- The scale 1/sqrt 64 = 1/8, as the single-precision word both programs print for it. -/
def eighth : EReal := Ideal.ofBits .f32 0x3E000000#32

/-- The scaled inner product of a query row and a key row. -/
def logit {dk : ℕ} (q k : Fin dk → EReal) : EReal := (∑ e : Fin dk, q e * k e) * eighth

/-- The largest logit, from the bottom element. -/
def top {n : ℕ} (s : Fin n → EReal) : EReal := (Finset.univ : Finset (Fin n)).fold max (⊥ : EReal) s

/-- The softmax weight of key k among logits s. -/
def weight {n : ℕ} (s : Fin n → EReal) (k : Fin n) : EReal :=
  Ideal.div (Ideal.exp (s k - top s)) (∑ k' : Fin n, Ideal.exp (s k' - top s))

/-- The softmax-weighted sum of v under logits s. -/
def attend {n : ℕ} (s v : Fin n → EReal) : EReal := ∑ k : Fin n, weight s k * v k

/-- One entry of the attention context: head h, query row q, feature d, from queries [16, nq, 64] and keys / values
    [16, nk, 64]. -/
def ctx {nq nk : ℕ} (Q : (⟨3, ![16, nq, 64]⟩ : Shape).Idx → EReal) (K V : (⟨3, ![16, nk, 64]⟩ : Shape).Idx → EReal)
    (h : Fin 16) (q : Fin nq) (d : Fin 64) : EReal :=
  attend (fun k : Fin nk => logit (fun e => Q (ix3 h q e)) (fun e => K (ix3 h k e))) (fun k => V (ix3 h k d))

end Cert.AttentionSpec

end
-- ==== Proof.LibMaxMinFold.lean ====
/-
  General facts about maxima and minima taken as folds, at the extended reals.

  1. Grouping. In a linear order the fold of `max` from a start value `b` over a finite family is the least upper bound
     of `b` and the family's terms; so the maximum of four such folds over four sub-families, each from the same `b`,
     is the fold over the whole family as soon as every index lies in one of the four (`b` counted four times is
     harmless: `max` is idempotent). The same for `min` and greatest lower bounds. Nothing is asked of the terms: the
     statements hold at +∞ and −∞.
  2. Reductions over ONE axis read at a result index, with the extended reals as values: a vector `multi_reduction` by
     `minimumf` and the host's one-operand `reduce` with a `maximumf` or `minimumf` body are the fold of `min` / `max`,
     from the initial value, over that axis's coordinates `k`, of the source at the result index with `k` inserted on
     the dropped axis. (For a vector `multi_reduction` by `maximumf` this is the library's
     `Ideal.multiReduction_maximumf_single`.)
-/
import Idealize.ShloMosaic.PureOps.Ideal.Laws
import Mathlib.Data.Finset.Fold

noncomputable section

namespace Cert.MaxMinFold

open Idealize.ShloMosaic

/-! ## Folding over four sub-families that cover the index set -/

section Runs

variable {α : Type} [LinearOrder α] {ι κ : Type} [Fintype ι] [Fintype κ]

/-- The maximum of four partial maxima, each folded from `b` over one sub-family `f ∘ g c`, is the maximum folded from
    `b` over the whole family `f`, when every index of `f` is `g c k` for some `c` and `k`. Both sides are the least upper
    bound of `b` and the terms of `f`. -/
theorem fold_max_runs (b : α) (f : ι → α) (g0 g1 g2 g3 : κ → ι)
    (hcov : ∀ i : ι, ∃ k : κ, g0 k = i ∨ g1 k = i ∨ g2 k = i ∨ g3 k = i) :
    max (max (max (Finset.univ.fold max b (f ∘ g0)) (Finset.univ.fold max b (f ∘ g1)))
        (Finset.univ.fold max b (f ∘ g2))) (Finset.univ.fold max b (f ∘ g3))
      = Finset.univ.fold max b f := by
  have hb : ∀ g : κ → ι, b ≤ Finset.univ.fold max b (f ∘ g) := fun g =>
    (Finset.le_fold_max _).2 (Or.inl le_rfl)
  have hk : ∀ (g : κ → ι) (k : κ), f (g k) ≤ Finset.univ.fold max b (f ∘ g) := fun g k =>
    (Finset.le_fold_max _).2 (Or.inr ⟨k, Finset.mem_univ k, le_rfl⟩)
  have hrun : ∀ g : κ → ι, Finset.univ.fold max b (f ∘ g) ≤ Finset.univ.fold max b f := fun g =>
    (Finset.fold_max_le _).2 ⟨(Finset.le_fold_max _).2 (Or.inl le_rfl),
      fun k _ => (Finset.le_fold_max _).2 (Or.inr ⟨g k, Finset.mem_univ _, le_rfl⟩)⟩
  apply le_antisymm
  · exact max_le (max_le (max_le (hrun g0) (hrun g1)) (hrun g2)) (hrun g3)
  · refine (Finset.fold_max_le _).2 ⟨?_, fun i _ => ?_⟩
    · exact le_max_of_le_right (hb g3)
    · obtain ⟨k, h | h | h | h⟩ := hcov i
      · rw [← h]; exact le_max_of_le_left (le_max_of_le_left (le_max_of_le_left (hk g0 k)))
      · rw [← h]; exact le_max_of_le_left (le_max_of_le_left (le_max_of_le_right (hk g1 k)))
      · rw [← h]; exact le_max_of_le_left (le_max_of_le_right (hk g2 k))
      · rw [← h]; exact le_max_of_le_right (hk g3 k)

/-- The same for the minimum: both sides are the greatest lower bound of `b` and the terms of `f`. -/
theorem fold_min_runs (b : α) (f : ι → α) (g0 g1 g2 g3 : κ → ι)
    (hcov : ∀ i : ι, ∃ k : κ, g0 k = i ∨ g1 k = i ∨ g2 k = i ∨ g3 k = i) :
    min (min (min (Finset.univ.fold min b (f ∘ g0)) (Finset.univ.fold min b (f ∘ g1)))
        (Finset.univ.fold min b (f ∘ g2))) (Finset.univ.fold min b (f ∘ g3))
      = Finset.univ.fold min b f := by
  have hb : ∀ g : κ → ι, Finset.univ.fold min b (f ∘ g) ≤ b := fun g =>
    (Finset.fold_min_le _).2 (Or.inl le_rfl)
  have hk : ∀ (g : κ → ι) (k : κ), Finset.univ.fold min b (f ∘ g) ≤ f (g k) := fun g k =>
    (Finset.fold_min_le _).2 (Or.inr ⟨k, Finset.mem_univ k, le_rfl⟩)
  have hrun : ∀ g : κ → ι, Finset.univ.fold min b f ≤ Finset.univ.fold min b (f ∘ g) := fun g =>
    (Finset.le_fold_min _).2 ⟨(Finset.fold_min_le _).2 (Or.inl le_rfl),
      fun k _ => (Finset.fold_min_le _).2 (Or.inr ⟨g k, Finset.mem_univ _, le_rfl⟩)⟩
  apply le_antisymm
  · refine (Finset.le_fold_min _).2 ⟨?_, fun i _ => ?_⟩
    · exact min_le_of_right_le (hb g3)
    · obtain ⟨k, h | h | h | h⟩ := hcov i
      · rw [← h]; exact min_le_of_left_le (min_le_of_left_le (min_le_of_left_le (hk g0 k)))
      · rw [← h]; exact min_le_of_left_le (min_le_of_left_le (min_le_of_right_le (hk g1 k)))
      · rw [← h]; exact min_le_of_left_le (min_le_of_right_le (hk g2 k))
      · rw [← h]; exact min_le_of_right_le (hk g3 k)
  · exact le_min (le_min (le_min (hrun g0) (hrun g1)) (hrun g2)) (hrun g3)

end Runs

/-! ## One-axis reductions at the extended reals, read at a result index -/

section OneAxis

variable {s t : Shape} {a : Fin s.rank}

/-- A float vector `multi_reduction` by `minimumf` over one axis, at the extended reals: the fold of `min`, from the
    accumulator word's value, over that axis's coordinates. -/
theorem multiReduction_minimumf_single {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]
  exact h.fold_filter_drop_single _ _ src j

/-- The host's one-operand `reduce` with a `maximumf` body over one axis, at the extended reals: the fold of `max`, from
    the initial value's element, over that axis's coordinates. -/
theorem hostReduce_maximumf_single {u : Shape} {φ : FTy} (x : s.Idx → EReal) (init : u.Idx → EReal)
    (h' : s.ReducesTo [a] t) (h : s.Reduces [a] t) (hu : 0 < u.numel) (j : t.Idx) :
    Host.reduce (FloatOps.maximumf (F := Ideal) (φ := φ)) x init h' hu j
      = (Finset.univ : Finset (Fin (s.size a))).fold max (init (Shape.Idx.first hu)) (x ∘ h.lift j) :=
  Host.reduce_eq_fold_single (FloatOps.maximumf (F := Ideal) (φ := φ)) x init h' h hu j

/-- The same with a `minimumf` body: the fold of `min`. -/
theorem hostReduce_minimumf_single {u : Shape} {φ : FTy} (x : s.Idx → EReal) (init : u.Idx → EReal)
    (h' : s.ReducesTo [a] t) (h : s.Reduces [a] t) (hu : 0 < u.numel) (j : t.Idx) :
    Host.reduce (FloatOps.minimumf (F := Ideal) (φ := φ)) x init h' hu j
      = (Finset.univ : Finset (Fin (s.size a))).fold min (init (Shape.Idx.first hu)) (x ∘ h.lift j) :=
  Host.reduce_eq_fold_single (FloatOps.minimumf (F := Ideal) (φ := φ)) x init h' h hu j

end OneAxis

end Cert.MaxMinFold

end
-- ==== Proof.LibBitFolds.lean ====
/-
  Single bits, their conjunctions and disjunctions over a finite family, and their readings as numbers.

  Two bits are equal when each is 1 exactly when the other is; a fold by AND from 1 over a finite family of bits is 1
  exactly when every member is, a fold by OR from 0 exactly when some member is; the maximum over a finite family of
  "1.0 where the bit is set, else 0.0", started from the -inf word and compared with 0.0 (how a row-wise "any" of a
  mask is computed with float lanes), is 1 exactly when some bit of the family is set; and a bit read as a number is
  the same whether it is read unsigned as it stands or widened to 32 bits and read signed.  All over the extended
  reals of the ideal instance; nothing here mentions a program.
-/
import Idealize.ShloMosaic.PureOps.Ideal.Laws
import Idealize.ShloMosaic.PureOps.Reduce
import Idealize.ShloMosaic.Lib.ValueIdx
import Idealize.ShloMosaic.Lib.Affine
import Idealize.ShloMosaic.Lib.IdealHost

noncomputable section

namespace Cert.BitFolds

open Idealize.ShloMosaic Idealize.ShloMosaic.ValueIdx

/-- Two bits are equal when each is 1 exactly when the other is. -/
theorem bit_ext {a b : BitVec 1} (h : a = 1#1 ↔ b = 1#1) : a = b := by
  rcases BitVec.eq_zero_or_eq_one a with ha | ha <;> rcases BitVec.eq_zero_or_eq_one b with hb | hb <;> subst ha <;> subst hb
  · rfl
  · exact absurd (h.mpr rfl) (by decide)
  · exact absurd (h.mp rfl) (by decide)
  · rfl

/-- A truth value as a bit is 1 exactly when it is true. -/
theorem ofBool_eq_one {b : Bool} : BitVec.ofBool b = 1#1 ↔ b = true := by cases b <;> decide

/-- A bit read as a number: 0 or 1. -/
def bitR (b : BitVec 1) : EReal := ((b.toNat : ℝ) : EReal)

/-- Widening a bit to 32 bits and reading the word signed gives the same number. -/
theorem toInt_setWidth_bit (b : BitVec 1) : ((((b.setWidth 32).toInt : ℤ) : ℝ) : EReal) = bitR b := by
  rcases BitVec.eq_zero_or_eq_one b with h | h <;> subst h <;> simp [bitR]

theorem bitR_zero : bitR 0#1 = 0 := by simp [bitR]
theorem bitR_one : bitR 1#1 = 1 := by simp [bitR]

/-- A conjunction over a finite family of bits is 1 exactly when every member is. -/
theorem fold_andi_eq_one {ι : Type} [DecidableEq ι] (f : ι → BitVec 1) (s : Finset ι) :
    s.fold IntOp.andi 1#1 f = 1#1 ↔ ∀ k ∈ s, f k = 1#1 := by
  induction s using Finset.induction_on with
  | empty => simp
  | insert a s ha ih =>
    rw [Finset.fold_insert ha, IntOp.andi_eq_one, ih]
    constructor
    · rintro ⟨h1, h2⟩ k hk
      rcases Finset.mem_insert.mp hk with rfl | hk
      · exact h1
      · exact h2 k hk
    · intro h
      exact ⟨h a (Finset.mem_insert_self a s), fun k hk => h k (Finset.mem_insert_of_mem hk)⟩

/-- A disjunction over a finite family of bits is 1 exactly when some member is. -/
theorem fold_ori_eq_one {ι : Type} [DecidableEq ι] (f : ι → BitVec 1) (s : Finset ι) :
    s.fold IntOp.ori 0#1 f = 1#1 ↔ ∃ k ∈ s, f k = 1#1 := by
  induction s using Finset.induction_on with
  | empty => simp
  | insert a s ha ih =>
    rw [Finset.fold_insert ha, IntOp.ori_eq_one, ih]
    constructor
    · rintro (h | ⟨k, hk, h⟩)
      · exact ⟨a, Finset.mem_insert_self a s, h⟩
      · exact ⟨k, Finset.mem_insert_of_mem hk, h⟩
    · rintro ⟨k, hk, h⟩
      rcases Finset.mem_insert.mp hk with rfl | hk
      · exact Or.inl h
      · exact Or.inr ⟨k, hk, h⟩

/-- The -inf word is the bottom of the extended reals. -/
theorem ofBits_neg_inf_f32 : Ideal.ofBits .f32 0xFF800000#32 = ⊥ := by simp [Ideal.ofBits, Ideal.ieee]

/-- The row maximum, over a finite family, of "1.0 where the bit is set, else 0.0", started from -inf, is above 0.0
    exactly when some bit of the family is set — the float spelling of a disjunction. -/
theorem max_select_pos {ι : Type} (f : ι → BitVec 1) (s : Finset ι) :
    Ideal.cmp .ogt (s.fold max (Ideal.ofBits .f32 0xFF800000#32)
        (fun k => Scalar.select (f k) (Ideal.ofBits .f32 0x3F800000#32) (Ideal.ofBits .f32 0x00000000#32)))
      (Ideal.ofBits .f32 0x00000000#32) = 1#1 ↔ ∃ k ∈ s, f k = 1#1 := by
  rw [ofBits_neg_inf_f32, Ideal.ofBits_zero_f32, Ideal.ofBits_one_f32]
  unfold Ideal.cmp
  simp only [ofBool_eq_one, decide_eq_true_eq]
  rw [Finset.lt_fold_max]
  constructor
  · rintro (h | ⟨k, hk, h⟩)
    · exact absurd h (by simp)
    · refine ⟨k, hk, ?_⟩
      rcases BitVec.eq_zero_or_eq_one (f k) with h0 | h1
      · rw [h0, select_zero] at h; exact absurd h (lt_irrefl _)
      · exact h1
  · rintro ⟨k, hk, h⟩
    refine Or.inr ⟨k, hk, ?_⟩
    rw [h, select_one]
    exact zero_lt_one

end Cert.BitFolds

end
-- ==== Proof.ReferenceRead.lean ====
/-
  The reference program read at an index.

  Each of the eight matrix products of the reference is, at a row r and a column j, the sum over the contracted
  coordinate k of the left operand at (r, k) times the right operand at (k, j).  Each of the two attention directions is,
  at a head h, a query row q and a feature d, the softmax-weighted sum of the value column d under the scaled logits of
  query row q against every key row: the entry `ctx` of the specification.
-/
import proofs.«132884_j27573690040724_2_alg».proof.Proof.Gen.ReferenceIdeal.Read
import proofs.«132884_j27573690040724_2_alg».proof.Proof.AttentionSpec
import proofs.«132884_j27573690040724_2_alg».proof.Proof.LibMaxMinFold
import proofs.«132884_j27573690040724_2_alg».proof.Proof.LibBitFolds
import proofs.«132884_j27573690040724_2_alg».proof.Proof.LibDotInnerHost
import Idealize.ShloMosaic.Lib.ValueIdx
import Idealize.ShloMosaic.PureOps.Ideal.Laws

set_option maxRecDepth 16384

noncomputable section

open scoped BigOperators

namespace Cert.ReferenceIdeal.RefRead

open Cert.ReferenceIdeal Cert.ReferenceIdeal.Read Idealize.ShloMosaic Idealize.ShloMosaic.ValueIdx
open Cert.ReferenceIdeal.Facts₀

variable [Facts]

/-! ## The matrix products -/

/-- The product %0 at row r, column j. -/
theorem ref_v0 (x0 : (⟨S2048x1024, .f32⟩ : BufTy).Contents (Elt Ideal)) (x2 : (⟨S1024x1024, .f32⟩ : BufTy).Contents (Elt Ideal))
    (r : Fin 2048) (j : Fin 1024) :
    val_main_v0 (F := Ideal) x0 x2 (ix2 r j) = ∑ k : Fin 1024, x0 (ix2 r k) * x2 (ix2 k j) := by
  rw [val_main_v0_apply]
  refine Finset.sum_congr rfl fun k _ => ?_
  have el : lidx_main_v0 (ix2 r j) k = ix2 r k :=
    funext fun a => Fin.ext (by match a with | ⟨0, _⟩ => rfl | ⟨1, _⟩ => rfl)
  have er : ridx_main_v0 (ix2 r j) k = ix2 k j :=
    funext fun a => Fin.ext (by match a with | ⟨0, _⟩ => rfl | ⟨1, _⟩ => rfl)
  rw [el, er]

/-- The product %3 at row r, column j. -/
theorem ref_v3 (x0 : (⟨S2048x1024, .f32⟩ : BufTy).Contents (Elt Ideal)) (x3 : (⟨S1024x1024, .f32⟩ : BufTy).Contents (Elt Ideal))
    (r : Fin 2048) (j : Fin 1024) :
    val_main_v3 (F := Ideal) x0 x3 (ix2 r j) = ∑ k : Fin 1024, x0 (ix2 r k) * x3 (ix2 k j) := by
  rw [val_main_v3_apply]
  refine Finset.sum_congr rfl fun k _ => ?_
  have el : lidx_main_v3 (ix2 r j) k = ix2 r k :=
    funext fun a => Fin.ext (by match a with | ⟨0, _⟩ => rfl | ⟨1, _⟩ => rfl)
  have er : ridx_main_v3 (ix2 r j) k = ix2 k j :=
    funext fun a => Fin.ext (by match a with | ⟨0, _⟩ => rfl | ⟨1, _⟩ => rfl)
  rw [el, er]

/-- The product %6 at row r, column j. -/
theorem ref_v6 (x0 : (⟨S2048x1024, .f32⟩ : BufTy).Contents (Elt Ideal)) (x4 : (⟨S1024x1024, .f32⟩ : BufTy).Contents (Elt Ideal))
    (r : Fin 2048) (j : Fin 1024) :
    val_main_v6 (F := Ideal) x0 x4 (ix2 r j) = ∑ k : Fin 1024, x0 (ix2 r k) * x4 (ix2 k j) := by
  rw [val_main_v6_apply]
  refine Finset.sum_congr rfl fun k _ => ?_
  have el : lidx_main_v6 (ix2 r j) k = ix2 r k :=
    funext fun a => Fin.ext (by match a with | ⟨0, _⟩ => rfl | ⟨1, _⟩ => rfl)
  have er : ridx_main_v6 (ix2 r j) k = ix2 k j :=
    funext fun a => Fin.ext (by match a with | ⟨0, _⟩ => rfl | ⟨1, _⟩ => rfl)
  rw [el, er]

/-- The product %9 at row r, column j. -/
theorem ref_v9 (x1 : (⟨S3072x1024, .f32⟩ : BufTy).Contents (Elt Ideal)) (x5 : (⟨S1024x1024, .f32⟩ : BufTy).Contents (Elt Ideal))
    (r : Fin 3072) (j : Fin 1024) :
    val_main_v9 (F := Ideal) x1 x5 (ix2 r j) = ∑ k : Fin 1024, x1 (ix2 r k) * x5 (ix2 k j) := by
  rw [val_main_v9_apply]
  refine Finset.sum_congr rfl fun k _ => ?_
  have el : lidx_main_v9 (ix2 r j) k = ix2 r k :=
    funext fun a => Fin.ext (by match a with | ⟨0, _⟩ => rfl | ⟨1, _⟩ => rfl)
  have er : ridx_main_v9 (ix2 r j) k = ix2 k j :=
    funext fun a => Fin.ext (by match a with | ⟨0, _⟩ => rfl | ⟨1, _⟩ => rfl)
  rw [el, er]

/-- The product %12 at row r, column j. -/
theorem ref_v12 (x1 : (⟨S3072x1024, .f32⟩ : BufTy).Contents (Elt Ideal)) (x6 : (⟨S1024x1024, .f32⟩ : BufTy).Contents (Elt Ideal))
    (r : Fin 3072) (j : Fin 1024) :
    val_main_v12 (F := Ideal) x1 x6 (ix2 r j) = ∑ k : Fin 1024, x1 (ix2 r k) * x6 (ix2 k j) := by
  rw [val_main_v12_apply]
  refine Finset.sum_congr rfl fun k _ => ?_
  have el : lidx_main_v12 (ix2 r j) k = ix2 r k :=
    funext fun a => Fin.ext (by match a with | ⟨0, _⟩ => rfl | ⟨1, _⟩ => rfl)
  have er : ridx_main_v12 (ix2 r j) k = ix2 k j :=
    funext fun a => Fin.ext (by match a with | ⟨0, _⟩ => rfl | ⟨1, _⟩ => rfl)
  rw [el, er]

/-- The product %15 at row r, column j. -/
theorem ref_v15 (x1 : (⟨S3072x1024, .f32⟩ : BufTy).Contents (Elt Ideal)) (x7 : (⟨S1024x1024, .f32⟩ : BufTy).Contents (Elt Ideal))
    (r : Fin 3072) (j : Fin 1024) :
    val_main_v15 (F := Ideal) x1 x7 (ix2 r j) = ∑ k : Fin 1024, x1 (ix2 r k) * x7 (ix2 k j) := by
  rw [val_main_v15_apply]
  refine Finset.sum_congr rfl fun k _ => ?_
  have el : lidx_main_v15 (ix2 r j) k = ix2 r k :=
    funext fun a => Fin.ext (by match a with | ⟨0, _⟩ => rfl | ⟨1, _⟩ => rfl)
  have er : ridx_main_v15 (ix2 r j) k = ix2 k j :=
    funext fun a => Fin.ext (by match a with | ⟨0, _⟩ => rfl | ⟨1, _⟩ => rfl)
  rw [el, er]

/-- The output product %52 at row r, column j. -/
theorem ref_v52 (x0 : (⟨S2048x1024, .f32⟩ : BufTy).Contents (Elt Ideal)) (x1 : (⟨S3072x1024, .f32⟩ : BufTy).Contents (Elt Ideal))
    (x3 x4 x5 x8 : (⟨S1024x1024, .f32⟩ : BufTy).Contents (Elt Ideal)) (r : Fin 3072) (j : Fin 1024) :
    val_main_v52 (F := Ideal) x0 x1 x3 x4 x5 x8 (ix2 r j)
      = ∑ k : Fin 1024, val_main_v49 (F := Ideal) x0 x1 x3 x4 x5 (ix2 r k) * x8 (ix2 k j) := by
  rw [val_main_v52_apply]
  refine Finset.sum_congr rfl fun k _ => ?_
  have el : lidx_main_v52 (ix2 r j) k = ix2 r k :=
    funext fun a => Fin.ext (by match a with | ⟨0, _⟩ => rfl | ⟨1, _⟩ => rfl)
  have er : ridx_main_v52 (ix2 r j) k = ix2 k j :=
    funext fun a => Fin.ext (by match a with | ⟨0, _⟩ => rfl | ⟨1, _⟩ => rfl)
  rw [el, er]

/-- The output product %53 at row r, column j. -/
theorem ref_v53 (x0 : (⟨S2048x1024, .f32⟩ : BufTy).Contents (Elt Ideal)) (x1 : (⟨S3072x1024, .f32⟩ : BufTy).Contents (Elt Ideal))
    (x2 x6 x7 x9 : (⟨S1024x1024, .f32⟩ : BufTy).Contents (Elt Ideal)) (r : Fin 2048) (j : Fin 1024) :
    val_main_v53 (F := Ideal) x0 x1 x2 x6 x7 x9 (ix2 r j)
      = ∑ k : Fin 1024, val_main_v51 (F := Ideal) x0 x1 x2 x6 x7 (ix2 r k) * x9 (ix2 k j) := by
  rw [val_main_v53_apply]
  refine Finset.sum_congr rfl fun k _ => ?_
  have el : lidx_main_v53 (ix2 r j) k = ix2 r k :=
    funext fun a => Fin.ext (by match a with | ⟨0, _⟩ => rfl | ⟨1, _⟩ => rfl)
  have er : ridx_main_v53 (ix2 r j) k = ix2 k j :=
    funext fun a => Fin.ext (by match a with | ⟨0, _⟩ => rfl | ⟨1, _⟩ => rfl)
  rw [el, er]

/-! ## Direction 1: 3072 query rows attend over 2048 key rows -/

/-- The scores tensor drops its last axis to the rows tensor. -/
theorem hR1 : S16x3072x2048.Reduces [2] S16x3072 := by decide

/-- The scaled logits of query row q of head h against every key row. -/
abbrev sc1 (x0 : (⟨S2048x1024, .f32⟩ : BufTy).Contents (Elt Ideal)) (x1 : (⟨S3072x1024, .f32⟩ : BufTy).Contents (Elt Ideal)) (x3 : (⟨S1024x1024, .f32⟩ : BufTy).Contents (Elt Ideal)) (x5 : (⟨S1024x1024, .f32⟩ : BufTy).Contents (Elt Ideal)) (h : Fin 16) (q : Fin 3072) : Fin 2048 → EReal :=
  fun k => Cert.AttentionSpec.logit (fun e => val_main_v11 (F := Ideal) x1 x5 (ix3 h q e)) (fun e => val_main_v5 (F := Ideal) x0 x3 (ix3 h k e))

/-- The scaled scores: the contraction over the 64 features, times one eighth. -/
theorem d1_scores (x0 : (⟨S2048x1024, .f32⟩ : BufTy).Contents (Elt Ideal)) (x1 : (⟨S3072x1024, .f32⟩ : BufTy).Contents (Elt Ideal)) (x3 : (⟨S1024x1024, .f32⟩ : BufTy).Contents (Elt Ideal)) (x5 : (⟨S1024x1024, .f32⟩ : BufTy).Contents (Elt Ideal)) (h : Fin 16) (q : Fin 3072) (k : Fin 2048) :
    val_main_v20 (F := Ideal) x0 x1 x3 x5 (ix3 h q k) = sc1 x0 x1 x3 x5 h q k := by
  rw [val_main_v20_apply, val_main_v18_apply, val_main_v19_apply, val_main_cst_apply]
  have el : ∀ e : Fin 64, lidx_main_v18 (ix3 h q k) e = ix3 h q e := fun e =>
    funext fun a => Fin.ext (by match a with | ⟨0, _⟩ => rfl | ⟨1, _⟩ => rfl | ⟨2, _⟩ => rfl)
  have er : ∀ e : Fin 64, ridx_main_v18 (ix3 h q k) e = ix3 h k e := fun e =>
    funext fun a => Fin.ext (by match a with | ⟨0, _⟩ => rfl | ⟨1, _⟩ => rfl | ⟨2, _⟩ => rfl)
  simp only [el, er, Ideal.mulf_def, Ideal.ofBits_def, Cert.AttentionSpec.logit, Cert.AttentionSpec.eighth]

/-- The row maximum: the fold of max from the bottom element over the key rows. -/
theorem d1_rowmax (x0 : (⟨S2048x1024, .f32⟩ : BufTy).Contents (Elt Ideal)) (x1 : (⟨S3072x1024, .f32⟩ : BufTy).Contents (Elt Ideal)) (x3 : (⟨S1024x1024, .f32⟩ : BufTy).Contents (Elt Ideal)) (x5 : (⟨S1024x1024, .f32⟩ : BufTy).Contents (Elt Ideal)) (h : Fin 16) (q : Fin 3072) :
    val_main_v21 (F := Ideal) x0 x1 x3 x5 (ix2 h q) = Cert.AttentionSpec.top (sc1 x0 x1 x3 x5 h q) := by
  unfold val_main_v21
  refine (Cert.MaxMinFold.hostReduce_maximumf_single (val_main_v20 (F := Ideal) x0 x1 x3 x5) (val_main_cst_0 (F := Ideal))
    reducesTo_S16x3072x2048_S16x3072_d2 hR1 h_S_ (ix2 h q)).trans ?_
  unfold Cert.AttentionSpec.top
  rw [val_main_cst_0_apply, Ideal.ofBits_def, Cert.BitFolds.ofBits_neg_inf_f32]
  refine congrArg (fun f : Fin 2048 → EReal => (Finset.univ : Finset (Fin 2048)).fold max (⊥ : EReal) f) ?_
  refine funext fun (k : Fin 2048) => ?_
  show val_main_v20 (F := Ideal) x0 x1 x3 x5 (hR1.lift (ix2 h q) k) = _
  rw [show hR1.lift (ix2 h q) k = ix3 h q k from funext fun a => Fin.ext (by match a with | ⟨0, _⟩ => rfl | ⟨1, _⟩ => rfl | ⟨2, _⟩ => rfl), d1_scores]

/-- The row maximum, compared with the bottom element and spread back over the key axis. -/
theorem d1_rowmax_bc (x0 : (⟨S2048x1024, .f32⟩ : BufTy).Contents (Elt Ideal)) (x1 : (⟨S3072x1024, .f32⟩ : BufTy).Contents (Elt Ideal)) (x3 : (⟨S1024x1024, .f32⟩ : BufTy).Contents (Elt Ideal)) (x5 : (⟨S1024x1024, .f32⟩ : BufTy).Contents (Elt Ideal)) (h : Fin 16) (q : Fin 3072) (k : Fin 2048) :
    val_main_v25 (F := Ideal) x0 x1 x3 x5 (ix3 h q k) = Cert.AttentionSpec.top (sc1 x0 x1 x3 x5 h q) := by
  rw [val_main_v25_apply, val_main_v24_apply, val_main_v23_apply, val_main_v22_apply, val_main_cst_1_apply]
  have e : idx_main_v24 (idx_main_v25 (ix3 h q k)) = ix2 h q :=
    funext fun a => Fin.ext (by match a with | ⟨0, _⟩ => rfl | ⟨1, _⟩ => rfl)
  rw [e, d1_rowmax, Ideal.maximumf_def, Ideal.ofBits_def, Cert.BitFolds.ofBits_neg_inf_f32]
  exact max_eq_right bot_le

/-- The exponential of a score less its row maximum. -/
theorem d1_exp (x0 : (⟨S2048x1024, .f32⟩ : BufTy).Contents (Elt Ideal)) (x1 : (⟨S3072x1024, .f32⟩ : BufTy).Contents (Elt Ideal)) (x3 : (⟨S1024x1024, .f32⟩ : BufTy).Contents (Elt Ideal)) (x5 : (⟨S1024x1024, .f32⟩ : BufTy).Contents (Elt Ideal)) (h : Fin 16) (q : Fin 3072) (k : Fin 2048) :
    val_main_v27 (F := Ideal) x0 x1 x3 x5 (ix3 h q k)
      = Ideal.exp (sc1 x0 x1 x3 x5 h q k - Cert.AttentionSpec.top (sc1 x0 x1 x3 x5 h q)) := by
  rw [val_main_v27_apply, val_main_v26_apply, d1_scores, d1_rowmax_bc, Ideal.hostUnary_exp_def, Ideal.subf_def]

/-- The row sum of the exponentials, spread back over the key axis. -/
theorem d1_rowsum_bc (x0 : (⟨S2048x1024, .f32⟩ : BufTy).Contents (Elt Ideal)) (x1 : (⟨S3072x1024, .f32⟩ : BufTy).Contents (Elt Ideal)) (x3 : (⟨S1024x1024, .f32⟩ : BufTy).Contents (Elt Ideal)) (x5 : (⟨S1024x1024, .f32⟩ : BufTy).Contents (Elt Ideal)) (h : Fin 16) (q : Fin 3072) (k : Fin 2048) :
    val_main_v30 (F := Ideal) x0 x1 x3 x5 (ix3 h q k)
      = ∑ k' : Fin 2048, Ideal.exp (sc1 x0 x1 x3 x5 h q k' - Cert.AttentionSpec.top (sc1 x0 x1 x3 x5 h q)) := by
  rw [val_main_v30_apply, val_main_v29_apply, val_main_v28_apply, val_main_cst_2_apply, Ideal.ofBits_def, Ideal.ofBits_zero_f32, zero_add]
  refine Finset.sum_congr rfl fun k' _ => ?_
  have e : idx_main_v28 (idx_main_v29 (idx_main_v30 (ix3 h q k))) k' = ix3 h q k' :=
    funext fun a => Fin.ext (by match a with | ⟨0, _⟩ => rfl | ⟨1, _⟩ => rfl | ⟨2, _⟩ => rfl)
  rw [e, d1_exp]

/-- The softmax weight. -/
theorem d1_weight (x0 : (⟨S2048x1024, .f32⟩ : BufTy).Contents (Elt Ideal)) (x1 : (⟨S3072x1024, .f32⟩ : BufTy).Contents (Elt Ideal)) (x3 : (⟨S1024x1024, .f32⟩ : BufTy).Contents (Elt Ideal)) (x5 : (⟨S1024x1024, .f32⟩ : BufTy).Contents (Elt Ideal)) (h : Fin 16) (q : Fin 3072) (k : Fin 2048) :
    val_main_v31 (F := Ideal) x0 x1 x3 x5 (ix3 h q k) = Cert.AttentionSpec.weight (sc1 x0 x1 x3 x5 h q) k := by
  unfold Cert.AttentionSpec.weight
  rw [val_main_v31_apply, d1_exp, d1_rowsum_bc, Ideal.hostDivf_def]

/-- Direction 1 of the reference at head h, query row q, feature d is the specification's context entry. -/
theorem ref_ctx1 (x0 : (⟨S2048x1024, .f32⟩ : BufTy).Contents (Elt Ideal)) (x1 : (⟨S3072x1024, .f32⟩ : BufTy).Contents (Elt Ideal)) (x3 : (⟨S1024x1024, .f32⟩ : BufTy).Contents (Elt Ideal)) (x4 : (⟨S1024x1024, .f32⟩ : BufTy).Contents (Elt Ideal)) (x5 : (⟨S1024x1024, .f32⟩ : BufTy).Contents (Elt Ideal)) (h : Fin 16) (q : Fin 3072) (d : Fin 64) :
    val_main_v32 (F := Ideal) x0 x1 x3 x4 x5 (ix3 h q d)
      = Cert.AttentionSpec.ctx (val_main_v11 (F := Ideal) x1 x5) (val_main_v5 (F := Ideal) x0 x3) (val_main_v8 (F := Ideal) x0 x4) h q d := by
  rw [val_main_v32_apply]
  show _ = ∑ k : Fin 2048, Cert.AttentionSpec.weight (sc1 x0 x1 x3 x5 h q) k * val_main_v8 (F := Ideal) x0 x4 (ix3 h k d)
  refine Finset.sum_congr rfl fun k _ => ?_
  have el : lidx_main_v32 (ix3 h q d) k = ix3 h q k :=
    funext fun a => Fin.ext (by match a with | ⟨0, _⟩ => rfl | ⟨1, _⟩ => rfl | ⟨2, _⟩ => rfl)
  have er : ridx_main_v32 (ix3 h q d) k = ix3 h k d :=
    funext fun a => Fin.ext (by match a with | ⟨0, _⟩ => rfl | ⟨1, _⟩ => rfl | ⟨2, _⟩ => rfl)
  rw [el, er, d1_weight]

/-! ## Direction 2: 2048 query rows attend over 3072 key rows -/

/-- The scores tensor drops its last axis to the rows tensor. -/
theorem hR2 : S16x2048x3072.Reduces [2] S16x2048 := by decide

/-- The scaled logits of query row q of head h against every key row. -/
abbrev sc2 (x0 : (⟨S2048x1024, .f32⟩ : BufTy).Contents (Elt Ideal)) (x1 : (⟨S3072x1024, .f32⟩ : BufTy).Contents (Elt Ideal)) (x2 : (⟨S1024x1024, .f32⟩ : BufTy).Contents (Elt Ideal)) (x6 : (⟨S1024x1024, .f32⟩ : BufTy).Contents (Elt Ideal)) (h : Fin 16) (q : Fin 2048) : Fin 3072 → EReal :=
  fun k => Cert.AttentionSpec.logit (fun e => val_main_v2 (F := Ideal) x0 x2 (ix3 h q e)) (fun e => val_main_v14 (F := Ideal) x1 x6 (ix3 h k e))

/-- The scaled scores: the contraction over the 64 features, times one eighth. -/
theorem d2_scores (x0 : (⟨S2048x1024, .f32⟩ : BufTy).Contents (Elt Ideal)) (x1 : (⟨S3072x1024, .f32⟩ : BufTy).Contents (Elt Ideal)) (x2 : (⟨S1024x1024, .f32⟩ : BufTy).Contents (Elt Ideal)) (x6 : (⟨S1024x1024, .f32⟩ : BufTy).Contents (Elt Ideal)) (h : Fin 16) (q : Fin 2048) (k : Fin 3072) :
    val_main_v35 (F := Ideal) x0 x1 x2 x6 (ix3 h q k) = sc2 x0 x1 x2 x6 h q k := by
  rw [val_main_v35_apply, val_main_v33_apply, val_main_v34_apply, val_main_cst_3_apply]
  have el : ∀ e : Fin 64, lidx_main_v33 (ix3 h q k) e = ix3 h q e := fun e =>
    funext fun a => Fin.ext (by match a with | ⟨0, _⟩ => rfl | ⟨1, _⟩ => rfl | ⟨2, _⟩ => rfl)
  have er : ∀ e : Fin 64, ridx_main_v33 (ix3 h q k) e = ix3 h k e := fun e =>
    funext fun a => Fin.ext (by match a with | ⟨0, _⟩ => rfl | ⟨1, _⟩ => rfl | ⟨2, _⟩ => rfl)
  simp only [el, er, Ideal.mulf_def, Ideal.ofBits_def, Cert.AttentionSpec.logit, Cert.AttentionSpec.eighth]

/-- The row maximum: the fold of max from the bottom element over the key rows. -/
theorem d2_rowmax (x0 : (⟨S2048x1024, .f32⟩ : BufTy).Contents (Elt Ideal)) (x1 : (⟨S3072x1024, .f32⟩ : BufTy).Contents (Elt Ideal)) (x2 : (⟨S1024x1024, .f32⟩ : BufTy).Contents (Elt Ideal)) (x6 : (⟨S1024x1024, .f32⟩ : BufTy).Contents (Elt Ideal)) (h : Fin 16) (q : Fin 2048) :
    val_main_v36 (F := Ideal) x0 x1 x2 x6 (ix2 h q) = Cert.AttentionSpec.top (sc2 x0 x1 x2 x6 h q) := by
  unfold val_main_v36
  refine (Cert.MaxMinFold.hostReduce_maximumf_single (val_main_v35 (F := Ideal) x0 x1 x2 x6) (val_main_cst_4 (F := Ideal))
    reducesTo_S16x2048x3072_S16x2048_d2 hR2 h_S_ (ix2 h q)).trans ?_
  unfold Cert.AttentionSpec.top
  rw [val_main_cst_4_apply, Ideal.ofBits_def, Cert.BitFolds.ofBits_neg_inf_f32]
  refine congrArg (fun f : Fin 3072 → EReal => (Finset.univ : Finset (Fin 3072)).fold max (⊥ : EReal) f) ?_
  refine funext fun (k : Fin 3072) => ?_
  show val_main_v35 (F := Ideal) x0 x1 x2 x6 (hR2.lift (ix2 h q) k) = _
  rw [show hR2.lift (ix2 h q) k = ix3 h q k from funext fun a => Fin.ext (by match a with | ⟨0, _⟩ => rfl | ⟨1, _⟩ => rfl | ⟨2, _⟩ => rfl), d2_scores]

/-- The row maximum, compared with the bottom element and spread back over the key axis. -/
theorem d2_rowmax_bc (x0 : (⟨S2048x1024, .f32⟩ : BufTy).Contents (Elt Ideal)) (x1 : (⟨S3072x1024, .f32⟩ : BufTy).Contents (Elt Ideal)) (x2 : (⟨S1024x1024, .f32⟩ : BufTy).Contents (Elt Ideal)) (x6 : (⟨S1024x1024, .f32⟩ : BufTy).Contents (Elt Ideal)) (h : Fin 16) (q : Fin 2048) (k : Fin 3072) :
    val_main_v40 (F := Ideal) x0 x1 x2 x6 (ix3 h q k) = Cert.AttentionSpec.top (sc2 x0 x1 x2 x6 h q) := by
  rw [val_main_v40_apply, val_main_v39_apply, val_main_v38_apply, val_main_v37_apply, val_main_cst_5_apply]
  have e : idx_main_v39 (idx_main_v40 (ix3 h q k)) = ix2 h q :=
    funext fun a => Fin.ext (by match a with | ⟨0, _⟩ => rfl | ⟨1, _⟩ => rfl)
  rw [e, d2_rowmax, Ideal.maximumf_def, Ideal.ofBits_def, Cert.BitFolds.ofBits_neg_inf_f32]
  exact max_eq_right bot_le

/-- The exponential of a score less its row maximum. -/
theorem d2_exp (x0 : (⟨S2048x1024, .f32⟩ : BufTy).Contents (Elt Ideal)) (x1 : (⟨S3072x1024, .f32⟩ : BufTy).Contents (Elt Ideal)) (x2 : (⟨S1024x1024, .f32⟩ : BufTy).Contents (Elt Ideal)) (x6 : (⟨S1024x1024, .f32⟩ : BufTy).Contents (Elt Ideal)) (h : Fin 16) (q : Fin 2048) (k : Fin 3072) :
    val_main_v42 (F := Ideal) x0 x1 x2 x6 (ix3 h q k)
      = Ideal.exp (sc2 x0 x1 x2 x6 h q k - Cert.AttentionSpec.top (sc2 x0 x1 x2 x6 h q)) := by
  rw [val_main_v42_apply, val_main_v41_apply, d2_scores, d2_rowmax_bc, Ideal.hostUnary_exp_def, Ideal.subf_def]

/-- The row sum of the exponentials, spread back over the key axis. -/
theorem d2_rowsum_bc (x0 : (⟨S2048x1024, .f32⟩ : BufTy).Contents (Elt Ideal)) (x1 : (⟨S3072x1024, .f32⟩ : BufTy).Contents (Elt Ideal)) (x2 : (⟨S1024x1024, .f32⟩ : BufTy).Contents (Elt Ideal)) (x6 : (⟨S1024x1024, .f32⟩ : BufTy).Contents (Elt Ideal)) (h : Fin 16) (q : Fin 2048) (k : Fin 3072) :
    val_main_v45 (F := Ideal) x0 x1 x2 x6 (ix3 h q k)
      = ∑ k' : Fin 3072, Ideal.exp (sc2 x0 x1 x2 x6 h q k' - Cert.AttentionSpec.top (sc2 x0 x1 x2 x6 h q)) := by
  rw [val_main_v45_apply, val_main_v44_apply, val_main_v43_apply, val_main_cst_6_apply, Ideal.ofBits_def, Ideal.ofBits_zero_f32, zero_add]
  refine Finset.sum_congr rfl fun k' _ => ?_
  have e : idx_main_v43 (idx_main_v44 (idx_main_v45 (ix3 h q k))) k' = ix3 h q k' :=
    funext fun a => Fin.ext (by match a with | ⟨0, _⟩ => rfl | ⟨1, _⟩ => rfl | ⟨2, _⟩ => rfl)
  rw [e, d2_exp]

/-- The softmax weight. -/
theorem d2_weight (x0 : (⟨S2048x1024, .f32⟩ : BufTy).Contents (Elt Ideal)) (x1 : (⟨S3072x1024, .f32⟩ : BufTy).Contents (Elt Ideal)) (x2 : (⟨S1024x1024, .f32⟩ : BufTy).Contents (Elt Ideal)) (x6 : (⟨S1024x1024, .f32⟩ : BufTy).Contents (Elt Ideal)) (h : Fin 16) (q : Fin 2048) (k : Fin 3072) :
    val_main_v46 (F := Ideal) x0 x1 x2 x6 (ix3 h q k) = Cert.AttentionSpec.weight (sc2 x0 x1 x2 x6 h q) k := by
  unfold Cert.AttentionSpec.weight
  rw [val_main_v46_apply, d2_exp, d2_rowsum_bc, Ideal.hostDivf_def]

/-- Direction 2 of the reference at head h, query row q, feature d is the specification's context entry. -/
theorem ref_ctx2 (x0 : (⟨S2048x1024, .f32⟩ : BufTy).Contents (Elt Ideal)) (x1 : (⟨S3072x1024, .f32⟩ : BufTy).Contents (Elt Ideal)) (x2 : (⟨S1024x1024, .f32⟩ : BufTy).Contents (Elt Ideal)) (x6 : (⟨S1024x1024, .f32⟩ : BufTy).Contents (Elt Ideal)) (x7 : (⟨S1024x1024, .f32⟩ : BufTy).Contents (Elt Ideal)) (h : Fin 16) (q : Fin 2048) (d : Fin 64) :
    val_main_v47 (F := Ideal) x0 x1 x2 x6 x7 (ix3 h q d)
      = Cert.AttentionSpec.ctx (val_main_v2 (F := Ideal) x0 x2) (val_main_v14 (F := Ideal) x1 x6) (val_main_v17 (F := Ideal) x1 x7) h q d := by
  rw [val_main_v47_apply]
  show _ = ∑ k : Fin 3072, Cert.AttentionSpec.weight (sc2 x0 x1 x2 x6 h q) k * val_main_v17 (F := Ideal) x1 x7 (ix3 h k d)
  refine Finset.sum_congr rfl fun k _ => ?_
  have el : lidx_main_v47 (ix3 h q d) k = ix3 h q k :=
    funext fun a => Fin.ext (by match a with | ⟨0, _⟩ => rfl | ⟨1, _⟩ => rfl | ⟨2, _⟩ => rfl)
  have er : ridx_main_v47 (ix3 h q d) k = ix3 h k d :=
    funext fun a => Fin.ext (by match a with | ⟨0, _⟩ => rfl | ⟨1, _⟩ => rfl | ⟨2, _⟩ => rfl)
  rw [el, er, d2_weight]

end Cert.ReferenceIdeal.RefRead

end
-- ==== Proof.ProjectionStage.lean ====
/-
  The projection stage against the reference. The first two regions each leave one array [R, 3072] holding three products
  side by side, [X·Wq | X·Wk | X·Wv]; the host cuts the three column bands, splits each band's 1024 columns into 16 heads
  of 64 features, and brings the head axis to the front. The reference forms each product by itself, then splits and
  transposes it the same way. So band by band the two agree, given only that the array holds the three products entry by entry.
-/
import proofs.«132884_j27573690040724_2_alg».proof.Proof.Gen.KernelIdeal.Frame
import proofs.«132884_j27573690040724_2_alg».proof.Proof.ReferenceRead
import Idealize.ShloMosaic.Lib.ValueLayout
import Idealize.ShloMosaic.Lib.ValueIdx

set_option maxRecDepth 16384

noncomputable section

open scoped BigOperators

namespace Cert.KernelIdeal.ProjectionStage

open Cert.KernelIdeal Cert.KernelIdeal.Gen Idealize.ShloMosaic Idealize.ShloMosaic.ValueIdx

variable [Cert.KernelIdeal.Facts] [Cert.ReferenceIdeal.Facts]

/-! ## The first input: 2048 rows -/

/-- The three column bands of the fused product array are the reference's three products. -/
theorem bands0 (A : S2048x3072.Idx → EReal) (X : S2048x1024.Idx → EReal) (Wq Wk Wv : S1024x1024.Idx → EReal)
    (hA : ∀ (r : Fin 2048) (j : Fin 1024), A (ix2 r ⟨j.val, by omega⟩) = ∑ k : Fin 1024, X (ix2 r k) * Wq (ix2 k j)
        ∧ A (ix2 r ⟨1024 + j.val, by omega⟩) = ∑ k : Fin 1024, X (ix2 r k) * Wk (ix2 k j)
        ∧ A (ix2 r ⟨2048 + j.val, by omega⟩) = ∑ k : Fin 1024, X (ix2 r k) * Wv (ix2 k j)) :
    extractStridedSlice S2048x1024 ![0, 0] A slices_S2048x3072_S2048x1024_0_0
        = Cert.ReferenceIdeal.Read.val_main_v0 (F := Ideal) X Wq
      ∧ extractStridedSlice S2048x1024 ![0, 1024] A slices_S2048x3072_S2048x1024_0_1024
        = Cert.ReferenceIdeal.Read.val_main_v3 (F := Ideal) X Wk
      ∧ extractStridedSlice S2048x1024 ![0, 2048] A slices_S2048x3072_S2048x1024_0_2048
        = Cert.ReferenceIdeal.Read.val_main_v6 (F := Ideal) X Wv := by
  refine ⟨funext fun i => ?_, funext fun i => ?_, funext fun i => ?_⟩
  · obtain ⟨r, j, rfl⟩ : ∃ (r : Fin 2048) (j : Fin 1024), i = ix2 r j := ⟨i 0, i 1, eq_ix2 i⟩
    exact (slice2_axis1_apply 0 A _ r j ⟨j.val, by omega⟩ (Nat.zero_add _).symm).trans
      ((hA r j).1.trans (Cert.ReferenceIdeal.RefRead.ref_v0 X Wq r j).symm)
  · obtain ⟨r, j, rfl⟩ : ∃ (r : Fin 2048) (j : Fin 1024), i = ix2 r j := ⟨i 0, i 1, eq_ix2 i⟩
    exact (slice2_axis1_apply 1024 A _ r j ⟨1024 + j.val, by omega⟩ rfl).trans
      ((hA r j).2.1.trans (Cert.ReferenceIdeal.RefRead.ref_v3 X Wk r j).symm)
  · obtain ⟨r, j, rfl⟩ : ∃ (r : Fin 2048) (j : Fin 1024), i = ix2 r j := ⟨i 0, i 1, eq_ix2 i⟩
    exact (slice2_axis1_apply 2048 A _ r j ⟨2048 + j.val, by omega⟩ rfl).trans
      ((hA r j).2.2.trans (Cert.ReferenceIdeal.RefRead.ref_v6 X Wv r j).symm)

/-- Each band split into 16 heads of 64 features and the head axis brought to the front is the reference's head array. -/
theorem heads0 (A : S2048x3072.Idx → EReal) (X : S2048x1024.Idx → EReal) (Wq Wk Wv : S1024x1024.Idx → EReal)
    (hA : ∀ (r : Fin 2048) (j : Fin 1024), A (ix2 r ⟨j.val, by omega⟩) = ∑ k : Fin 1024, X (ix2 r k) * Wq (ix2 k j)
        ∧ A (ix2 r ⟨1024 + j.val, by omega⟩) = ∑ k : Fin 1024, X (ix2 r k) * Wk (ix2 k j)
        ∧ A (ix2 r ⟨2048 + j.val, by omega⟩) = ∑ k : Fin 1024, X (ix2 r k) * Wv (ix2 k j)) :
    transpose S16x2048x64 [1, 0, 2] (shapeCast S2048x16x64 (extractStridedSlice S2048x1024 ![0, 0] A slices_S2048x3072_S2048x1024_0_0)
          shapeCasts_S2048x1024_S2048x16x64) transposes_S2048x16x64_S16x2048x64_1_0_2
        = Cert.ReferenceIdeal.Read.val_main_v2 (F := Ideal) X Wq
      ∧ transpose S16x2048x64 [1, 0, 2] (shapeCast S2048x16x64 (extractStridedSlice S2048x1024 ![0, 1024] A slices_S2048x3072_S2048x1024_0_1024)
          shapeCasts_S2048x1024_S2048x16x64) transposes_S2048x16x64_S16x2048x64_1_0_2
        = Cert.ReferenceIdeal.Read.val_main_v5 (F := Ideal) X Wk
      ∧ transpose S16x2048x64 [1, 0, 2] (shapeCast S2048x16x64 (extractStridedSlice S2048x1024 ![0, 2048] A slices_S2048x3072_S2048x1024_0_2048)
          shapeCasts_S2048x1024_S2048x16x64) transposes_S2048x16x64_S16x2048x64_1_0_2
        = Cert.ReferenceIdeal.Read.val_main_v8 (F := Ideal) X Wv := by
  obtain ⟨b0, b1, b2⟩ := bands0 A X Wq Wk Wv hA
  refine ⟨?_, ?_, ?_⟩
  · rw [b0]; rfl
  · rw [b1]; rfl
  · rw [b2]; rfl

/-! ## The second input: 3072 rows -/

/-- The three column bands of the fused product array are the reference's three products. -/
theorem bands1 (A : S3072x3072.Idx → EReal) (X : S3072x1024.Idx → EReal) (Wq Wk Wv : S1024x1024.Idx → EReal)
    (hA : ∀ (r : Fin 3072) (j : Fin 1024), A (ix2 r ⟨j.val, by omega⟩) = ∑ k : Fin 1024, X (ix2 r k) * Wq (ix2 k j)
        ∧ A (ix2 r ⟨1024 + j.val, by omega⟩) = ∑ k : Fin 1024, X (ix2 r k) * Wk (ix2 k j)
        ∧ A (ix2 r ⟨2048 + j.val, by omega⟩) = ∑ k : Fin 1024, X (ix2 r k) * Wv (ix2 k j)) :
    extractStridedSlice S3072x1024 ![0, 0] A slices_S3072x3072_S3072x1024_0_0
        = Cert.ReferenceIdeal.Read.val_main_v9 (F := Ideal) X Wq
      ∧ extractStridedSlice S3072x1024 ![0, 1024] A slices_S3072x3072_S3072x1024_0_1024
        = Cert.ReferenceIdeal.Read.val_main_v12 (F := Ideal) X Wk
      ∧ extractStridedSlice S3072x1024 ![0, 2048] A slices_S3072x3072_S3072x1024_0_2048
        = Cert.ReferenceIdeal.Read.val_main_v15 (F := Ideal) X Wv := by
  refine ⟨funext fun i => ?_, funext fun i => ?_, funext fun i => ?_⟩
  · obtain ⟨r, j, rfl⟩ : ∃ (r : Fin 3072) (j : Fin 1024), i = ix2 r j := ⟨i 0, i 1, eq_ix2 i⟩
    exact (slice2_axis1_apply 0 A _ r j ⟨j.val, by omega⟩ (Nat.zero_add _).symm).trans
      ((hA r j).1.trans (Cert.ReferenceIdeal.RefRead.ref_v9 X Wq r j).symm)
  · obtain ⟨r, j, rfl⟩ : ∃ (r : Fin 3072) (j : Fin 1024), i = ix2 r j := ⟨i 0, i 1, eq_ix2 i⟩
    exact (slice2_axis1_apply 1024 A _ r j ⟨1024 + j.val, by omega⟩ rfl).trans
      ((hA r j).2.1.trans (Cert.ReferenceIdeal.RefRead.ref_v12 X Wk r j).symm)
  · obtain ⟨r, j, rfl⟩ : ∃ (r : Fin 3072) (j : Fin 1024), i = ix2 r j := ⟨i 0, i 1, eq_ix2 i⟩
    exact (slice2_axis1_apply 2048 A _ r j ⟨2048 + j.val, by omega⟩ rfl).trans
      ((hA r j).2.2.trans (Cert.ReferenceIdeal.RefRead.ref_v15 X Wv r j).symm)

/-- Each band split into 16 heads of 64 features and the head axis brought to the front is the reference's head array. -/
theorem heads1 (A : S3072x3072.Idx → EReal) (X : S3072x1024.Idx → EReal) (Wq Wk Wv : S1024x1024.Idx → EReal)
    (hA : ∀ (r : Fin 3072) (j : Fin 1024), A (ix2 r ⟨j.val, by omega⟩) = ∑ k : Fin 1024, X (ix2 r k) * Wq (ix2 k j)
        ∧ A (ix2 r ⟨1024 + j.val, by omega⟩) = ∑ k : Fin 1024, X (ix2 r k) * Wk (ix2 k j)
        ∧ A (ix2 r ⟨2048 + j.val, by omega⟩) = ∑ k : Fin 1024, X (ix2 r k) * Wv (ix2 k j)) :
    transpose S16x3072x64 [1, 0, 2] (shapeCast S3072x16x64 (extractStridedSlice S3072x1024 ![0, 0] A slices_S3072x3072_S3072x1024_0_0)
          shapeCasts_S3072x1024_S3072x16x64) transposes_S3072x16x64_S16x3072x64_1_0_2
        = Cert.ReferenceIdeal.Read.val_main_v11 (F := Ideal) X Wq
      ∧ transpose S16x3072x64 [1, 0, 2] (shapeCast S3072x16x64 (extractStridedSlice S3072x1024 ![0, 1024] A slices_S3072x3072_S3072x1024_0_1024)
          shapeCasts_S3072x1024_S3072x16x64) transposes_S3072x16x64_S16x3072x64_1_0_2
        = Cert.ReferenceIdeal.Read.val_main_v14 (F := Ideal) X Wk
      ∧ transpose S16x3072x64 [1, 0, 2] (shapeCast S3072x16x64 (extractStridedSlice S3072x1024 ![0, 2048] A slices_S3072x3072_S3072x1024_0_2048)
          shapeCasts_S3072x1024_S3072x16x64) transposes_S3072x16x64_S16x3072x64_1_0_2
        = Cert.ReferenceIdeal.Read.val_main_v17 (F := Ideal) X Wv := by
  obtain ⟨b0, b1, b2⟩ := bands1 A X Wq Wk Wv hA
  refine ⟨?_, ?_, ?_⟩
  · rw [b0]; rfl
  · rw [b1]; rfl
  · rw [b2]; rfl

end Cert.KernelIdeal.ProjectionStage

end
-- ==== Proof.HostStretches.lean ====
/-
  The two stretches of host operations between the kernels, read at their result buffers.

  The first stretch cuts each of the two fused projection results [n, 3072] into its three column blocks [n, 1024],
  splits each block's columns into 16 heads of 64 features and moves the head axis outermost: six results, each a
  function of one projection result alone.  The second stretch moves each context's feature axis before its row axis
  and flattens the result to a matrix of 1024 columns.  Neither stretch writes the two output weight matrices.
-/
import proofs.«132884_j27573690040724_2_alg».proof.Proof.Gen.KernelIdeal.Launch
import Idealize.ShloMosaic.Lib.StableHlo.Run

set_option maxRecDepth 16384

noncomputable section

namespace Cert.KernelIdeal.HostStretches

open Cert.KernelIdeal Cert.KernelIdeal.Gen
open Idealize.ShloMosaic Idealize.ShloMosaic.TcCoe Idealize.ShloMosaic.StableHlo Idealize.SL.Sem

variable {F : FTy → Type} [FloatOps F]

/-! ## The six head tensors -/

/-- %9: columns 0 … 1023 of the first fused projection, split into 16 heads of 64 features, heads outermost. -/
theorem hostOps2_main_v9 (X : Valuation τ sig (Elt F)) :
    after (hostOps2 (F := F)) X (main_v9 : DevRef τ sig)
      = transpose S16x2048x64 [1, 0, 2]
          (shapeCast S2048x16x64
            (extractStridedSlice (s := S2048x3072) S2048x1024 ![0, 0] (X (main_v0 : DevRef τ sig)) slices_S2048x3072_S2048x1024_0_0)
            shapeCasts_S2048x1024_S2048x16x64)
          transposes_S2048x16x64_S16x2048x64_1_0_2 := by
  after_results
  rfl

/-- %11: columns 1024 … 2047 of the first fused projection, split into 16 heads of 64 features, heads outermost. -/
theorem hostOps2_main_v11 (X : Valuation τ sig (Elt F)) :
    after (hostOps2 (F := F)) X (main_v11 : DevRef τ sig)
      = transpose S16x2048x64 [1, 0, 2]
          (shapeCast S2048x16x64
            (extractStridedSlice (s := S2048x3072) S2048x1024 ![0, 1024] (X (main_v0 : DevRef τ sig)) slices_S2048x3072_S2048x1024_0_1024)
            shapeCasts_S2048x1024_S2048x16x64)
          transposes_S2048x16x64_S16x2048x64_1_0_2 := by
  after_results
  rfl

/-- %13: columns 2048 … 3071 of the first fused projection, split into 16 heads of 64 features, heads outermost. -/
theorem hostOps2_main_v13 (X : Valuation τ sig (Elt F)) :
    after (hostOps2 (F := F)) X (main_v13 : DevRef τ sig)
      = transpose S16x2048x64 [1, 0, 2]
          (shapeCast S2048x16x64
            (extractStridedSlice (s := S2048x3072) S2048x1024 ![0, 2048] (X (main_v0 : DevRef τ sig)) slices_S2048x3072_S2048x1024_0_2048)
            shapeCasts_S2048x1024_S2048x16x64)
          transposes_S2048x16x64_S16x2048x64_1_0_2 := by
  after_results
  rfl

/-- %15: columns 0 … 1023 of the second fused projection, split into 16 heads of 64 features, heads outermost. -/
theorem hostOps2_main_v15 (X : Valuation τ sig (Elt F)) :
    after (hostOps2 (F := F)) X (main_v15 : DevRef τ sig)
      = transpose S16x3072x64 [1, 0, 2]
          (shapeCast S3072x16x64
            (extractStridedSlice (s := S3072x3072) S3072x1024 ![0, 0] (X (main_v1 : DevRef τ sig)) slices_S3072x3072_S3072x1024_0_0)
            shapeCasts_S3072x1024_S3072x16x64)
          transposes_S3072x16x64_S16x3072x64_1_0_2 := by
  after_results
  rfl

/-- %17: columns 1024 … 2047 of the second fused projection, split into 16 heads of 64 features, heads outermost. -/
theorem hostOps2_main_v17 (X : Valuation τ sig (Elt F)) :
    after (hostOps2 (F := F)) X (main_v17 : DevRef τ sig)
      = transpose S16x3072x64 [1, 0, 2]
          (shapeCast S3072x16x64
            (extractStridedSlice (s := S3072x3072) S3072x1024 ![0, 1024] (X (main_v1 : DevRef τ sig)) slices_S3072x3072_S3072x1024_0_1024)
            shapeCasts_S3072x1024_S3072x16x64)
          transposes_S3072x16x64_S16x3072x64_1_0_2 := by
  after_results
  rfl

/-- %19: columns 2048 … 3071 of the second fused projection, split into 16 heads of 64 features, heads outermost. -/
theorem hostOps2_main_v19 (X : Valuation τ sig (Elt F)) :
    after (hostOps2 (F := F)) X (main_v19 : DevRef τ sig)
      = transpose S16x3072x64 [1, 0, 2]
          (shapeCast S3072x16x64
            (extractStridedSlice (s := S3072x3072) S3072x1024 ![0, 2048] (X (main_v1 : DevRef τ sig)) slices_S3072x3072_S3072x1024_0_2048)
            shapeCasts_S3072x1024_S3072x16x64)
          transposes_S3072x16x64_S16x3072x64_1_0_2 := by
  after_results
  rfl

/-! ## The two flattened contexts -/

/-- %23: the first context [16, 3072, 64] with its last two axes exchanged, flattened to [3072, 1024]. -/
theorem hostOps4_main_v23 (X : Valuation τ sig (Elt F)) :
    after (hostOps4 (F := F)) X (main_v23 : DevRef τ sig)
      = shapeCast S3072x1024
          (transpose S16x64x3072 [0, 2, 1] (X (main_v20 : DevRef τ sig)) transposes_S16x3072x64_S16x64x3072_0_2_1)
          shapeCasts_S16x64x3072_S3072x1024 := by
  after_results
  rfl

/-- %25: the second context [16, 2048, 64] with its last two axes exchanged, flattened to [2048, 1024]. -/
theorem hostOps4_main_v25 (X : Valuation τ sig (Elt F)) :
    after (hostOps4 (F := F)) X (main_v25 : DevRef τ sig)
      = shapeCast S2048x1024
          (transpose S16x64x2048 [0, 2, 1] (X (main_v21 : DevRef τ sig)) transposes_S16x2048x64_S16x64x2048_0_2_1)
          shapeCasts_S16x64x2048_S2048x1024 := by
  after_results
  rfl

/-! ## The output weights are left alone -/

/-- No operation of the stretch writes %arg8. -/
theorem hostOps2_main_arg8 (X : Valuation τ sig (Elt F)) :
    after (hostOps2 (F := F)) X (main_arg8 : DevRef τ sig) = X (main_arg8 : DevRef τ sig) := by
  after_results

/-- No operation of the stretch writes %arg9. -/
theorem hostOps2_main_arg9 (X : Valuation τ sig (Elt F)) :
    after (hostOps2 (F := F)) X (main_arg9 : DevRef τ sig) = X (main_arg9 : DevRef τ sig) := by
  after_results

/-- No operation of the stretch writes %arg8. -/
theorem hostOps4_main_arg8 (X : Valuation τ sig (Elt F)) :
    after (hostOps4 (F := F)) X (main_arg8 : DevRef τ sig) = X (main_arg8 : DevRef τ sig) := by
  after_results

/-- No operation of the stretch writes %arg9. -/
theorem hostOps4_main_arg9 (X : Valuation τ sig (Elt F)) :
    after (hostOps4 (F := F)) X (main_arg9 : DevRef τ sig) = X (main_arg9 : DevRef τ sig) := by
  after_results

end Cert.KernelIdeal.HostStretches

end
-- ==== Proof.KeptArguments.lean ====
/-
  Buffers a region or a stretch of host operations leaves as it found them.

  The run folds the buffer contents through nine boundaries: a region rewrites only the arrays of its own windows and a
  stretch of host operations only its own results, so at any other buffer the contents at a boundary are those at the
  boundary before.  Read back far enough, an argument no earlier segment touches still holds what it was launched with.
-/
import proofs.«132884_j27573690040724_2_alg».proof.Proof.Gen.KernelIdeal.Frame

set_option maxRecDepth 16384

noncomputable section

namespace Cert.KernelIdeal.Kept

open Cert.KernelIdeal Cert.KernelIdeal.Gen
open Idealize.ShloMosaic Idealize.ShloMosaic.TcCoe Idealize.ShloMosaic.StableHlo Idealize.SL.Sem

variable {F : FTy → Type} [FloatOps F]

/-! ## The two stretches leave the output weights alone -/

theorem hostOps2_arg8 (X : Valuation τ sig (Elt F)) :
    after (hostOps2 (F := F)) X (Proc.devRef .tc main_arg8) = X (Proc.devRef .tc main_arg8) := by
  after_results
theorem hostOps2_arg9 (X : Valuation τ sig (Elt F)) :
    after (hostOps2 (F := F)) X (Proc.devRef .tc main_arg9) = X (Proc.devRef .tc main_arg9) := by
  after_results
theorem hostOps4_arg8 (X : Valuation τ sig (Elt F)) :
    after (hostOps4 (F := F)) X (Proc.devRef .tc main_arg8) = X (Proc.devRef .tc main_arg8) := by
  after_results
theorem hostOps4_arg9 (X : Valuation τ sig (Elt F)) :
    after (hostOps4 (F := F)) X (Proc.devRef .tc main_arg9) = X (Proc.devRef .tc main_arg9) := by
  after_results

variable (m : (ℓ : Loc nD τ sig) → Buf (Elt F) ℓ) (ρ : Dev nD → PrngReg)

/-! ## The second projection's arguments when the first region has run -/

/-- The first region does not touch %arg1. -/
theorem W1_main_arg1 (c : Dev nD) : W1 m ρ c (Proc.devRef .tc main_arg1) = m ((c : Thread nD τ).loc main_arg1) :=
  (W1_of_ne m ρ c main_arg1 (by decide)).trans rfl

/-- The first region does not touch %arg5. -/
theorem W1_main_arg5 (c : Dev nD) : W1 m ρ c (Proc.devRef .tc main_arg5) = m ((c : Thread nD τ).loc main_arg5) :=
  (W1_of_ne m ρ c main_arg5 (by decide)).trans rfl

/-- The first region does not touch %arg6. -/
theorem W1_main_arg6 (c : Dev nD) : W1 m ρ c (Proc.devRef .tc main_arg6) = m ((c : Thread nD τ).loc main_arg6) :=
  (W1_of_ne m ρ c main_arg6 (by decide)).trans rfl

/-- The first region does not touch %arg7. -/
theorem W1_main_arg7 (c : Dev nD) : W1 m ρ c (Proc.devRef .tc main_arg7) = m ((c : Thread nD τ).loc main_arg7) :=
  (W1_of_ne m ρ c main_arg7 (by decide)).trans rfl

/-! ## The output weights when their matrix product is entered -/

/-- Nothing before the fifth region touches %arg8. -/
theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := hostOps4_arg8 _
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := hostOps2_arg8 _
    _ = W1 m ρ c (Proc.devRef .tc main_arg8) := W2_of_ne m ρ c main_arg8 (by decide)
    _ = W0 m ρ c (Proc.devRef .tc main_arg8) := W1_of_ne m ρ c main_arg8 (by decide)
    _ = m ((c : Thread nD τ).loc main_arg8) := rfl

/-- Nothing before the sixth region touches %arg9. -/
theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := W7_of_ne m ρ c main_arg9 (by decide)
    _ = W5 m ρ c (Proc.devRef .tc main_arg9) := hostOps4_arg9 _
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := hostOps2_arg9 _
    _ = W1 m ρ c (Proc.devRef .tc main_arg9) := W2_of_ne m ρ c main_arg9 (by decide)
    _ = W0 m ρ c (Proc.devRef .tc main_arg9) := W1_of_ne m ρ c main_arg9 (by decide)
    _ = m ((c : Thread nD τ).loc main_arg9) := rfl

/-! ## A result carried across the next region -/

/-- Region 1 does not write %v0. -/
theorem W2_main_v0 (c : Dev nD) : W2 m ρ c (Proc.devRef .tc main_v0) = W1 m ρ c (Proc.devRef .tc main_v0) :=
  W2_of_ne m ρ c main_v0 (by decide)

/-- Region 3 does not write %v20. -/
theorem W5_main_v20 (c : Dev nD) : W5 m ρ c (Proc.devRef .tc main_v20) = W4 m ρ c (Proc.devRef .tc main_v20) :=
  W5_of_ne m ρ c main_v20 (by decide)

/-- Region 5 does not write %v26. -/
theorem W8_main_v26 (c : Dev nD) : W8 m ρ c (Proc.devRef .tc main_v26) = W7 m ρ c (Proc.devRef .tc main_v26) :=
  W8_of_ne m ρ c main_v26 (by decide)

/-- Region 2 does not write %v9. -/
theorem W4_main_v9 (c : Dev nD) : W4 m ρ c (Proc.devRef .tc main_v9) = W3 m ρ c (Proc.devRef .tc main_v9) :=
  W4_of_ne m ρ c main_v9 (by decide)

/-- Region 2 does not write %v17. -/
theorem W4_main_v17 (c : Dev nD) : W4 m ρ c (Proc.devRef .tc main_v17) = W3 m ρ c (Proc.devRef .tc main_v17) :=
  W4_of_ne m ρ c main_v17 (by decide)

/-- Region 2 does not write %v19. -/
theorem W4_main_v19 (c : Dev nD) : W4 m ρ c (Proc.devRef .tc main_v19) = W3 m ρ c (Proc.devRef .tc main_v19) :=
  W4_of_ne m ρ c main_v19 (by decide)

/-- Region 4 does not write %v25. -/
theorem W7_main_v25 (c : Dev nD) : W7 m ρ c (Proc.devRef .tc main_v25) = W6 m ρ c (Proc.devRef .tc main_v25) :=
  W7_of_ne m ρ c main_v25 (by decide)

end Cert.KernelIdeal.Kept

end
-- ==== Proof.LibRowSum.lean ====
/-
  A sum along the rows of a matrix, read at a row.

  Summing a [a, b] matrix over its second axis gives a vector of length a whose entry r is Σ_k x[r, k]. Over the
  extended reals this holds of the vector unit's add-reduction whatever order it sums in: addition of extended
  reals is commutative and associative, so the reduction is the finite sum over the dropped axis's coordinates,
  and the source index lying over row r with column k put back is (r, k).
-/
import Idealize.ShloMosaic.PureOps.Ideal.Laws
import Idealize.ShloMosaic.Lib.ValueIdx

noncomputable section

open scoped BigOperators

namespace Idealize.ShloMosaic.RowSum

open Idealize.ShloMosaic Idealize.ShloMosaic.ValueIdx

variable {a b : ℕ}

/-- The source index over row `r` with column `k` inserted on the dropped axis is `(r, k)`. -/
theorem lift_row (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- THE ROW SUM: an f32 add-reduction of a [a, b] matrix over its columns, from the zero word, has at row `r` the
    entry Σ_k x[r, k]. The accumulator's side condition is taken as the equation between the two zero words that a
    printed reduction carries. -/
theorem rowSum_apply (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (lift_row h r k)

end Idealize.ShloMosaic.RowSum

end
-- ==== Proof.LibKeepdimsLayout.lean ====
/-
  Layout operations read at an index given by coordinates, for the shapes a row-wise reduction with a kept axis and a
  block with two leading unit axes produce: a vector `[a]` cast to a column `[a, 1]`, a column `[a, 1]` broadcast
  along its rows to `[a, b]`, and the casts between `[1, 1, a, b]` and `[a, b]`. A cast keeps the row-major position,
  and a unit axis contributes nothing to it; a broadcast re-reads the column's one entry of the row at every column.
  Each lemma is the general read-at-an-index lemma of the operation with both indices written by coordinates, so that
  it applies to a printed operation by unification.
-/
import Idealize.ShloMosaic.Lib.Pipeline.Value
import Idealize.ShloMosaic.Lib.ValueIdx

namespace Cert.LayoutKeepdims

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`, whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

/-- A vector `[a]` cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LayoutKeepdims
-- ==== Proof.LibSoftmaxRows.lean ====
/-
  Softmax over the rows of a score block, read at an index, on the extended reals.

  For a block of scores s of shape [a, b]:
  * the row maximum — a max-reduction over the columns from the -inf word, kept as a column [a, 1] and broadcast back to
    [a, b] — read at (q, k) is the largest score of row q, folded from the bottom element (`rowTop`);
  * the row sum — an add-reduction from the zero word, kept and broadcast the same way — read at (q, k) is Σ_k' s[q, k'];
  * so exp(s − rowmax) / rowsum(exp(s − rowmax)) at (q, k) is the softmax weight of column k among row q's scores
    (`rowWeight`): the form jnp's `p = exp(s - max); p / sum(p)` takes in a kernel body.
  Beside them, the one law of the extended reals such kernels need when a constant scale is moved across an inner
  product: a nonnegative finite factor distributes over any finite sum, whatever the summands.
-/
import proofs.«132884_j27573690040724_2_alg».proof.Proof.LibRowSum
import proofs.«132884_j27573690040724_2_alg».proof.Proof.LibKeepdimsLayout
import proofs.«132884_j27573690040724_2_alg».proof.Proof.LibBitFolds
import Idealize.ShloMosaic.PureOps.Ideal.Laws
import Idealize.ShloMosaic.Lib.ValueIdx
import Idealize.ShloMosaic.Lib.Pipeline.Value
import Mathlib.Data.EReal.Operations
import Mathlib.Data.Finset.Fold

noncomputable section

open scoped BigOperators

namespace Cert.SoftmaxLib

open Idealize.ShloMosaic Idealize.ShloMosaic.ValueIdx

/-- The largest of finitely many extended reals, from the bottom element. -/
def rowTop {n : ℕ} (s : Fin n → EReal) : EReal := (Finset.univ : Finset (Fin n)).fold max (⊥ : EReal) s

/-- The softmax weight of entry k among s: exp(s_k − top) / Σ_k' exp(s_k' − top). -/
def rowWeight {n : ℕ} (s : Fin n → EReal) (k : Fin n) : EReal :=
  Ideal.div (Ideal.exp (s k - rowTop s)) (∑ k' : Fin n, Ideal.exp (s k' - rowTop s))

/-- A nonnegative finite factor distributes over a finite sum of extended reals; no summand need be finite. -/
theorem sum_mul_const {c : EReal} (h0 : 0 ≤ c) (htop : c ≠ ⊤) {n : ℕ} (t : Fin n → EReal) :
    ∑ e : Fin n, t e * c = (∑ e : Fin n, t e) * c := by
  classical
  refine Finset.induction_on (Finset.univ : Finset (Fin n)) ?_ ?_
  · simp
  · intro a s ha ih
    rw [Finset.sum_insert ha, Finset.sum_insert ha, ih, EReal.right_distrib_of_nonneg_of_ne_top h0 htop]

/-- Scaling the left factors of an inner product by such a constant scales the inner product. -/
theorem scaled_inner {c : EReal} (h0 : 0 ≤ c) (htop : c ≠ ⊤) {n : ℕ} (x y : Fin n → EReal) :
    ∑ e : Fin n, (x e * c) * y e = (∑ e : Fin n, x e * y e) * c := by
  rw [← sum_mul_const h0 htop]
  refine Finset.sum_congr rfl fun e _ => ?_
  rw [mul_assoc, mul_comm c, ← mul_assoc]

variable {a b : ℕ}

/-- The row maximum, kept as a column and broadcast over the row, read at (q, k). -/
theorem rowMax_at (s : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, b]⟩)
    (q : Fin a) (k : Fin b) :
    broadcastTo ⟨2, ![a, b]⟩ (shapeCast ⟨2, ![a, 1]⟩ (multiReduction .maximumf [1] ⟨1, ![a]⟩ s 0xFF800000#32 h hφ hacc) hc) hb (ix2 q k)
      = rowTop (fun k' : Fin b => s (ix2 q k')) := by
  rw [Cert.LayoutKeepdims.broadcastTo_a1_ab_apply, Cert.LayoutKeepdims.shapeCast_a_a1_apply,
    Ideal.multiReduction_maximumf_single]
  unfold rowTop
  rw [Ideal.ofBits_def, Cert.BitFolds.ofBits_neg_inf_f32]
  refine congrArg (fun f => (Finset.univ : Finset (Fin b)).fold max (⊥ : EReal) f) ?_
  funext k'
  exact congrArg s (Idealize.ShloMosaic.RowSum.lift_row h q k')

/-- The row sum, kept as a column and broadcast over the row, read at (q, k). -/
theorem rowSum_at (s : FVec Ideal ⟨2, ![a, b]⟩ .f32)
    (h : (⟨2, ![a, b]⟩ : Shape).Reduces [1] ⟨1, ![a]⟩) (hφ : FKind.Formats .f32)
    (hacc : (0x00000000#32 : BitVec 32) = 0x00000000#32)
    (hc : (⟨1, ![a]⟩ : Shape).ShapeCasts ⟨2, ![a, 1]⟩) (hb : (⟨2, ![a, 1]⟩ : Shape).Broadcasts ⟨2, ![a, b]⟩)
    (q : Fin a) (k : Fin b) :
    broadcastTo ⟨2, ![a, b]⟩ (shapeCast ⟨2, ![a, 1]⟩ (multiReduction .add [1] ⟨1, ![a]⟩ s 0x00000000#32 h hφ hacc) hc) hb (ix2 q k)
      = ∑ k' : Fin b, s (ix2 q k') := by
  rw [Cert.LayoutKeepdims.broadcastTo_a1_ab_apply, Cert.LayoutKeepdims.shapeCast_a_a1_apply,
    Idealize.ShloMosaic.RowSum.rowSum_apply]

/-- Scores minus their row maximum, exponentiated, at (q, k). -/
theorem shifted_exp_at (s : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, b]⟩)
    (q : Fin a) (k : Fin b) :
    exp (subf s (broadcastTo ⟨2, ![a, b]⟩ (shapeCast ⟨2, ![a, 1]⟩ (multiReduction .maximumf [1] ⟨1, ![a]⟩ s 0xFF800000#32 h hφ hacc) hc) hb)) (ix2 q k)
      = Ideal.exp (s (ix2 q k) - rowTop (fun k' : Fin b => s (ix2 q k'))) := by
  show Ideal.exp (s (ix2 q k) - _) = _
  rw [rowMax_at]

/-- THE WEIGHTS: exp(s − rowmax) / rowsum(exp(s − rowmax)) at (q, k) is the softmax weight of k in row q. -/
theorem weights_at (s : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ)
    (hφ' : FKind.Formats .f32) (hacc' : (0x00000000#32 : BitVec 32) = 0x00000000#32)
    (hc : (⟨1, ![a]⟩ : Shape).ShapeCasts ⟨2, ![a, 1]⟩) (hb : (⟨2, ![a, 1]⟩ : Shape).Broadcasts ⟨2, ![a, b]⟩)
    (q : Fin a) (k : Fin b) :
    divf (exp (subf s (broadcastTo ⟨2, ![a, b]⟩ (shapeCast ⟨2, ![a, 1]⟩ (multiReduction .maximumf [1] ⟨1, ![a]⟩ s 0xFF800000#32 h hφ hacc) hc) hb)))
        (broadcastTo ⟨2, ![a, b]⟩ (shapeCast ⟨2, ![a, 1]⟩ (multiReduction .add [1] ⟨1, ![a]⟩
          (exp (subf s (broadcastTo ⟨2, ![a, b]⟩ (shapeCast ⟨2, ![a, 1]⟩ (multiReduction .maximumf [1] ⟨1, ![a]⟩ s 0xFF800000#32 h hφ hacc) hc) hb)))
          0x00000000#32 h hφ' hacc') hc) hb) (ix2 q k)
      = rowWeight (fun k' : Fin b => s (ix2 q k')) k := by
  rw [divf_apply, rowSum_at, shifted_exp_at]
  unfold rowWeight
  refine congrArg (Ideal.div _) ?_
  exact Finset.sum_congr rfl fun k' _ => shifted_exp_at s h hφ hacc hc hb q k'

end Cert.SoftmaxLib

end
-- ==== Proof.AttentionAlgebra.lean ====
/-
  The one algebraic law between the two programs.

  The kernel scales each query entry by 1/8 before the inner product with a key row; the reference scales the inner
  product. On the extended reals a nonnegative finite factor distributes over any sum (no finiteness of the summands is
  needed), so the two logits are equal; the half-precision and single-precision words for 1/8 denote the same real.
-/
import proofs.«132884_j27573690040724_2_alg».proof.Proof.AttentionSpec
import proofs.«132884_j27573690040724_2_alg».proof.Proof.LibSoftmaxRows

noncomputable section

open scoped BigOperators

namespace Cert.AttentionSpec

open Idealize.ShloMosaic

/-- The single-precision word 0x3E000000 is the real 1/8. -/
theorem eighth_eq : eighth = ((1 / 8 : ℝ) : EReal) := by
  unfold eighth
  simp [Ideal.ofBits, Ideal.ieee]
  first
    | (rw [← EReal.coe_mul]; exact congrArg _ (by norm_num))
    | (norm_cast; norm_num)

/-- The half-precision (bfloat16) word 0x3E00 is the same real. -/
theorem eighth_bf16 : Ideal.ofBits .bf16 0x3E00#16 = eighth := by
  rw [eighth_eq]
  simp [Ideal.ofBits, Ideal.ieee]
  first
    | (rw [← EReal.coe_mul]; exact congrArg _ (by norm_num))
    | (norm_cast; norm_num)

theorem eighth_nonneg : 0 ≤ eighth := by
  rw [eighth_eq]; exact_mod_cast (by norm_num : (0 : ℝ) ≤ 1 / 8)

theorem eighth_ne_top : eighth ≠ ⊤ := by
  rw [eighth_eq]; exact EReal.coe_ne_top _

/-- Scaling the query entries first gives the reference's logit. -/
theorem scaled_query_logit {dk : ℕ} (q k : Fin dk → EReal) :
    ∑ e : Fin dk, (q e * eighth) * k e = logit q k :=
  Cert.SoftmaxLib.scaled_inner eighth_nonneg eighth_ne_top q k

end Cert.AttentionSpec

end
-- ==== Proof.SoftmaxRows.lean ====
/-
  The softmax weights of a score block in this certificate's vocabulary: the general row-softmax reading, its largest
  score and weight being the specification's `top` and `weight` (the same folds and quotients, by definition).
-/
import proofs.«132884_j27573690040724_2_alg».proof.Proof.AttentionSpec
import proofs.«132884_j27573690040724_2_alg».proof.Proof.LibSoftmaxRows

noncomputable section

open scoped BigOperators

namespace Cert.SoftmaxRows

open Idealize.ShloMosaic Idealize.ShloMosaic.ValueIdx Cert.AttentionSpec

variable {a b : ℕ}

/-- THE WEIGHTS: exp(s − rowmax) / rowsum(exp(s − rowmax)) at (q, k) is the softmax weight of k in row q. -/
theorem weights_at (s : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ)
    (hφ' : FKind.Formats .f32) (hacc' : (0x00000000#32 : BitVec 32) = 0x00000000#32)
    (hc : (⟨1, ![a]⟩ : Shape).ShapeCasts ⟨2, ![a, 1]⟩) (hb : (⟨2, ![a, 1]⟩ : Shape).Broadcasts ⟨2, ![a, b]⟩)
    (q : Fin a) (k : Fin b) :
    divf (exp (subf s (broadcastTo ⟨2, ![a, b]⟩ (shapeCast ⟨2, ![a, 1]⟩ (multiReduction .maximumf [1] ⟨1, ![a]⟩ s 0xFF800000#32 h hφ hacc) hc) hb)))
        (broadcastTo ⟨2, ![a, b]⟩ (shapeCast ⟨2, ![a, 1]⟩ (multiReduction .add [1] ⟨1, ![a]⟩
          (exp (subf s (broadcastTo ⟨2, ![a, b]⟩ (shapeCast ⟨2, ![a, 1]⟩ (multiReduction .maximumf [1] ⟨1, ![a]⟩ s 0xFF800000#32 h hφ hacc) hc) hb)))
          0x00000000#32 h hφ' hacc') hc) hb) (ix2 q k)
      = weight (fun k' : Fin b => s (ix2 q k')) k :=
  Cert.SoftmaxLib.weights_at s h hφ hacc hφ' hacc' hc hb q k

end Cert.SoftmaxRows

end
-- ==== Proof.AttentionBlock2.lean ====
/-
  Region 2 of the idealized kernel: one attention head's query tile against all of that head's keys and values.

  A block of 512 query rows of width 64, scaled entrywise by 1/8, is multiplied with the transposed key block
  [2048, 64] to give the scores; each row of scores is turned into softmax weights (row maximum from -inf, exponential
  of the difference, row sum, quotient); the weights times the value block [2048, 64] are the context rows. Read at an
  index this is the specification's weighted sum, the scaling moved across the inner product.
-/
import proofs.«132884_j27573690040724_2_alg».proof.Proof.Gen.KernelIdeal.Frame
import proofs.«132884_j27573690040724_2_alg».proof.Proof.AttentionSpec
import proofs.«132884_j27573690040724_2_alg».proof.Proof.AttentionAlgebra
import proofs.«132884_j27573690040724_2_alg».proof.Proof.SoftmaxRows
import proofs.«132884_j27573690040724_2_alg».proof.Proof.LibDotInnerHost
import Idealize.ShloMosaic.Lib.ValueLayout
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Attention2

open Cert.KernelIdeal Cert.KernelIdeal.Gen Idealize.ShloMosaic Idealize.ShloMosaic.ValueIdx Idealize.ShloMosaic.Pipeline
open Cert.AttentionSpec Idealize.ShloMosaic.DotInner Idealize.ShloMosaic.TcCoe

/-- The scores' product is rows by columns: [512, 64] by [64, 2048]. -/
theorem plain_scores : Plain dot_S512x64_S64x2048_S512x2048_1_0_0_1_n_n :=
  plain_record dot_S512x64_S64x2048_S512x2048_1_0_0_1_n_n, S512x64, S64x2048

/-- The context's product is rows by columns: [512, 2048] by [2048, 64]. -/
theorem plain_context : Plain dot_S512x2048_S2048x64_S512x64_1_0_0_1_n_n :=
  plain_record dot_S512x2048_S2048x64_S512x64_1_0_0_1_n_n, S512x2048, S2048x64

/-- THE SCORES at (q, k): the scaled inner product of query row q and key row k of the loaded blocks. -/
theorem scores_at (x0 : Vec Ideal S1x512x64 .bf16) (x1 : Vec Ideal S1x2048x64 .bf16) (q : Fin 512) (k : Fin 2048) :
    matmul (F := Ideal) dot_S512x64_S64x2048_S512x2048_1_0_0_1_n_n none
        (mulf (shapeCast S512x64 x0 shapeCasts_S1x512x64_S512x64 : FVec Ideal S512x64 .bf16)
          (broadcast S512x64 (Scalar.ofBits (F := Ideal) .bf16 0x3E00#16)) : FVec Ideal S512x64 .bf16)
        (transpose S64x2048 [1, 0] (shapeCast S2048x64 x1 shapeCasts_S1x2048x64_S2048x64 : FVec Ideal S2048x64 .bf16)
          transposes_S2048x64_p1_0_S64x2048 : FVec Ideal S64x2048 .bf16)
        (constant S512x2048 .f32 0x00000000#32) (ix2 q k)
      = logit (fun e : Fin 64 => x0 (ix3 (0 : Fin 1) q e)) (fun e : Fin 64 => x1 (ix3 (0 : Fin 1) k e)) := by
  refine (plain_scores.matmul_zero none _ _ q k).trans ?_
  rw [← scaled_query_logit]
  refine Finset.sum_congr rfl fun e _ => ?_
  rw [mulf_apply, broadcast_apply, shapeCast_1ab_ab_apply, transpose_ix2_apply, shapeCast_1ab_ab_apply]
  show x0 _ * Ideal.ofBits .bf16 0x3E00#16 * x1 _ = _
  rw [eighth_bf16]

/-- THE PAYLOAD at (0, q, d): the softmax-weighted sum of column d of the value block under row q's scores. -/
theorem pay_at (x0 : Vec Ideal S1x512x64 .bf16) (x1 x2 : Vec Ideal S1x2048x64 .bf16) (q : Fin 512) (d : Fin 64) :
    k2_pay1 (F := Ideal) x0 x1 x2 (ix3 (0 : Fin 1) q d)
      = attend (fun k : Fin 2048 => logit (fun e : Fin 64 => x0 (ix3 (0 : Fin 1) q e)) (fun e : Fin 64 => x1 (ix3 (0 : Fin 1) k e)))
          (fun k : Fin 2048 => x2 (ix3 (0 : Fin 1) k d)) := by
  unfold k2_pay1
  dsimp only
  refine (shapeCast_ab_1ab_apply _ _ 0 q d).trans ?_
  rw [truncf_apply]
  refine (plain_context.matmul_zero none _ _ q d).trans ?_
  unfold attend
  refine Finset.sum_congr rfl fun k _ => ?_
  rw [truncf_apply, shapeCast_1ab_ab_apply]
  refine congrArg (· * x2 (ix3 (0 : Fin 1) k d)) ?_
  refine (Cert.SoftmaxRows.weights_at _ _ _ _ _ _ _ _ q k).trans ?_
  refine congrArg (fun s => weight s k) ?_
  funext k'
  exact scores_at x0 x1 q k'

/-! ## From the grid's blocks to the whole context array

Point (h, i) of the grid [16, 6] reads query rows 512·i … 512·i + 511 of head h and all of head h's keys and values, and
writes context rows 512·i … 512·i + 511 of head h; these blocks tile the context array. -/

section Blocks

variable (V : (c : Dev nD) → (b : Ref sig .tc) → Buf (Elt Ideal) ((c : Thread nD τ).loc b))

theorem offsets_zero : (![0, 0, 0] : Fin 3 → Nat) = fun _ => 0 := funext fun a => by fin_cases a <;> rfl

/-- The context array as one function of the query, key and value arrays. -/
def wholeContext (Q : S16x3072x64.Idx → EReal) (K Vv : S16x2048x64.Idx → EReal) : S16x3072x64.Idx → EReal :=
  fun i => ctx Q K Vv (i 0) (i 1) (i 2)

/-- The printed index maps over the grid: the query and output windows move together (head, tile, 0); the key and value
    windows follow the head only. -/
theorem index_facts : ∀ t : Fin cfg2.N,
    win2_0.index t (0 : Fin 3) = win2_3.index t (0 : Fin 3) ∧ win2_0.index t (1 : Fin 3) = win2_3.index t (1 : Fin 3)
    ∧ win2_0.index t (2 : Fin 3) = 0 ∧ win2_3.index t (2 : Fin 3) = 0
    ∧ win2_1.index t (0 : Fin 3) = win2_3.index t (0 : Fin 3) ∧ win2_1.index t (1 : Fin 3) = 0 ∧ win2_1.index t (2 : Fin 3) = 0
    ∧ win2_2.index t (0 : Fin 3) = win2_3.index t (0 : Fin 3) ∧ win2_2.index t (1 : Fin 3) = 0 ∧ win2_2.index t (2 : Fin 3) = 0
    ∧ win2_3.index t (0 : Fin 3) ≤ 15 ∧ win2_3.index t (1 : Fin 3) ≤ 5 :=
  (by decide +kernel : ∀ t : Fin grid2.N, _)

/-- Every (head, tile) pair is some point's output block. -/
theorem index_onto : ∀ (q0 : Fin 16) (q1 : Fin 6), ∃ t : Fin cfg2.N, win2_3.index t = ![q0.val, q1.val, 0] :=
  (by decide +kernel : ∀ (q0 : Fin 16) (q1 : Fin 6), ∃ t : Fin grid2.N, win2_3.index t = ![q0.val, q1.val, 0])

/-- WHAT POINT t WRITES BACK is block t of the whole context function of the arrays as the region finds them. -/
theorem flushed_eq (c : Dev nD) (t : Fin cfg2.N) :
    (dat2 (F := Ideal) V c).flushed 3 t
      = ((cfg2.win 3).blk t).view.read (Elt Ideal) (wholeContext (V c main_v15) (V c main_v11) (V c main_v13)) := by
  show (cfg2.win 3).cut (grid2.coords t) ((dat2 (F := Ideal) V c).after 3 t) = _
  rw [after2_3]
  unfold out2_3
  rw [View.canon_unit_zero offsets_zero]
  simp only [View.ld_unit_zero (S := S1x512x64) offsets_zero, View.ld_unit_zero (S := S1x2048x64) offsets_zero]
  obtain ⟨e00, e01, e02, e32, e10, e11, e12, e20, e21, e22, b0, b1⟩ := index_facts t
  funext j
  obtain ⟨u, q, d, rfl⟩ : ∃ (u : Fin 1) (q : Fin 512) (d : Fin 64), j = ix3 u q d := ⟨j 0, j 1, j 2, eq_ix3 j⟩
  obtain rfl : u = 0 := Subsingleton.elim _ _
  show k2_pay1 (F := Ideal) (iblk2 V c 0 t) (iblk2 V c 1 t) (iblk2 V c 2 t) (ix3 (0 : Fin 1) q d)
    = wholeContext (V c main_v15) (V c main_v11) (V c main_v13) (((cfg2.win 3).blk t).view.emb (ix3 (0 : Fin 1) q d))
  refine (pay_at _ _ _ q d).trans ?_
  unfold wholeContext ctx
  have hq : ∀ e : Fin 64, iblk2 V c 0 t (ix3 (0 : Fin 1) q e)
      = V c main_v15 (ix3 ((((cfg2.win 3).blk t).view.emb (ix3 (0 : Fin 1) q d)) 0) ((((cfg2.win 3).blk t).view.emb (ix3 (0 : Fin 1) q d)) 1) e) := by
    intro e
    show V c main_v15 (((cfg2.win 0).blk t).view.emb (ix3 (0 : Fin 1) q e)) = _
    refine congrArg _ ?_
    funext a; apply Fin.ext
    match a with
    | ⟨0, _⟩ => show win2_0.index t (0 : Fin 3) * 1 + 1 * 0 = win2_3.index t (0 : Fin 3) * 1 + 1 * 0; omega
    | ⟨1, _⟩ => show win2_0.index t (1 : Fin 3) * 512 + 1 * q.val = win2_3.index t (1 : Fin 3) * 512 + 1 * q.val; omega
    | ⟨2, _⟩ => show win2_0.index t (2 : Fin 3) * 64 + 1 * e.val = e.val; omega
  have hk : ∀ (k : Fin 2048) (e : Fin 64), iblk2 V c 1 t (ix3 (0 : Fin 1) k e)
      = V c main_v11 (ix3 ((((cfg2.win 3).blk t).view.emb (ix3 (0 : Fin 1) q d)) 0) k e) := by
    intro k e
    show V c main_v11 (((cfg2.win 1).blk t).view.emb (ix3 (0 : Fin 1) k e)) = _
    refine congrArg _ ?_
    funext a; apply Fin.ext
    match a with
    | ⟨0, _⟩ => show win2_1.index t (0 : Fin 3) * 1 + 1 * 0 = win2_3.index t (0 : Fin 3) * 1 + 1 * 0; omega
    | ⟨1, _⟩ => show win2_1.index t (1 : Fin 3) * 2048 + 1 * k.val = k.val; omega
    | ⟨2, _⟩ => show win2_1.index t (2 : Fin 3) * 64 + 1 * e.val = e.val; omega
  have hv : ∀ k : Fin 2048, iblk2 V c 2 t (ix3 (0 : Fin 1) k d)
      = V c main_v13 (ix3 ((((cfg2.win 3).blk t).view.emb (ix3 (0 : Fin 1) q d)) 0) k ((((cfg2.win 3).blk t).view.emb (ix3 (0 : Fin 1) q d)) 2)) := by
    intro k
    show V c main_v13 (((cfg2.win 2).blk t).view.emb (ix3 (0 : Fin 1) k d)) = _
    refine congrArg _ ?_
    funext a; apply Fin.ext
    match a with
    | ⟨0, _⟩ => show win2_2.index t (0 : Fin 3) * 1 + 1 * 0 = win2_3.index t (0 : Fin 3) * 1 + 1 * 0; omega
    | ⟨1, _⟩ => show win2_2.index t (1 : Fin 3) * 2048 + 1 * k.val = k.val; omega
    | ⟨2, _⟩ => show win2_2.index t (2 : Fin 3) * 64 + 1 * d.val = win2_3.index t (2 : Fin 3) * 64 + 1 * d.val; omega
  simp only [hq, hk, hv]

/-- An index of the context array is in point t's block iff each coordinate is in the block's range on its axis. -/
theorem mem_block (t : Fin cfg2.N) (i : S16x3072x64.Idx) :
    i ∈ ((cfg2.win 3).blk t).view.set ↔ ∀ a : Fin 3, win2_3.index t a * S1x512x64.size a ≤ (i a).val
      ∧ (i a).val < win2_3.index t a * S1x512x64.size a + S1x512x64.size a := by
  show i ∈ ((View.whole main_v20).slice (win2_3.rect t)).set ↔ _
  rw [View.set_slice_whole, Rect.mem_set_unit]
  exact Iff.rfl

/-- The output blocks cover the context array: row r of head h is in the block of point (h, r / 512). -/
theorem cover (i : S16x3072x64.Idx) :
    ∃ t : Fin cfg2.N, (cfg2.win 3).flush t = true ∧ i ∈ ((cfg2.win 3).blk t).view.set := by
  have hi0 : (i 0).val < 16 := (i 0).isLt
  have hi1 : (i 1).val < 3072 := (i 1).isLt
  have hi2 : (i 2).val < 64 := (i 2).isLt
  obtain ⟨t, ht⟩ := index_onto ⟨(i 0).val, hi0⟩ ⟨(i 1).val / 512, by omega⟩
  have q0 : win2_3.index t (0 : Fin 3) = (i 0).val := congrFun ht 0
  have q1 : win2_3.index t (1 : Fin 3) = (i 1).val / 512 := congrFun ht 1
  have q2 : win2_3.index t (2 : Fin 3) = 0 := congrFun ht 2
  refine ⟨t, flush2_3 t, ?_⟩
  rw [mem_block]
  intro a
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 512 ≤ (i 1).val ∧ (i 1).val < win2_3.index t (1 : Fin 3) * 512 + 512; omega
  | ⟨2, _⟩ => show win2_3.index t (2 : Fin 3) * 64 ≤ (i 2).val ∧ (i 2).val < win2_3.index t (2 : Fin 3) * 64 + 64; omega

/-- THE CONTEXT ARRAY after the region: the whole context function of the query, key and value arrays at its entry. -/
theorem array_eq (c : Dev nD) :
    (dat2 (F := Ideal) V c).arrAt 3 cfg2.N = wholeContext (V c main_v15) (V c main_v11) (V c main_v13) :=
  (dat2 (F := Ideal) V c).arrAt_eq_of_cover 3 _ (fun t _ => flushed_eq V c t) cover

end Blocks

end Cert.KernelIdeal.Attention2

end
-- ==== Proof.AttentionBlock3.lean ====
/-
  Region 3 of the idealized kernel: one attention head's query tile against all of that head's keys and values.

  A block of 512 query rows of width 64, scaled entrywise by 1/8, is multiplied with the transposed key block
  [3072, 64] to give the scores; each row of scores is turned into softmax weights (row maximum from -inf, exponential
  of the difference, row sum, quotient); the weights times the value block [3072, 64] are the context rows. Read at an
  index this is the specification's weighted sum, the scaling moved across the inner product.
-/
import proofs.«132884_j27573690040724_2_alg».proof.Proof.Gen.KernelIdeal.Frame
import proofs.«132884_j27573690040724_2_alg».proof.Proof.AttentionSpec
import proofs.«132884_j27573690040724_2_alg».proof.Proof.AttentionAlgebra
import proofs.«132884_j27573690040724_2_alg».proof.Proof.SoftmaxRows
import proofs.«132884_j27573690040724_2_alg».proof.Proof.LibDotInnerHost
import Idealize.ShloMosaic.Lib.ValueLayout
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Attention3

open Cert.KernelIdeal Cert.KernelIdeal.Gen Idealize.ShloMosaic Idealize.ShloMosaic.ValueIdx Idealize.ShloMosaic.Pipeline
open Cert.AttentionSpec Idealize.ShloMosaic.DotInner Idealize.ShloMosaic.TcCoe

/-- The scores' product is rows by columns: [512, 64] by [64, 3072]. -/
theorem plain_scores : Plain dot_S512x64_S64x3072_S512x3072_1_0_0_1_n_n :=
  plain_record dot_S512x64_S64x3072_S512x3072_1_0_0_1_n_n, S512x64, S64x3072

/-- The context's product is rows by columns: [512, 3072] by [3072, 64]. -/
theorem plain_context : Plain dot_S512x3072_S3072x64_S512x64_1_0_0_1_n_n :=
  plain_record dot_S512x3072_S3072x64_S512x64_1_0_0_1_n_n, S512x3072, S3072x64

/-- THE SCORES at (q, k): the scaled inner product of query row q and key row k of the loaded blocks. -/
theorem scores_at (x0 : Vec Ideal S1x512x64 .bf16) (x1 : Vec Ideal S1x3072x64 .bf16) (q : Fin 512) (k : Fin 3072) :
    matmul (F := Ideal) dot_S512x64_S64x3072_S512x3072_1_0_0_1_n_n none
        (mulf (shapeCast S512x64 x0 shapeCasts_S1x512x64_S512x64 : FVec Ideal S512x64 .bf16)
          (broadcast S512x64 (Scalar.ofBits (F := Ideal) .bf16 0x3E00#16)) : FVec Ideal S512x64 .bf16)
        (transpose S64x3072 [1, 0] (shapeCast S3072x64 x1 shapeCasts_S1x3072x64_S3072x64 : FVec Ideal S3072x64 .bf16)
          transposes_S3072x64_p1_0_S64x3072 : FVec Ideal S64x3072 .bf16)
        (constant S512x3072 .f32 0x00000000#32) (ix2 q k)
      = logit (fun e : Fin 64 => x0 (ix3 (0 : Fin 1) q e)) (fun e : Fin 64 => x1 (ix3 (0 : Fin 1) k e)) := by
  refine (plain_scores.matmul_zero none _ _ q k).trans ?_
  rw [← scaled_query_logit]
  refine Finset.sum_congr rfl fun e _ => ?_
  rw [mulf_apply, broadcast_apply, shapeCast_1ab_ab_apply, transpose_ix2_apply, shapeCast_1ab_ab_apply]
  show x0 _ * Ideal.ofBits .bf16 0x3E00#16 * x1 _ = _
  rw [eighth_bf16]

/-- THE PAYLOAD at (0, q, d): the softmax-weighted sum of column d of the value block under row q's scores. -/
theorem pay_at (x0 : Vec Ideal S1x512x64 .bf16) (x1 x2 : Vec Ideal S1x3072x64 .bf16) (q : Fin 512) (d : Fin 64) :
    k3_pay1 (F := Ideal) x0 x1 x2 (ix3 (0 : Fin 1) q d)
      = attend (fun k : Fin 3072 => logit (fun e : Fin 64 => x0 (ix3 (0 : Fin 1) q e)) (fun e : Fin 64 => x1 (ix3 (0 : Fin 1) k e)))
          (fun k : Fin 3072 => x2 (ix3 (0 : Fin 1) k d)) := by
  unfold k3_pay1
  dsimp only
  refine (shapeCast_ab_1ab_apply _ _ 0 q d).trans ?_
  rw [truncf_apply]
  refine (plain_context.matmul_zero none _ _ q d).trans ?_
  unfold attend
  refine Finset.sum_congr rfl fun k _ => ?_
  rw [truncf_apply, shapeCast_1ab_ab_apply]
  refine congrArg (· * x2 (ix3 (0 : Fin 1) k d)) ?_
  refine (Cert.SoftmaxRows.weights_at _ _ _ _ _ _ _ _ q k).trans ?_
  refine congrArg (fun s => weight s k) ?_
  funext k'
  exact scores_at x0 x1 q k'

/-! ## From the grid's blocks to the whole context array

Point (h, i) of the grid [16, 4] reads query rows 512·i … 512·i + 511 of head h and all of head h's keys and values, and
writes context rows 512·i … 512·i + 511 of head h; these blocks tile the context array. -/

section Blocks

variable (V : (c : Dev nD) → (b : Ref sig .tc) → Buf (Elt Ideal) ((c : Thread nD τ).loc b))

theorem offsets_zero : (![0, 0, 0] : Fin 3 → Nat) = fun _ => 0 := funext fun a => by fin_cases a <;> rfl

/-- The context array as one function of the query, key and value arrays. -/
def wholeContext (Q : S16x2048x64.Idx → EReal) (K Vv : S16x3072x64.Idx → EReal) : S16x2048x64.Idx → EReal :=
  fun i => ctx Q K Vv (i 0) (i 1) (i 2)

/-- The printed index maps over the grid: the query and output windows move together (head, tile, 0); the key and value
    windows follow the head only. -/
theorem index_facts : ∀ t : Fin cfg3.N,
    win3_0.index t (0 : Fin 3) = win3_3.index t (0 : Fin 3) ∧ win3_0.index t (1 : Fin 3) = win3_3.index t (1 : Fin 3)
    ∧ win3_0.index t (2 : Fin 3) = 0 ∧ win3_3.index t (2 : Fin 3) = 0
    ∧ win3_1.index t (0 : Fin 3) = win3_3.index t (0 : Fin 3) ∧ win3_1.index t (1 : Fin 3) = 0 ∧ win3_1.index t (2 : Fin 3) = 0
    ∧ win3_2.index t (0 : Fin 3) = win3_3.index t (0 : Fin 3) ∧ win3_2.index t (1 : Fin 3) = 0 ∧ win3_2.index t (2 : Fin 3) = 0
    ∧ win3_3.index t (0 : Fin 3) ≤ 15 ∧ win3_3.index t (1 : Fin 3) ≤ 3 :=
  (by decide +kernel : ∀ t : Fin grid3.N, _)

/-- Every (head, tile) pair is some point's output block. -/
theorem index_onto : ∀ (q0 : Fin 16) (q1 : Fin 4), ∃ t : Fin cfg3.N, win3_3.index t = ![q0.val, q1.val, 0] :=
  (by decide +kernel : ∀ (q0 : Fin 16) (q1 : Fin 4), ∃ t : Fin grid3.N, win3_3.index t = ![q0.val, q1.val, 0])

/-- WHAT POINT t WRITES BACK is block t of the whole context function of the arrays as the region finds them. -/
theorem flushed_eq (c : Dev nD) (t : Fin cfg3.N) :
    (dat3 (F := Ideal) V c).flushed 3 t
      = ((cfg3.win 3).blk t).view.read (Elt Ideal) (wholeContext (V c main_v9) (V c main_v17) (V c main_v19)) := by
  show (cfg3.win 3).cut (grid3.coords t) ((dat3 (F := Ideal) V c).after 3 t) = _
  rw [after3_3]
  unfold out3_3
  rw [View.canon_unit_zero offsets_zero]
  simp only [View.ld_unit_zero (S := S1x512x64) offsets_zero, View.ld_unit_zero (S := S1x3072x64) offsets_zero]
  obtain ⟨e00, e01, e02, e32, e10, e11, e12, e20, e21, e22, b0, b1⟩ := index_facts t
  funext j
  obtain ⟨u, q, d, rfl⟩ : ∃ (u : Fin 1) (q : Fin 512) (d : Fin 64), j = ix3 u q d := ⟨j 0, j 1, j 2, eq_ix3 j⟩
  obtain rfl : u = 0 := Subsingleton.elim _ _
  show k3_pay1 (F := Ideal) (iblk3 V c 0 t) (iblk3 V c 1 t) (iblk3 V c 2 t) (ix3 (0 : Fin 1) q d)
    = wholeContext (V c main_v9) (V c main_v17) (V c main_v19) (((cfg3.win 3).blk t).view.emb (ix3 (0 : Fin 1) q d))
  refine (pay_at _ _ _ q d).trans ?_
  unfold wholeContext ctx
  have hq : ∀ e : Fin 64, iblk3 V c 0 t (ix3 (0 : Fin 1) q e)
      = V c main_v9 (ix3 ((((cfg3.win 3).blk t).view.emb (ix3 (0 : Fin 1) q d)) 0) ((((cfg3.win 3).blk t).view.emb (ix3 (0 : Fin 1) q d)) 1) e) := by
    intro e
    show V c main_v9 (((cfg3.win 0).blk t).view.emb (ix3 (0 : Fin 1) q e)) = _
    refine congrArg _ ?_
    funext a; apply Fin.ext
    match a with
    | ⟨0, _⟩ => show win3_0.index t (0 : Fin 3) * 1 + 1 * 0 = win3_3.index t (0 : Fin 3) * 1 + 1 * 0; omega
    | ⟨1, _⟩ => show win3_0.index t (1 : Fin 3) * 512 + 1 * q.val = win3_3.index t (1 : Fin 3) * 512 + 1 * q.val; omega
    | ⟨2, _⟩ => show win3_0.index t (2 : Fin 3) * 64 + 1 * e.val = e.val; omega
  have hk : ∀ (k : Fin 3072) (e : Fin 64), iblk3 V c 1 t (ix3 (0 : Fin 1) k e)
      = V c main_v17 (ix3 ((((cfg3.win 3).blk t).view.emb (ix3 (0 : Fin 1) q d)) 0) k e) := by
    intro k e
    show V c main_v17 (((cfg3.win 1).blk t).view.emb (ix3 (0 : Fin 1) k e)) = _
    refine congrArg _ ?_
    funext a; apply Fin.ext
    match a with
    | ⟨0, _⟩ => show win3_1.index t (0 : Fin 3) * 1 + 1 * 0 = win3_3.index t (0 : Fin 3) * 1 + 1 * 0; omega
    | ⟨1, _⟩ => show win3_1.index t (1 : Fin 3) * 3072 + 1 * k.val = k.val; omega
    | ⟨2, _⟩ => show win3_1.index t (2 : Fin 3) * 64 + 1 * e.val = e.val; omega
  have hv : ∀ k : Fin 3072, iblk3 V c 2 t (ix3 (0 : Fin 1) k d)
      = V c main_v19 (ix3 ((((cfg3.win 3).blk t).view.emb (ix3 (0 : Fin 1) q d)) 0) k ((((cfg3.win 3).blk t).view.emb (ix3 (0 : Fin 1) q d)) 2)) := by
    intro k
    show V c main_v19 (((cfg3.win 2).blk t).view.emb (ix3 (0 : Fin 1) k d)) = _
    refine congrArg _ ?_
    funext a; apply Fin.ext
    match a with
    | ⟨0, _⟩ => show win3_2.index t (0 : Fin 3) * 1 + 1 * 0 = win3_3.index t (0 : Fin 3) * 1 + 1 * 0; omega
    | ⟨1, _⟩ => show win3_2.index t (1 : Fin 3) * 3072 + 1 * k.val = k.val; omega
    | ⟨2, _⟩ => show win3_2.index t (2 : Fin 3) * 64 + 1 * d.val = win3_3.index t (2 : Fin 3) * 64 + 1 * d.val; omega
  simp only [hq, hk, hv]

/-- An index of the context array is in point t's block iff each coordinate is in the block's range on its axis. -/
theorem mem_block (t : Fin cfg3.N) (i : S16x2048x64.Idx) :
    i ∈ ((cfg3.win 3).blk t).view.set ↔ ∀ a : Fin 3, win3_3.index t a * S1x512x64.size a ≤ (i a).val
      ∧ (i a).val < win3_3.index t a * S1x512x64.size a + S1x512x64.size a := by
  show i ∈ ((View.whole main_v21).slice (win3_3.rect t)).set ↔ _
  rw [View.set_slice_whole, Rect.mem_set_unit]
  exact Iff.rfl

/-- The output blocks cover the context array: row r of head h is in the block of point (h, r / 512). -/
theorem cover (i : S16x2048x64.Idx) :
    ∃ t : Fin cfg3.N, (cfg3.win 3).flush t = true ∧ i ∈ ((cfg3.win 3).blk t).view.set := by
  have hi0 : (i 0).val < 16 := (i 0).isLt
  have hi1 : (i 1).val < 2048 := (i 1).isLt
  have hi2 : (i 2).val < 64 := (i 2).isLt
  obtain ⟨t, ht⟩ := index_onto ⟨(i 0).val, hi0⟩ ⟨(i 1).val / 512, by omega⟩
  have q0 : win3_3.index t (0 : Fin 3) = (i 0).val := congrFun ht 0
  have q1 : win3_3.index t (1 : Fin 3) = (i 1).val / 512 := congrFun ht 1
  have q2 : win3_3.index t (2 : Fin 3) = 0 := congrFun ht 2
  refine ⟨t, flush3_3 t, ?_⟩
  rw [mem_block]
  intro a
  match a with
  | ⟨0, _⟩ => show win3_3.index t (0 : Fin 3) * 1 ≤ (i 0).val ∧ (i 0).val < win3_3.index t (0 : Fin 3) * 1 + 1; omega
  | ⟨1, _⟩ => show win3_3.index t (1 : Fin 3) * 512 ≤ (i 1).val ∧ (i 1).val < win3_3.index t (1 : Fin 3) * 512 + 512; omega
  | ⟨2, _⟩ => show win3_3.index t (2 : Fin 3) * 64 ≤ (i 2).val ∧ (i 2).val < win3_3.index t (2 : Fin 3) * 64 + 64; omega

/-- THE CONTEXT ARRAY after the region: the whole context function of the query, key and value arrays at its entry. -/
theorem array_eq (c : Dev nD) :
    (dat3 (F := Ideal) V c).arrAt 3 cfg3.N = wholeContext (V c main_v9) (V c main_v17) (V c main_v19) :=
  (dat3 (F := Ideal) V c).arrAt_eq_of_cover 3 _ (fun t _ => flushed_eq V c t) cover

end Blocks

end Cert.KernelIdeal.Attention3

end
-- ==== Proof.OutputProduct.lean ====
/-
  The two output projections. Each is a row-blocked product of a [R, 1024] matrix by a [1024, 1024] matrix: grid point t
  multiplies rows 512·t … 512·t + 511 of the left matrix by the whole right matrix and writes the same rows of the result.
  So the result array, entry (r, j), is Σ_k left[r, k] · right[k, j] over the extended reals, whatever the buffers held
  when the region was entered.
-/
import proofs.«132884_j27573690040724_2_alg».proof.Proof.Gen.KernelIdeal.Frame
import proofs.«132884_j27573690040724_2_alg».proof.Proof.LibDotInnerHost
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.OutputProduct

open Cert.KernelIdeal Cert.KernelIdeal.Gen Idealize.ShloMosaic Idealize.ShloMosaic.TcCoe Idealize.ShloMosaic.ValueIdx
open Idealize.ShloMosaic.Pipeline

/-! ## The product of one row block -/

/-- The dimension numbers of the body's product say rows by columns. -/
theorem dims_plain : DotInner.Plain dot_S512x1024_S1024x1024_S512x1024_1_0_0_1_n_n :=
  plain_record dot_S512x1024_S1024x1024_S512x1024_1_0_0_1_n_n, S512x1024, S1024x1024

/-- The zero offsets, as the constant function. -/
theorem zeros : (![0, 0] : Fin 2 → Nat) = fun _ => 0 := funext fun a => by fin_cases a <;> rfl

-- the buffer contents when a region is entered, arbitrary: nothing below depends on what they are
variable (V : (c : Dev nD) → (b : Ref sig .tc) → Buf (Elt Ideal) ((c : Thread nD τ).loc b))

/-! ## Region 4: the first projection, 3072 rows in 6 blocks -/

/-- Region 4's payload at entry (p, q): the row p of the block against the column q of the weights. -/
theorem pay4_at (x0 : Vec Ideal S512x1024 .bf16) (x1 : Vec Ideal S1024x1024 .f32) (p : Fin 512) (q : Fin 1024) :
    k4_pay1 (F := Ideal) x0 x1 (ix2 p q) = ∑ k : Fin 1024, x0 (ix2 p k) * x1 (ix2 k q) := by
  unfold k4_pay1
  show FloatOps.matmul dot_S512x1024_S1024x1024_S512x1024_1_0_0_1_n_n none
      (shapeCast S512x1024 x0 shapeCasts_S512x1024_S512x1024) (truncf .bf16 x1 bitsLt_bf16_f32)
      (constant (F := Ideal) S512x1024 .f32 0x00000000#32) (ix2 p q) = _
  rw [shapeCast_self]
  exact dims_plain.matmul_zero none x0 (truncf .bf16 x1 bitsLt_bf16_f32) p q

/-- The same at an index not yet split into its coordinates. -/
theorem pay4_apply (x0 : Vec Ideal S512x1024 .bf16) (x1 : Vec Ideal S1024x1024 .f32) (j : S512x1024.Idx) :
    k4_pay1 (F := Ideal) x0 x1 j = ∑ k : Fin 1024, x0 (ix2 (j 0) k) * x1 (ix2 k (j 1)) := by
  obtain ⟨p, q, rfl⟩ : ∃ (p : Fin 512) (q : Fin 1024), j = ix2 p q := ⟨j 0, j 1, eq_ix2 j⟩
  exact pay4_at x0 x1 p q

/-- What region 4's result array ends holding: the product of the two arrays the region reads, entry by entry. -/
abbrev G4 (A : S3072x1024.Idx → EReal) (B : S1024x1024.Idx → EReal) : S3072x1024.Idx → EReal :=
  fun i => ∑ k : Fin 1024, A (ix2 (i 0) k) * B (ix2 k (i 1))

/-- The index maps over the grid: the left operand's row block moves with the result's, which is the point's own number;
    every other block index is 0. -/
theorem idx_facts4 : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0
    ∧ win4_2.index t (0 : Fin 2) = t.val :=
  (by decide +kernel : ∀ t : Fin grid4.N, _)

/-- What point t writes back is block t of the product: the left operand's block is rows 512·t … of its array, the right
    operand's block is its whole array, and the block's entry (p, q) is row 512·t + p against column q. -/
theorem flushed4_eq (c : Dev nD) (t : Fin cfg4.N) :
    (dat4 (F := Ideal) V c).flushed 2 t
      = ((cfg4.win 2).blk t).view.read (Elt Ideal) (G4 (V c main_v23) (V c main_arg8)) := by
  show (cfg4.win 2).cut (grid4.coords t) ((dat4 V c).after 2 t) = _
  rw [after4_2]
  unfold out4_2
  rw [View.canon_unit_zero zeros]
  simp only [View.ld_unit_zero (S := S512x1024) zeros, View.ld_unit_zero (S := S1024x1024) zeros]
  funext j
  refine (pay4_apply _ _ j).trans ?_
  obtain ⟨e0, e1, e2, e3, e4, e5⟩ := idx_facts4 t
  show _ = G4 (V c main_v23) (V c main_arg8) (((cfg4.win 2).blk t).view.emb j)
  show (∑ k : Fin 1024, _) = ∑ k : Fin 1024, _
  refine Finset.sum_congr rfl fun k _ => ?_
  have h0 : ((cfg4.win 0).blk t).view.emb (ix2 (j 0) k) = ix2 ((((cfg4.win 2).blk t).view.emb j) 0) k := by
    funext a; apply Fin.ext
    match a with
    | ⟨0, _⟩ => show win4_0.index t (0 : Fin 2) * 512 + 1 * (j 0).val = win4_2.index t (0 : Fin 2) * 512 + 1 * (j 0).val; omega
    | ⟨1, _⟩ => show win4_0.index t (1 : Fin 2) * 1024 + 1 * k.val = k.val; omega
  have h1 : ((cfg4.win 1).blk t).view.emb (ix2 k (j 1)) = ix2 k ((((cfg4.win 2).blk t).view.emb j) 1) := by
    funext a; apply Fin.ext
    match a with
    | ⟨0, _⟩ => show win4_1.index t (0 : Fin 2) * 1024 + 1 * k.val = k.val; omega
    | ⟨1, _⟩ => show win4_1.index t (1 : Fin 2) * 1024 + 1 * (j 1).val = win4_2.index t (1 : Fin 2) * 1024 + 1 * (j 1).val; omega
  exact congrArg₂ (· * ·) (congrArg (V c main_v23) h0) (congrArg (V c main_arg8) h1)

/-- An index of the result array is in point t's block iff each coordinate is in the block's range on its axis. -/
theorem mem_blk4 (t : Fin cfg4.N) (i : S3072x1024.Idx) :
    i ∈ ((cfg4.win 2).blk t).view.set ↔ ∀ a : Fin 2, win4_2.index t a * S512x1024.size a ≤ (i a).val
      ∧ (i a).val < win4_2.index t a * S512x1024.size a + S512x1024.size a := by
  show i ∈ ((View.whole main_v26).slice (win4_2.rect t)).set ↔ _
  rw [View.set_slice_whole, Rect.mem_set_unit]
  exact Iff.rfl

/-- Every row block is some point's. -/
theorem onto4 : ∀ q0 : Fin 6, ∃ t : Fin cfg4.N, win4_2.index t = ![q0.val, 0] :=
  (by decide +kernel : ∀ q0 : Fin 6, ∃ t : Fin grid4.N, win4_2.index t = ![q0.val, 0])

/-- Row r of the result is in the block of point r / 512, which writes it back. -/
theorem cover4 (i : S3072x1024.Idx) :
    ∃ t : Fin cfg4.N, (cfg4.win 2).flush t = true ∧ i ∈ ((cfg4.win 2).blk t).view.set := by
  have hi0 : (i 0).val < 3072 := (i 0).isLt
  have hi1 : (i 1).val < 1024 := (i 1).isLt
  obtain ⟨t, ht⟩ := onto4 ⟨(i 0).val / 512, by omega⟩
  have q0 : win4_2.index t (0 : Fin 2) = (i 0).val / 512 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 512 ≤ (i 0).val ∧ (i 0).val < win4_2.index t (0 : Fin 2) * 512 + 512; omega
  | ⟨1, _⟩ => show win4_2.index t (1 : Fin 2) * 1024 ≤ (i 1).val ∧ (i 1).val < win4_2.index t (1 : Fin 2) * 1024 + 1024; omega

/-- The result array after region 4 is the product of the two arrays it reads, as the region finds them. -/
theorem final4 (c : Dev nD) :
    (dat4 (F := Ideal) V c).arrAt 2 cfg4.N = G4 (V c main_v23) (V c main_arg8) :=
  (dat4 V c).arrAt_eq_of_cover 2 (G4 (V c main_v23) (V c main_arg8)) (fun t _ => flushed4_eq V c t) cover4

/-- Entry (r, j) of region 4's result: row r of the left array against column j of the right one. -/
theorem out4_at (c : Dev nD) (r : Fin 3072) (j : Fin 1024) :
    (dat4 (F := Ideal) V c).arrAt 2 cfg4.N (ix2 r j)
      = ∑ k : Fin 1024, @HMul.hMul EReal EReal EReal _ (V c main_v23 (ix2 r k)) (V c main_arg8 (ix2 k j)) :=
  congrFun (final4 V c) (ix2 r j)

/-! ## Region 5: the second projection, 2048 rows in 4 blocks -/

/-- Region 5's payload at entry (p, q): the row p of the block against the column q of the weights. -/
theorem pay5_at (x0 : Vec Ideal S512x1024 .bf16) (x1 : Vec Ideal S1024x1024 .f32) (p : Fin 512) (q : Fin 1024) :
    k5_pay1 (F := Ideal) x0 x1 (ix2 p q) = ∑ k : Fin 1024, x0 (ix2 p k) * x1 (ix2 k q) := by
  unfold k5_pay1
  show FloatOps.matmul dot_S512x1024_S1024x1024_S512x1024_1_0_0_1_n_n none
      (shapeCast S512x1024 x0 shapeCasts_S512x1024_S512x1024) (truncf .bf16 x1 bitsLt_bf16_f32)
      (constant (F := Ideal) S512x1024 .f32 0x00000000#32) (ix2 p q) = _
  rw [shapeCast_self]
  exact dims_plain.matmul_zero none x0 (truncf .bf16 x1 bitsLt_bf16_f32) p q

/-- The same at an index not yet split into its coordinates. -/
theorem pay5_apply (x0 : Vec Ideal S512x1024 .bf16) (x1 : Vec Ideal S1024x1024 .f32) (j : S512x1024.Idx) :
    k5_pay1 (F := Ideal) x0 x1 j = ∑ k : Fin 1024, x0 (ix2 (j 0) k) * x1 (ix2 k (j 1)) := by
  obtain ⟨p, q, rfl⟩ : ∃ (p : Fin 512) (q : Fin 1024), j = ix2 p q := ⟨j 0, j 1, eq_ix2 j⟩
  exact pay5_at x0 x1 p q

/-- What region 5's result array ends holding: the product of the two arrays the region reads, entry by entry. -/
abbrev G5 (A : S2048x1024.Idx → EReal) (B : S1024x1024.Idx → EReal) : S2048x1024.Idx → EReal :=
  fun i => ∑ k : Fin 1024, A (ix2 (i 0) k) * B (ix2 k (i 1))

/-- The index maps over the grid: the left operand's row block moves with the result's, which is the point's own number;
    every other block index is 0. -/
theorem idx_facts5 : ∀ t : Fin cfg5.N, win5_0.index t (0 : Fin 2) = win5_2.index t (0 : Fin 2)
    ∧ win5_0.index t (1 : Fin 2) = 0
    ∧ win5_1.index t (0 : Fin 2) = 0
    ∧ win5_1.index t (1 : Fin 2) = 0
    ∧ win5_2.index t (1 : Fin 2) = 0
    ∧ win5_2.index t (0 : Fin 2) = t.val :=
  (by decide +kernel : ∀ t : Fin grid5.N, _)

/-- What point t writes back is block t of the product: the left operand's block is rows 512·t … of its array, the right
    operand's block is its whole array, and the block's entry (p, q) is row 512·t + p against column q. -/
theorem flushed5_eq (c : Dev nD) (t : Fin cfg5.N) :
    (dat5 (F := Ideal) V c).flushed 2 t
      = ((cfg5.win 2).blk t).view.read (Elt Ideal) (G5 (V c main_v25) (V c main_arg9)) := by
  show (cfg5.win 2).cut (grid5.coords t) ((dat5 V c).after 2 t) = _
  rw [after5_2]
  unfold out5_2
  rw [View.canon_unit_zero zeros]
  simp only [View.ld_unit_zero (S := S512x1024) zeros, View.ld_unit_zero (S := S1024x1024) zeros]
  funext j
  refine (pay5_apply _ _ j).trans ?_
  obtain ⟨e0, e1, e2, e3, e4, e5⟩ := idx_facts5 t
  show _ = G5 (V c main_v25) (V c main_arg9) (((cfg5.win 2).blk t).view.emb j)
  show (∑ k : Fin 1024, _) = ∑ k : Fin 1024, _
  refine Finset.sum_congr rfl fun k _ => ?_
  have h0 : ((cfg5.win 0).blk t).view.emb (ix2 (j 0) k) = ix2 ((((cfg5.win 2).blk t).view.emb j) 0) k := by
    funext a; apply Fin.ext
    match a with
    | ⟨0, _⟩ => show win5_0.index t (0 : Fin 2) * 512 + 1 * (j 0).val = win5_2.index t (0 : Fin 2) * 512 + 1 * (j 0).val; omega
    | ⟨1, _⟩ => show win5_0.index t (1 : Fin 2) * 1024 + 1 * k.val = k.val; omega
  have h1 : ((cfg5.win 1).blk t).view.emb (ix2 k (j 1)) = ix2 k ((((cfg5.win 2).blk t).view.emb j) 1) := by
    funext a; apply Fin.ext
    match a with
    | ⟨0, _⟩ => show win5_1.index t (0 : Fin 2) * 1024 + 1 * k.val = k.val; omega
    | ⟨1, _⟩ => show win5_1.index t (1 : Fin 2) * 1024 + 1 * (j 1).val = win5_2.index t (1 : Fin 2) * 1024 + 1 * (j 1).val; omega
  exact congrArg₂ (· * ·) (congrArg (V c main_v25) h0) (congrArg (V c main_arg9) h1)

/-- An index of the result array is in point t's block iff each coordinate is in the block's range on its axis. -/
theorem mem_blk5 (t : Fin cfg5.N) (i : S2048x1024.Idx) :
    i ∈ ((cfg5.win 2).blk t).view.set ↔ ∀ a : Fin 2, win5_2.index t a * S512x1024.size a ≤ (i a).val
      ∧ (i a).val < win5_2.index t a * S512x1024.size a + S512x1024.size a := by
  show i ∈ ((View.whole main_v27).slice (win5_2.rect t)).set ↔ _
  rw [View.set_slice_whole, Rect.mem_set_unit]
  exact Iff.rfl

/-- Every row block is some point's. -/
theorem onto5 : ∀ q0 : Fin 4, ∃ t : Fin cfg5.N, win5_2.index t = ![q0.val, 0] :=
  (by decide +kernel : ∀ q0 : Fin 4, ∃ t : Fin grid5.N, win5_2.index t = ![q0.val, 0])

/-- Row r of the result is in the block of point r / 512, which writes it back. -/
theorem cover5 (i : S2048x1024.Idx) :
    ∃ t : Fin cfg5.N, (cfg5.win 2).flush t = true ∧ i ∈ ((cfg5.win 2).blk t).view.set := by
  have hi0 : (i 0).val < 2048 := (i 0).isLt
  have hi1 : (i 1).val < 1024 := (i 1).isLt
  obtain ⟨t, ht⟩ := onto5 ⟨(i 0).val / 512, by omega⟩
  have q0 : win5_2.index t (0 : Fin 2) = (i 0).val / 512 := congrFun ht 0
  have q1 : win5_2.index t (1 : Fin 2) = 0 := congrFun ht 1
  refine ⟨t, flush5_2 t, ?_⟩
  rw [mem_blk5]
  intro a
  match a with
  | ⟨0, _⟩ => show win5_2.index t (0 : Fin 2) * 512 ≤ (i 0).val ∧ (i 0).val < win5_2.index t (0 : Fin 2) * 512 + 512; omega
  | ⟨1, _⟩ => show win5_2.index t (1 : Fin 2) * 1024 ≤ (i 1).val ∧ (i 1).val < win5_2.index t (1 : Fin 2) * 1024 + 1024; omega

/-- The result array after region 5 is the product of the two arrays it reads, as the region finds them. -/
theorem final5 (c : Dev nD) :
    (dat5 (F := Ideal) V c).arrAt 2 cfg5.N = G5 (V c main_v25) (V c main_arg9) :=
  (dat5 V c).arrAt_eq_of_cover 2 (G5 (V c main_v25) (V c main_arg9)) (fun t _ => flushed5_eq V c t) cover5

/-- Entry (r, j) of region 5's result: row r of the left array against column j of the right one. -/
theorem out5_at (c : Dev nD) (r : Fin 2048) (j : Fin 1024) :
    (dat5 (F := Ideal) V c).arrAt 2 cfg5.N (ix2 r j)
      = ∑ k : Fin 1024, @HMul.hMul EReal EReal EReal _ (V c main_v25 (ix2 r k)) (V c main_arg9 (ix2 k j)) :=
  congrFun (final5 V c) (ix2 r j)

end Cert.KernelIdeal.OutputProduct

end
-- ==== Proof.ContextStage.lean ====
/-
  From the head arrays to the results, on the reference's own stage terms.

  When the kernel's query, key and value arrays of a direction are the reference's head arrays, the kernel's context
  array (every entry a softmax-weighted sum) is the reference's context; transposed, flattened and multiplied with the
  output weights it is the reference's result.
-/
import proofs.«132884_j27573690040724_2_alg».proof.Proof.AttentionBlock2
import proofs.«132884_j27573690040724_2_alg».proof.Proof.AttentionBlock3
import proofs.«132884_j27573690040724_2_alg».proof.Proof.OutputProduct
import proofs.«132884_j27573690040724_2_alg».proof.Proof.ReferenceRead

set_option maxRecDepth 16384

noncomputable section

open scoped BigOperators

namespace Cert.KernelIdeal.ContextStage

open Cert.KernelIdeal Cert.KernelIdeal.Gen Idealize.ShloMosaic Idealize.ShloMosaic.ValueIdx
open Cert.ReferenceIdeal.Read (val_main_v2 val_main_v5 val_main_v8 val_main_v11 val_main_v14 val_main_v17
  val_main_v32 val_main_v47 val_main_v48 val_main_v49 val_main_v50 val_main_v51 val_main_v52 val_main_v53)
open Cert.ReferenceIdeal.RefRead (ref_ctx1 ref_ctx2 ref_v52 ref_v53)

variable (x0 : (⟨Cert.ReferenceIdeal.S2048x1024, .f32⟩ : BufTy).Contents (Elt Ideal)) (x1 : (⟨Cert.ReferenceIdeal.S3072x1024, .f32⟩ : BufTy).Contents (Elt Ideal))
  (x2 x3 x4 x5 x6 x7 x8 x9 : (⟨Cert.ReferenceIdeal.S1024x1024, .f32⟩ : BufTy).Contents (Elt Ideal))

/-- Direction 1 (queries from the second input): the kernel's context function of the reference's head arrays is the
    reference's context. -/
theorem context1 :
    Cert.KernelIdeal.Attention2.wholeContext (val_main_v11 (F := Ideal) x1 x5) (val_main_v5 (F := Ideal) x0 x3)
        (val_main_v8 (F := Ideal) x0 x4)
      = val_main_v32 (F := Ideal) x0 x1 x3 x4 x5 := by
  funext i
  obtain ⟨h, q, d, rfl⟩ : ∃ (h : Fin 16) (q : Fin 3072) (d : Fin 64), i = ix3 h q d := ⟨i 0, i 1, i 2, eq_ix3 i⟩
  exact (ref_ctx1 x0 x1 x3 x4 x5 h q d).symm

/-- Direction 2 (queries from the first input). -/
theorem context2 :
    Cert.KernelIdeal.Attention3.wholeContext (val_main_v2 (F := Ideal) x0 x2) (val_main_v14 (F := Ideal) x1 x6)
        (val_main_v17 (F := Ideal) x1 x7)
      = val_main_v47 (F := Ideal) x0 x1 x2 x6 x7 := by
  funext i
  obtain ⟨h, q, d, rfl⟩ : ∃ (h : Fin 16) (q : Fin 2048) (d : Fin 64), i = ix3 h q d := ⟨i 0, i 1, i 2, eq_ix3 i⟩
  exact (ref_ctx2 x0 x1 x2 x6 x7 h q d).symm

/-- The flattened transposed context of direction 1 is the reference's. -/
theorem flat1 :
    (shapeCast S3072x1024 (transpose S16x64x3072 [0, 2, 1] (val_main_v32 (F := Ideal) x0 x1 x3 x4 x5)
        transposes_S16x3072x64_S16x64x3072_0_2_1 : S16x64x3072.Idx → EReal) shapeCasts_S16x64x3072_S3072x1024 : S3072x1024.Idx → EReal)
      = val_main_v49 (F := Ideal) x0 x1 x3 x4 x5 := by
  unfold val_main_v49 val_main_v48
  rfl

/-- The flattened transposed context of direction 2 is the reference's. -/
theorem flat2 :
    (shapeCast S2048x1024 (transpose S16x64x2048 [0, 2, 1] (val_main_v47 (F := Ideal) x0 x1 x2 x6 x7)
        transposes_S16x2048x64_S16x64x2048_0_2_1 : S16x64x2048.Idx → EReal) shapeCasts_S16x64x2048_S2048x1024 : S2048x1024.Idx → EReal)
      = val_main_v51 (F := Ideal) x0 x1 x2 x6 x7 := by
  unfold val_main_v51 val_main_v50
  rfl

/-- The first result: rows of the flattened context times the output weights. -/
theorem result1 :
    Cert.KernelIdeal.OutputProduct.G4 (val_main_v49 (F := Ideal) x0 x1 x3 x4 x5) x8
      = val_main_v52 (F := Ideal) x0 x1 x3 x4 x5 x8 := by
  funext i
  obtain ⟨r, j, rfl⟩ : ∃ (r : Fin 3072) (j : Fin 1024), i = ix2 r j := ⟨i 0, i 1, eq_ix2 i⟩
  exact (ref_v52 x0 x1 x3 x4 x5 x8 r j).symm

/-- The second result. -/
theorem result2 :
    Cert.KernelIdeal.OutputProduct.G5 (val_main_v51 (F := Ideal) x0 x1 x2 x6 x7) x9
      = val_main_v53 (F := Ideal) x0 x1 x2 x6 x7 x9 := by
  funext i
  obtain ⟨r, j, rfl⟩ : ∃ (r : Fin 2048) (j : Fin 1024), i = ix2 r j := ⟨i 0, i 1, eq_ix2 i⟩
  exact (ref_v53 x0 x1 x2 x6 x7 x9 r j).symm

end Cert.KernelIdeal.ContextStage

end
-- ==== Proof.KernelValue.lean ====
/-
  The idealized kernel's two results as the reference's functions of the launch arrays.

  The buffer contents at the boundaries of @main are followed from the launch memory: the two fused projections; the
  host's column bands, reshaped and transposed into head arrays; the two attention contexts; their transposes
  flattened; the two output products. At each boundary the kernel's buffer is the reference's stage of the same
  arguments.
-/
import proofs.«132884_j27573690040724_2_alg».proof.Proof.Gen.KernelIdeal.Frame
import proofs.«132884_j27573690040724_2_alg».proof.Proof.ProjectionBlocks
import proofs.«132884_j27573690040724_2_alg».proof.Proof.ProjectionStage
import proofs.«132884_j27573690040724_2_alg».proof.Proof.HostStretches
import proofs.«132884_j27573690040724_2_alg».proof.Proof.KeptArguments
import proofs.«132884_j27573690040724_2_alg».proof.Proof.AttentionBlock2
import proofs.«132884_j27573690040724_2_alg».proof.Proof.AttentionBlock3
import proofs.«132884_j27573690040724_2_alg».proof.Proof.OutputProduct
import proofs.«132884_j27573690040724_2_alg».proof.Proof.ContextStage

set_option maxRecDepth 16384

noncomputable section

open scoped BigOperators

namespace Cert.KernelIdeal.Value

open Cert.KernelIdeal Cert.KernelIdeal.Gen Idealize.ShloMosaic Idealize.ShloMosaic.TcCoe Idealize.ShloMosaic.ValueIdx
open Idealize.ShloMosaic.StableHlo Idealize.SL.Sem
open Cert.ReferenceIdeal.Read (val_main_v2 val_main_v5 val_main_v8 val_main_v11 val_main_v14 val_main_v17
  val_main_v32 val_main_v47 val_main_v49 val_main_v51 val_main_v52 val_main_v53)

variable (m : (ℓ : Loc nD τ sig) → Buf (Elt Ideal) ℓ) (ρ : Dev nD → PrngReg) (c : Dev nD)

/-! ## The fused projections, entry by entry, over the launch arrays -/

theorem proj0 (r : Fin 2048) (j : Fin 1024) :
    (dat0 (F := Ideal) (V0 m ρ) c).arrAt 4 cfg0.N (ix2 r ⟨j.val, by omega⟩) = ∑ k : Fin 1024, @HMul.hMul EReal EReal EReal _ ((m ((c : Thread nD τ).loc main_arg0)) (ix2 r k)) ((m ((c : Thread nD τ).loc main_arg2)) (ix2 k j))
    ∧ (dat0 (F := Ideal) (V0 m ρ) c).arrAt 4 cfg0.N (ix2 r ⟨1024 + j.val, by omega⟩) = ∑ k : Fin 1024, @HMul.hMul EReal EReal EReal _ ((m ((c : Thread nD τ).loc main_arg0)) (ix2 r k)) ((m ((c : Thread nD τ).loc main_arg3)) (ix2 k j))
    ∧ (dat0 (F := Ideal) (V0 m ρ) c).arrAt 4 cfg0.N (ix2 r ⟨2048 + j.val, by omega⟩) = ∑ k : Fin 1024, @HMul.hMul EReal EReal EReal _ ((m ((c : Thread nD τ).loc main_arg0)) (ix2 r k)) ((m ((c : Thread nD τ).loc main_arg4)) (ix2 k j)) :=
  Cert.KernelIdeal.Projection.proj0_at (V0 m ρ) c r j

theorem proj1 (r : Fin 3072) (j : Fin 1024) :
    (dat1 (F := Ideal) (V1 m ρ) c).arrAt 4 cfg1.N (ix2 r ⟨j.val, by omega⟩) = ∑ k : Fin 1024, @HMul.hMul EReal EReal EReal _ ((m ((c : Thread nD τ).loc main_arg1)) (ix2 r k)) ((m ((c : Thread nD τ).loc main_arg5)) (ix2 k j))
    ∧ (dat1 (F := Ideal) (V1 m ρ) c).arrAt 4 cfg1.N (ix2 r ⟨1024 + j.val, by omega⟩) = ∑ k : Fin 1024, @HMul.hMul EReal EReal EReal _ ((m ((c : Thread nD τ).loc main_arg1)) (ix2 r k)) ((m ((c : Thread nD τ).loc main_arg6)) (ix2 k j))
    ∧ (dat1 (F := Ideal) (V1 m ρ) c).arrAt 4 cfg1.N (ix2 r ⟨2048 + j.val, by omega⟩) = ∑ k : Fin 1024, @HMul.hMul EReal EReal EReal _ ((m ((c : Thread nD τ).loc main_arg1)) (ix2 r k)) ((m ((c : Thread nD τ).loc main_arg7)) (ix2 k j)) := by
  have h := Cert.KernelIdeal.Projection.proj1_at (V1 m ρ) c r j
  rw [show V1 m ρ c main_arg1 = (m ((c : Thread nD τ).loc main_arg1)) from Cert.KernelIdeal.Kept.W1_main_arg1 m ρ c,
    show V1 m ρ c main_arg5 = (m ((c : Thread nD τ).loc main_arg5)) from Cert.KernelIdeal.Kept.W1_main_arg5 m ρ c,
    show V1 m ρ c main_arg6 = (m ((c : Thread nD τ).loc main_arg6)) from Cert.KernelIdeal.Kept.W1_main_arg6 m ρ c,
    show V1 m ρ c main_arg7 = (m ((c : Thread nD τ).loc main_arg7)) from Cert.KernelIdeal.Kept.W1_main_arg7 m ρ c] at h
  exact h

/-! ## The head arrays before the attention regions -/

theorem fused0 : W2 (F := Ideal) m ρ c (main_v0 : DevRef τ sig) = (dat0 (F := Ideal) (V0 m ρ) c).arrAt 4 cfg0.N :=
  (Cert.KernelIdeal.Kept.W2_main_v0 m ρ c).trans (W1_arr m ρ c 4)

theorem fused1 : W2 (F := Ideal) m ρ c (main_v1 : DevRef τ sig) = (dat1 (F := Ideal) (V1 m ρ) c).arrAt 4 cfg1.N :=
  W2_arr m ρ c 4

theorem heads_first :
    W3 (F := Ideal) m ρ c (main_v9 : DevRef τ sig) = val_main_v2 (F := Ideal) (m ((c : Thread nD τ).loc main_arg0)) (m ((c : Thread nD τ).loc main_arg2))
    ∧ W3 (F := Ideal) m ρ c (main_v11 : DevRef τ sig) = val_main_v5 (F := Ideal) (m ((c : Thread nD τ).loc main_arg0)) (m ((c : Thread nD τ).loc main_arg3))
    ∧ W3 (F := Ideal) m ρ c (main_v13 : DevRef τ sig) = val_main_v8 (F := Ideal) (m ((c : Thread nD τ).loc main_arg0)) (m ((c : Thread nD τ).loc main_arg4)) := by
  obtain ⟨h0, h1, h2⟩ := Cert.KernelIdeal.ProjectionStage.heads0 _ (m ((c : Thread nD τ).loc main_arg0)) (m ((c : Thread nD τ).loc main_arg2)) (m ((c : Thread nD τ).loc main_arg3)) (m ((c : Thread nD τ).loc main_arg4)) (proj0 m ρ c)
  refine ⟨?_, ?_, ?_⟩
  · show after (hostOps2 (F := Ideal)) (W2 m ρ c) (main_v9 : DevRef τ sig) = _
    rw [Cert.KernelIdeal.HostStretches.hostOps2_main_v9, fused0]; exact h0
  · show after (hostOps2 (F := Ideal)) (W2 m ρ c) (main_v11 : DevRef τ sig) = _
    rw [Cert.KernelIdeal.HostStretches.hostOps2_main_v11, fused0]; exact h1
  · show after (hostOps2 (F := Ideal)) (W2 m ρ c) (main_v13 : DevRef τ sig) = _
    rw [Cert.KernelIdeal.HostStretches.hostOps2_main_v13, fused0]; exact h2

theorem heads_second :
    W3 (F := Ideal) m ρ c (main_v15 : DevRef τ sig) = val_main_v11 (F := Ideal) (m ((c : Thread nD τ).loc main_arg1)) (m ((c : Thread nD τ).loc main_arg5))
    ∧ W3 (F := Ideal) m ρ c (main_v17 : DevRef τ sig) = val_main_v14 (F := Ideal) (m ((c : Thread nD τ).loc main_arg1)) (m ((c : Thread nD τ).loc main_arg6))
    ∧ W3 (F := Ideal) m ρ c (main_v19 : DevRef τ sig) = val_main_v17 (F := Ideal) (m ((c : Thread nD τ).loc main_arg1)) (m ((c : Thread nD τ).loc main_arg7)) := by
  obtain ⟨h0, h1, h2⟩ := Cert.KernelIdeal.ProjectionStage.heads1 _ (m ((c : Thread nD τ).loc main_arg1)) (m ((c : Thread nD τ).loc main_arg5)) (m ((c : Thread nD τ).loc main_arg6)) (m ((c : Thread nD τ).loc main_arg7)) (proj1 m ρ c)
  refine ⟨?_, ?_, ?_⟩
  · show after (hostOps2 (F := Ideal)) (W2 m ρ c) (main_v15 : DevRef τ sig) = _
    rw [Cert.KernelIdeal.HostStretches.hostOps2_main_v15, fused1]; exact h0
  · show after (hostOps2 (F := Ideal)) (W2 m ρ c) (main_v17 : DevRef τ sig) = _
    rw [Cert.KernelIdeal.HostStretches.hostOps2_main_v17, fused1]; exact h1
  · show after (hostOps2 (F := Ideal)) (W2 m ρ c) (main_v19 : DevRef τ sig) = _
    rw [Cert.KernelIdeal.HostStretches.hostOps2_main_v19, fused1]; exact h2

/-! ## The two contexts -/

theorem context_first :
    W5 (F := Ideal) m ρ c (main_v20 : DevRef τ sig) = val_main_v32 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  obtain ⟨-, hk, hv⟩ := heads_first m ρ c
  obtain ⟨hq, -, -⟩ := heads_second m ρ c
  refine (Cert.KernelIdeal.Kept.W5_main_v20 m ρ c).trans ?_
  refine (W4_arr m ρ c 3).trans ?_
  rw [Cert.KernelIdeal.Attention2.array_eq (V3 m ρ) c]
  rw [show V3 m ρ c main_v15 = _ from hq, show V3 m ρ c main_v11 = _ from hk, show V3 m ρ c main_v13 = _ from hv]
  exact Cert.KernelIdeal.ContextStage.context1 (m ((c : Thread nD τ).loc main_arg0)) (m ((c : Thread nD τ).loc main_arg1)) (m ((c : Thread nD τ).loc main_arg3)) (m ((c : Thread nD τ).loc main_arg4)) (m ((c : Thread nD τ).loc main_arg5))

theorem context_second :
    W5 (F := Ideal) m ρ c (main_v21 : DevRef τ sig) = val_main_v47 (F := Ideal) (m ((c : Thread nD τ).loc main_arg0)) (m ((c : Thread nD τ).loc main_arg1)) (m ((c : Thread nD τ).loc main_arg2)) (m ((c : Thread nD τ).loc main_arg6)) (m ((c : Thread nD τ).loc main_arg7)) := by
  obtain ⟨hq, -, -⟩ := heads_first m ρ c
  obtain ⟨-, hk, hv⟩ := heads_second m ρ c
  refine (W5_arr m ρ c 3).trans ?_
  rw [Cert.KernelIdeal.Attention3.array_eq (V4 m ρ) c]
  rw [show V4 m ρ c main_v9 = _ from (Cert.KernelIdeal.Kept.W4_main_v9 m ρ c).trans hq,
    show V4 m ρ c main_v17 = _ from (Cert.KernelIdeal.Kept.W4_main_v17 m ρ c).trans hk,
    show V4 m ρ c main_v19 = _ from (Cert.KernelIdeal.Kept.W4_main_v19 m ρ c).trans hv]
  exact Cert.KernelIdeal.ContextStage.context2 (m ((c : Thread nD τ).loc main_arg0)) (m ((c : Thread nD τ).loc main_arg1)) (m ((c : Thread nD τ).loc main_arg2)) (m ((c : Thread nD τ).loc main_arg6)) (m ((c : Thread nD τ).loc main_arg7))

/-! ## The flattened contexts before the output regions -/

theorem flat_first :
    W6 (F := Ideal) m ρ c (main_v23 : DevRef τ sig) = val_main_v49 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show after (hostOps4 (F := Ideal)) (W5 m ρ c) (main_v23 : DevRef τ sig) = _
  rw [Cert.KernelIdeal.HostStretches.hostOps4_main_v23, context_first]
  exact Cert.KernelIdeal.ContextStage.flat1 (m ((c : Thread nD τ).loc main_arg0)) (m ((c : Thread nD τ).loc main_arg1)) (m ((c : Thread nD τ).loc main_arg3)) (m ((c : Thread nD τ).loc main_arg4)) (m ((c : Thread nD τ).loc main_arg5))

theorem flat_second :
    W6 (F := Ideal) m ρ c (main_v25 : DevRef τ sig) = val_main_v51 (F := Ideal) (m ((c : Thread nD τ).loc main_arg0)) (m ((c : Thread nD τ).loc main_arg1)) (m ((c : Thread nD τ).loc main_arg2)) (m ((c : Thread nD τ).loc main_arg6)) (m ((c : Thread nD τ).loc main_arg7)) := by
  show after (hostOps4 (F := Ideal)) (W5 m ρ c) (main_v25 : DevRef τ sig) = _
  rw [Cert.KernelIdeal.HostStretches.hostOps4_main_v25, context_second]
  exact Cert.KernelIdeal.ContextStage.flat2 (m ((c : Thread nD τ).loc main_arg0)) (m ((c : Thread nD τ).loc main_arg1)) (m ((c : Thread nD τ).loc main_arg2)) (m ((c : Thread nD τ).loc main_arg6)) (m ((c : Thread nD τ).loc main_arg7))

/-! ## The two results -/

/-- The first result array when @main returns is the reference's first result of the launch arrays. -/
theorem result_first :
    W8 (F := Ideal) m ρ c (Proc.devRef .tc main_v26) = val_main_v52 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg8)) := by
  refine (Cert.KernelIdeal.Kept.W8_main_v26 m ρ c).trans ?_
  refine (W7_arr m ρ c 2).trans ?_
  rw [Cert.KernelIdeal.OutputProduct.final4 (V6 m ρ) c]
  rw [show V6 m ρ c main_v23 = _ from flat_first m ρ c,
    show V6 m ρ c main_arg8 = (m ((c : Thread nD τ).loc main_arg8)) from Cert.KernelIdeal.Kept.W6_main_arg8 m ρ c]
  exact Cert.KernelIdeal.ContextStage.result1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg8))

/-- The second result array when @main returns is the reference's second result of the launch arrays. -/
theorem result_second :
    W8 (F := Ideal) m ρ c (Proc.devRef .tc main_v27) = val_main_v53 (F := Ideal) (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg9)) := by
  refine (W8_arr m ρ c 2).trans ?_
  rw [Cert.KernelIdeal.OutputProduct.final5 (V7 m ρ) c]
  rw [show V7 m ρ c main_v25 = _ from (Cert.KernelIdeal.Kept.W7_main_v25 m ρ c).trans (flat_second m ρ c),
    show V7 m ρ c main_arg9 = (m ((c : Thread nD τ).loc main_arg9)) from Cert.KernelIdeal.Kept.W7_main_arg9 m ρ c]
  exact Cert.KernelIdeal.ContextStage.result2 (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg9))

end Cert.KernelIdeal.Value

end
-- ==== Proof.lean ====
/-
  Two-direction cross attention: a six-region kernel against a plain array program.

  Both programs project two inputs X [2048, 1024] and X1 [3072, 1024] to queries, keys and values, split them into 16
  heads of width 64, let each input's queries attend over the other input's keys and values (logits scaled by 1/8,
  softmax over the keys, weighted sum of the values), interleave heads and rows by a transpose and a flattening, and
  multiply with an output weight. The kernel fuses the three projections of an input into one region, runs attention
  per head and per tile of 512 query rows, and scales the queries before the inner product instead of the logits after
  it. At the extended reals a change of float format is the identity, a matrix unit's product from zero is the plain
  sum, and the factor 1/8 distributes over the inner sum whatever its terms, so the two programs compute the same
  function of their arguments; no finiteness of the inputs is used.

  The kernel's run is read boundary by boundary (Proof/KernelValue.lean) and the reference's run stage by stage
  (Proof/ReferenceRead.lean); the three frames are the generated ones; the idealization rewrote nothing.
-/
import proofs.«132884_j27573690040724_2_alg».proof.Defs
import proofs.«132884_j27573690040724_2_alg».proof.Proof.Gen.Kernel
import proofs.«132884_j27573690040724_2_alg».proof.Proof.Gen.Kernel.Skeleton
import proofs.«132884_j27573690040724_2_alg».proof.Proof.Gen.Kernel.Launch
import proofs.«132884_j27573690040724_2_alg».proof.Proof.Gen.Kernel.Points
import proofs.«132884_j27573690040724_2_alg».proof.Proof.Gen.Kernel.Frame
import proofs.«132884_j27573690040724_2_alg».proof.Proof.Gen.KernelIdeal
import proofs.«132884_j27573690040724_2_alg».proof.Proof.Gen.KernelIdeal.Skeleton
import proofs.«132884_j27573690040724_2_alg».proof.Proof.Gen.KernelIdeal.Launch
import proofs.«132884_j27573690040724_2_alg».proof.Proof.Gen.KernelIdeal.Points
import proofs.«132884_j27573690040724_2_alg».proof.Proof.Gen.KernelIdeal.Frame
import proofs.«132884_j27573690040724_2_alg».proof.Proof.Gen.ReferenceIdeal
import proofs.«132884_j27573690040724_2_alg».proof.Proof.Gen.Pre_finite_inputs
import proofs.«132884_j27573690040724_2_alg».proof.Proof.Gen.ReferenceIdeal.Run
import proofs.«132884_j27573690040724_2_alg».proof.Proof.Gen.ReferenceIdeal.Read
import proofs.«132884_j27573690040724_2_alg».proof.Proof.RunValues
import proofs.«132884_j27573690040724_2_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read at the extended reals. -/
theorem frame_kernel_ideal : Cert.frame_KernelIdeal := fun m ρ _ => Cert.KernelIdeal.Gen.frame m ρ

/-- The reference has no kernel: its frame is its run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories agreeing on the ten arguments both programs end with the same two results: the reference's two
    result functions of the kernel's launch arrays. -/
theorem algebraic : Cert.algebraic_KernelIdeal_ReferenceIdeal := by
  intro m ρ m' ρ' _ hagree
  refine ⟨fun c => Cert.ReferenceIdeal.Read.val_main_v52 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)),
    fun c => Cert.ReferenceIdeal.Read.val_main_v53 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg9)), ?_, ?_⟩
  · refine (θ_run Cert.KernelIdeal.defs _ _).mono (fun r h c => ?_) (Cert.KernelIdeal.RunValues.run (F := Ideal) m ρ)
    obtain ⟨h0, h1, hargs⟩ := h c
    exact ⟨h0.trans (Cert.KernelIdeal.Value.result_first m ρ c), h1.trans (Cert.KernelIdeal.Value.result_second m ρ c), hargs⟩
  · refine (θ_run Cert.ReferenceIdeal.defs _ _).mono (fun r h c => ?_) (Cert.ReferenceIdeal.Value.run (F := Ideal) m' ρ')
    obtain ⟨h0, h1, hargs⟩ := h c
    obtain ⟨g0, g1, g2, g3, g4, g5, g6, g7, g8, g9⟩ := hagree c
    refine ⟨h0.trans ?_, h1.trans ?_, hargs⟩
    · rw [Cert.ReferenceIdeal.Read.val_main_v52_eq, g0, g1, g3, g4, g5, g8]
    · rw [Cert.ReferenceIdeal.Read.val_main_v53_eq, g0, g1, g2, g6, g7, g9]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
